-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) (main_arg2 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 30
  | .vmem => 27
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S8192x128, .f32⟩
  | .hbm, ⟨16, _⟩ => ⟨S8192x128, .f32⟩
  | .hbm, ⟨17, _⟩ => ⟨S8192x1, .i32⟩
  | .hbm, ⟨18, _⟩ => ⟨S1x8192, .i32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x1, .i32⟩
  | .local _ .vmem, ⟨19, _⟩ => ⟨S1024x1, .i32⟩
  | .local _ .vmem, ⟨20, _⟩ => ⟨S1x1024, .i32⟩
  | .local _ .vmem, ⟨21, _⟩ => ⟨S1x1024, .i32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_17 : BitVec 32 := 0#32
  let v36 : BitVec 1 := Scalar.cmpi .ne v35 c0_i32_17
  v36

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  natLt_1_32 : 1 < 32
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .i32 = 32 ∨ (Rect.block (s := S1x8192) S1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v2) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8_0) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1024x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S128x8192 : Shape := ⟨2, ![128, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S8192x1, .i32⟩
  | .hbm, ⟨4, _⟩ => ⟨S1x8192, .i32⟩
  | .hbm, ⟨5, _⟩ => ⟨S8192x8192, .i32⟩
  | .hbm, ⟨6, _⟩ => ⟨S8192x8192, .i32⟩
  | .hbm, ⟨7, _⟩ => ⟨S8192x8192, .i1⟩
  | .hbm, ⟨8, _⟩ => ⟨S8192x128, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x1, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x1, .f32⟩
  | .hbm, ⟨20, _⟩ => ⟨S8192x128, .f32⟩
  | .hbm, ⟨21, _⟩ => ⟨S8192x128, .f32⟩
  | .hbm, ⟨22, _⟩ => ⟨S128x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .i1⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S8192x8192, .i32⟩
  | .hbm, ⟨45, _⟩ => ⟨S_, .i32⟩
  | .hbm, ⟨46, _⟩ => ⟨S8192, .i32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_call2_v0 : Ref sig .tc := ⟨.hbm, 39, rfl⟩
abbrev main_call2_v1 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_c : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x128_S8192_d1 : S8192x128.ReducesTo [1] S8192
  h_S_ : 0 < S_.numel
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  natLt_1_32 : 1 < 32
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.FrameK.R0Shared.lean ====
/- Region 0 (the first pallas_call, `cc0__denom_kernel`): what the three case runs and the body obligation share.
   The body's two branch conditions in closed form over the grid, where the two output windows are idle, the
   staging and scratch memrefs, the region invariant with the two scratch accumulators opened, and each input
   window's block read off the buffer contents `V` the region is entered with. -/
import proofs.«105148_j76553497084189_1_alg».proof.Proof.Gen.Kernel.Launch
import proofs.«105148_j76553497084189_1_alg».proof.Proof.Gen.Kernel.Skeleton
import proofs.«105148_j76553497084189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (column coordinate = 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second `scf.if` (column coordinate = 7), from the grid coordinates. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The four input windows are never idle. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Where the second condition fails the body stores nothing into output windows 4 and 5: they are idle there, -/
theorem idleAt4 : ∀ t : Fin cfg0.N, ¬cond0_1 (grid0.coords t) → cfg0.idle 4 (grid0.coords t) = true := by decide +kernel
theorem idleAt5 : ∀ t : Fin cfg0.N, ¬cond0_1 (grid0.coords t) → cfg0.idle 5 (grid0.coords t) = true := by decide +kernel
/-- and the pipeline does not write their blocks back there. -/
theorem noFlush4 : ∀ t : Fin cfg0.N, ¬cond0_1 (grid0.coords t) → (cfg0.win 4).flush t = false := by decide +kernel
theorem noFlush5 : ∀ t : Fin cfg0.N, ¬cond0_1 (grid0.coords t) → (cfg0.win 5).flush t = false := by decide +kernel
/-- Where it holds they are live: the body stores into them. -/
theorem liveAt4 : ∀ t : Fin cfg0.N, cond0_1 (grid0.coords t) → cfg0.idle 4 (grid0.coords t) = false := by decide +kernel
theorem liveAt5 : ∀ t : Fin cfg0.N, cond0_1 (grid0.coords t) → cfg0.idle 5 (grid0.coords t) = false := by decide +kernel

/-! ## The staging and scratch memrefs -/

/-- One staging buffer of each output window, through which its contents are stated (the choice does not matter). -/
abbrev VO4 : View sig .tc .vmem S1024x1 .f32 := (Memref.whole cc0_stg4_0 : Memref sig .tc .vmem S1024x1 .f32).view
abbrev VO5 : View sig .tc .vmem S1024x1 .f32 := (Memref.whole cc0_stg5_0 : Memref sig .tc .vmem S1024x1 .f32).view
/-- Each window's current staging memref at point `t`, spelled as the pipeline passes it, and its wholeness. -/
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
/-- The two scratch accumulators: whole scoped buffers of the kernel's own, passed beside the windows. -/
abbrev scM0 : Memref sig .tc .vmem S1024x1 .f32 := Memref.whole cc0_scratch0
abbrev scM1 : Memref sig .tc .vmem S1024x1 .f32 := Memref.whole cc0_scratch1
/-- The same as views: what each holds is stated through it. -/
abbrev VS0 : View sig .tc .vmem S1024x1 .f32 := scM0.view
abbrev VS1 : View sig .tc .vmem S1024x1 .f32 := scM1.view

/-- The core's scoped buffers that are neither a staging buffer of this call nor one of its two scratch
    accumulators, at some contents each: carried through the region unopened. -/
abbrev restS (c : Dev nD) : sProp 𝕄 :=
  Pipeline.scopedRestBut (Ix := Unit) (Name := ℕ) (U := UR sig nD τ) (Lvl := ℕ) (Val := Elt F) spec0 c [cc0_scratch0, cc0_scratch1]

/-- The region invariant with the two scratch accumulators as memrefs owned at some contents, the other scoped
    buffers unopened, and the generator register at some state. -/
theorem PhiA_eq (c : Dev nD) :
    (Pipeline.ΦA spec0 c : sProp 𝕄)
      = iprop(iprop(iprop((∃ d, owns (c : Thread nD τ) scM0 fullShare d) ∗ (∃ d, owns (c : Thread nD τ) scM1 fullShare d)) ∗ restS (F := F) c) ∗ (∃ r, prngReg c r)) := by
  unfold Pipeline.ΦA
  rw [Pipeline.scopedRest_split_of_list spec0 c [cc0_scratch0, cc0_scratch1] (by decide) (by decide)]
  simp only [Idealize.SL.BI.bigSepL_cons_cons, Idealize.SL.BI.bigSepL_singleton, scM0, scM1, owns_whole]; try rfl

section Region
-- the buffer contents when the region is entered: the parameter everything of the region is stated at
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is `V`'s and whose body leaves the block in place: unfetched, the block index has not moved. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is `V`'s and whose body leaves the block in place: unfetched, the block index has not moved. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is `V`'s and whose body leaves the block in place: unfetched, the block index has not moved. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Region

end Cert.Kernel.R0

end
-- ==== Proof.FrameK.R0RunA.lean ====
/- Region 0, case A: the whole body of `cc0__denom_kernel` run on whole staging memrefs. The first condition holds
   (column coordinate 0) and the second does not: the two accumulators are zeroed, then added to; the two output
   windows are not touched. The pieces each accumulator ends with are the witness the run finds. -/
import proofs.«105148_j76553497084189_1_alg».proof.Proof.FrameK.R0Shared

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- In case A, on whole memrefs — the inputs' at their contents, the two outputs' at contents handed back untouched, the
    two accumulators at anything (each is loaded, then overwritten) — the body runs to the continuation holding the
    inputs and outputs as they were and each accumulator with its pieces (last first) written. -/
noncomputable def kernelRun_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S1024x128 .f32) (x2 : Vec F S1024x1 .i32) (x3 : Vec F S1x1024 .i32) :
    Σ' (LS0 : List (View.Piece (Elt F) S1024x1 .f32)), { LS1 : List (View.Piece (Elt F) S1024x1 .f32) //
      ∀ (xi4 : Vec F S1024x1 .f32) (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__denom_kernel i arg2 harg2 arg3 harg3 arg4 harg4 arg5 harg5 arg6 harg6 arg7 harg7 arg8 harg8 arg9 harg9) K } := by
  refine ⟨?_, ?_, fun xi4 xi5 E K => ?run⟩
  case run =>
    simp only [cc0__denom_kernel_eq_skeleton]; unfold cc0__denom_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.Kernel.R0

end
-- ==== Proof.FrameK.R0RunB.lean ====
/- Region 0, case B: the whole body of `cc0__denom_kernel` run on whole staging memrefs. Neither condition
   holds (column coordinate 1…6): the two accumulators are added to; the two output windows are not touched. The
   pieces each accumulator ends with are the witness the run finds. -/
import proofs.«105148_j76553497084189_1_alg».proof.Proof.FrameK.R0Shared

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- In case B, on whole memrefs — the inputs' at their contents, the two outputs' at contents handed back untouched, the
    two accumulators at what the point before left (`xs0`, `xs1`) — the body runs to the continuation holding the
    inputs and outputs as they were and each accumulator with its pieces (last first) written. -/
noncomputable def kernelRun_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) :
    Σ' (LS0 : List (View.Piece (Elt F) S1024x1 .f32)), { LS1 : List (View.Piece (Elt F) S1024x1 .f32) //
      ∀ (xi4 : Vec F S1024x1 .f32) (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__denom_kernel i arg2 harg2 arg3 harg3 arg4 harg4 arg5 harg5 arg6 harg6 arg7 harg7 arg8 harg8 arg9 harg9) K } := by
  refine ⟨?_, ?_, fun xi4 xi5 E K => ?run⟩
  case run =>
    simp only [cc0__denom_kernel_eq_skeleton]; unfold cc0__denom_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.Kernel.R0

end
-- ==== Proof.FrameK.R0RunC.lean ====
/- Region 0, case C: the whole body of `cc0__denom_kernel` run on whole staging memrefs. The second condition
   holds (column coordinate 7) and the first does not: the two accumulators are added to, then copied into the two
   output windows. The pieces each output and each accumulator ends with are the witness the run finds. -/
import proofs.«105148_j76553497084189_1_alg».proof.Proof.FrameK.R0Shared

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- In case C, on whole memrefs — the inputs' at their contents, the two outputs' at anything (each is loaded, then
    overwritten), the two accumulators at what the point before left (`xs0`, `xs1`) — the body runs to the continuation
    holding the inputs as they were and each output and each accumulator with its pieces (last first) written. -/
noncomputable def kernelRun_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) :
    Σ' (L4 : List (View.Piece (Elt F) S1024x1 .f32)) (L5 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__denom_kernel i arg2 harg2 arg3 harg3 arg4 harg4 arg5 harg5 arg6 harg6 arg7 harg7 arg8 harg8 arg9 harg9) K } := by
  refine ⟨?_, ?_, ?_, ?_, fun E K => ?run⟩
  case run =>
    simp only [cc0__denom_kernel_eq_skeleton]; unfold cc0__denom_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    isplitl [HS0]
    · iexists _; iexact HS0
    iexists _; iexact HS1

end Cert.Kernel.R0

end
-- ==== Proof.FrameK.R0Body.lean ====
/- Region 0 (`cc0__denom_kernel`): the body obligation. What each case of the body leaves in the two output windows and
   the two accumulators, point by point (`outsAt`: the accumulators carried from each point to the next along a grid
   row, zeroed at column 0, copied into the outputs at column 7); the region invariant with the accumulators at those
   contents; the proof data; and the body's triple at every point from the three case runs. Everything is stated at
   the buffer contents `V` the region is entered with. -/
import proofs.«105148_j76553497084189_1_alg».proof.Proof.FrameK.R0RunA
import proofs.«105148_j76553497084189_1_alg».proof.Proof.FrameK.R0RunB
import proofs.«105148_j76553497084189_1_alg».proof.Proof.FrameK.R0RunC

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves: covers and contents -/

/-- Case A's pieces for the first accumulator tile it, so they cover it. -/
theorem scover_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S1024x128 .f32) (x2 : Vec F S1024x1 .i32) (x3 : Vec F S1x1024 .i32) (y : S1024x1.Idx) :
    ∃ pc ∈ (kernelRun_A c i arg2 harg2 arg3 harg3 arg4 harg4 arg5 harg5 arg6 harg6 arg7 harg7 arg8 harg8 arg9 harg9 hc0 hc1 x0 x1 x2 x3).1, y ∈ pc.1.set :=
  View.cover_of_tiledL (kernelRun_A c i arg2 harg2 arg3 harg3 arg4 harg4 arg5 harg5 arg6 harg6 arg7 harg7 arg8 harg8 arg9 harg9 hc0 hc1 x0 x1 x2 x3).1 S1024x1.size (by sl_kernel_rfl) y

/-- What case A leaves in the first accumulator: its pieces read back over junk. -/
def sout_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S1024x128 .f32) (x2 : Vec F S1024x1 .i32) (x3 : Vec F S1x1024 .i32) : Vec F S1024x1 .f32 :=
  VS0.read (Elt F) (VS0.writes (Elt F) VS0.junk (kernelRun_A c i arg2 harg2 arg3 harg3 arg4 harg4 arg5 harg5 arg6 harg6 arg7 harg7 arg8 harg8 arg9 harg9 hc0 hc1 x0 x1 x2 x3).1)

/-- Case A's pieces for the second accumulator tile it, so they cover it. -/
theorem scover_A_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S1024x128 .f32) (x2 : Vec F S1024x1 .i32) (x3 : Vec F S1x1024 .i32) (y : S1024x1.Idx) :
    ∃ pc ∈ (kernelRun_A c i arg2 harg2 arg3 harg3 arg4 harg4 arg5 harg5 arg6 harg6 arg7 harg7 arg8 harg8 arg9 harg9 hc0 hc1 x0 x1 x2 x3).2.1, y ∈ pc.1.set :=
  View.cover_of_tiledL (kernelRun_A c i arg2 harg2 arg3 harg3 arg4 harg4 arg5 harg5 arg6 harg6 arg7 harg7 arg8 harg8 arg9 harg9 hc0 hc1 x0 x1 x2 x3).2.1 S1024x1.size (by sl_kernel_rfl) y

/-- What case A leaves in the second accumulator: its pieces read back over junk. -/
def sout_A_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S1024x128 .f32) (x2 : Vec F S1024x1 .i32) (x3 : Vec F S1x1024 .i32) : Vec F S1024x1 .f32 :=
  VS1.read (Elt F) (VS1.writes (Elt F) VS1.junk (kernelRun_A c i arg2 harg2 arg3 harg3 arg4 harg4 arg5 harg5 arg6 harg6 arg7 harg7 arg8 harg8 arg9 harg9 hc0 hc1 x0 x1 x2 x3).2.1)

/-- Case B's pieces for the first accumulator tile it, so they cover it. -/
theorem scover_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun_B c i arg2 harg2 arg3 harg3 arg4 harg4 arg5 harg5 arg6 harg6 arg7 harg7 arg8 harg8 arg9 harg9 hc0 hc1 x0 x1 x2 x3 xs0 xs1).1 S1024x1.size (by sl_kernel_rfl) y

/-- What case B leaves in the first accumulator: its pieces read back over junk. -/
def sout_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VS0.read (Elt F) (VS0.writes (Elt F) VS0.junk (kernelRun_B c i arg2 harg2 arg3 harg3 arg4 harg4 arg5 harg5 arg6 harg6 arg7 harg7 arg8 harg8 arg9 harg9 hc0 hc1 x0 x1 x2 x3 xs0 xs1).1)

/-- Case B's pieces for the second accumulator tile it, so they cover it. -/
theorem scover_B_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun_B c i arg2 harg2 arg3 harg3 arg4 harg4 arg5 harg5 arg6 harg6 arg7 harg7 arg8 harg8 arg9 harg9 hc0 hc1 x0 x1 x2 x3 xs0 xs1).2.1 S1024x1.size (by sl_kernel_rfl) y

/-- What case B leaves in the second accumulator: its pieces read back over junk. -/
def sout_B_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VS1.read (Elt F) (VS1.writes (Elt F) VS1.junk (kernelRun_B c i arg2 harg2 arg3 harg3 arg4 harg4 arg5 harg5 arg6 harg6 arg7 harg7 arg8 harg8 arg9 harg9 hc0 hc1 x0 x1 x2 x3 xs0 xs1).2.1)

/-- Case C's pieces for output window 4 tile it, so they cover it. -/
theorem cover_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun_C c i arg2 harg2 arg3 harg3 arg4 harg4 arg5 harg5 arg6 harg6 arg7 harg7 arg8 harg8 arg9 harg9 hc0 hc1 x0 x1 x2 x3 xs0 xs1).1 S1024x1.size (by sl_kernel_rfl) y

/-- What case C leaves in output window 4's staging buffer: its pieces read back over junk. -/
def out_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VO4.read (Elt F) (VO4.writes (Elt F) VO4.junk (kernelRun_C c i arg2 harg2 arg3 harg3 arg4 harg4 arg5 harg5 arg6 harg6 arg7 harg7 arg8 harg8 arg9 harg9 hc0 hc1 x0 x1 x2 x3 xs0 xs1).1)

/-- Case C's pieces for output window 5 tile it, so they cover it. -/
theorem cover_C_5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun_C c i arg2 harg2 arg3 harg3 arg4 harg4 arg5 harg5 arg6 harg6 arg7 harg7 arg8 harg8 arg9 harg9 hc0 hc1 x0 x1 x2 x3 xs0 xs1).2.1 S1024x1.size (by sl_kernel_rfl) y

/-- What case C leaves in output window 5's staging buffer: its pieces read back over junk. -/
def out_C_5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VO5.read (Elt F) (VO5.writes (Elt F) VO5.junk (kernelRun_C c i arg2 harg2 arg3 harg3 arg4 harg4 arg5 harg5 arg6 harg6 arg7 harg7 arg8 harg8 arg9 harg9 hc0 hc1 x0 x1 x2 x3 xs0 xs1).2.1)

/-- Case C's pieces for the first accumulator tile it, so they cover it. -/
theorem scover_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun_C c i arg2 harg2 arg3 harg3 arg4 harg4 arg5 harg5 arg6 harg6 arg7 harg7 arg8 harg8 arg9 harg9 hc0 hc1 x0 x1 x2 x3 xs0 xs1).2.2.1 S1024x1.size (by sl_kernel_rfl) y

/-- What case C leaves in the first accumulator: its pieces read back over junk. -/
def sout_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VS0.read (Elt F) (VS0.writes (Elt F) VS0.junk (kernelRun_C c i arg2 harg2 arg3 harg3 arg4 harg4 arg5 harg5 arg6 harg6 arg7 harg7 arg8 harg8 arg9 harg9 hc0 hc1 x0 x1 x2 x3 xs0 xs1).2.2.1)

/-- Case C's pieces for the second accumulator tile it, so they cover it. -/
theorem scover_C_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun_C c i arg2 harg2 arg3 harg3 arg4 harg4 arg5 harg5 arg6 harg6 arg7 harg7 arg8 harg8 arg9 harg9 hc0 hc1 x0 x1 x2 x3 xs0 xs1).2.2.2.1 S1024x1.size (by sl_kernel_rfl) y

/-- What case C leaves in the second accumulator: its pieces read back over junk. -/
def sout_C_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VS1.read (Elt F) (VS1.writes (Elt F) VS1.junk (kernelRun_C c i arg2 harg2 arg3 harg3 arg4 harg4 arg5 harg5 arg6 harg6 arg7 harg7 arg8 harg8 arg9 harg9 hc0 hc1 x0 x1 x2 x3 xs0 xs1).2.2.2.1)

/-- An output window at a point where the body stores nothing into it: a placeholder nothing consults (the window is
    neither written back there nor read at the next point). -/
def idle4 : Vec F S1024x1 .f32 := VO4.read (Elt F) VO4.junk
def idle5 : Vec F S1024x1 .f32 := VO5.read (Elt F) VO5.junk

section Region
-- the buffer contents when the region is entered: the parameter everything of the region is stated at
variable (V : (c : Dev nD) → (b : Ref sig .tc) → Buf (Elt F) ((c : Thread nD τ).loc b))

/-! ## What the outputs and the accumulators hold after each point -/

/-- After a point of case A (column 0): outputs untouched, the accumulators at the case's contents. -/
def caseA (c : Dev nD) (t : Fin cfg0.N) (h0 : t.val % 8 = 0) (h1 : ¬t.val % 8 = 7) : Vec F S1024x1 .f32 × Vec F S1024x1 .f32 × Vec F S1024x1 .f32 × Vec F S1024x1 .f32 :=
  (idle4, idle5, sout_A_0 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) (fun h => h1 ((hcond0_1 t).mp h)) (iblk V c 0 t) (iblk V c 1 t) (iblk V c 2 t) (iblk V c 3 t), sout_A_1 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) (fun h => h1 ((hcond0_1 t).mp h)) (iblk V c 0 t) (iblk V c 1 t) (iblk V c 2 t) (iblk V c 3 t))

/-- After a point of case B (columns 1…6): outputs untouched, the accumulators at the case's contents over what the
    point before left (`xs0`, `xs1`). -/
def caseB (c : Dev nD) (t : Fin cfg0.N) (h0 : ¬t.val % 8 = 0) (h1 : ¬t.val % 8 = 7) (xs0 : Vec F S1024x1 .f32) (xs1 : Vec F S1024x1 .f32) : Vec F S1024x1 .f32 × Vec F S1024x1 .f32 × Vec F S1024x1 .f32 × Vec F S1024x1 .f32 :=
  (idle4, idle5, sout_B_0 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) (fun h => h1 ((hcond0_1 t).mp h)) (iblk V c 0 t) (iblk V c 1 t) (iblk V c 2 t) (iblk V c 3 t) xs0 xs1, sout_B_1 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) (fun h => h1 ((hcond0_1 t).mp h)) (iblk V c 0 t) (iblk V c 1 t) (iblk V c 2 t) (iblk V c 3 t) xs0 xs1)

/-- After a point of case C (column 7): the outputs and the accumulators at the case's contents over what the point
    before left (`xs0`, `xs1`). -/
def caseC (c : Dev nD) (t : Fin cfg0.N) (h0 : ¬t.val % 8 = 0) (h1 : t.val % 8 = 7) (xs0 : Vec F S1024x1 .f32) (xs1 : Vec F S1024x1 .f32) : Vec F S1024x1 .f32 × Vec F S1024x1 .f32 × Vec F S1024x1 .f32 × Vec F S1024x1 .f32 :=
  (out_C_4 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) ((hcond0_1 t).mpr h1) (iblk V c 0 t) (iblk V c 1 t) (iblk V c 2 t) (iblk V c 3 t) xs0 xs1, out_C_5 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) ((hcond0_1 t).mpr h1) (iblk V c 0 t) (iblk V c 1 t) (iblk V c 2 t) (iblk V c 3 t) xs0 xs1, sout_C_0 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) ((hcond0_1 t).mpr h1) (iblk V c 0 t) (iblk V c 1 t) (iblk V c 2 t) (iblk V c 3 t) xs0 xs1, sout_C_1 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) ((hcond0_1 t).mpr h1) (iblk V c 0 t) (iblk V c 1 t) (iblk V c 2 t) (iblk V c 3 t) xs0 xs1)

/-- THE ACCUMULATION. What the two outputs' staging buffers and the two accumulators hold after the body at position
    `n` (outputs in window order, then the accumulators): the case the closed forms select at `n`, run at the point's
    memrefs and input blocks, the accumulators taken at what this leaves at `n - 1`. -/
def outsAt (c : Dev nD) : (n : ℕ) → n < cfg0.N → Vec F S1024x1 .f32 × Vec F S1024x1 .f32 × Vec F S1024x1 .f32 × Vec F S1024x1 .f32
  | 0, hn => caseA V c ⟨0, hn⟩ (Nat.zero_mod _) (by show ¬(0 % 8 = 7); decide)
  | n + 1, hn =>
    if h0 : (n + 1) % 8 = 0 then
      if h1 : (n + 1) % 8 = 7 then
        False.elim (by omega)
      else
        caseA V c ⟨n + 1, hn⟩ h0 h1
    else
      if h1 : (n + 1) % 8 = 7 then
        caseC V c ⟨n + 1, hn⟩ h0 h1 (outsAt c n (Nat.lt_of_succ_lt hn)).2.2.1 (outsAt c n (Nat.lt_of_succ_lt hn)).2.2.2
      else
        caseB V c ⟨n + 1, hn⟩ h0 h1 (outsAt c n (Nat.lt_of_succ_lt hn)).2.2.1 (outsAt c n (Nat.lt_of_succ_lt hn)).2.2.2

/-- `outsAt` at a point of case A: that case's contents. -/
theorem outsAt_A (c : Dev nD) (t : Fin cfg0.N) (h0 : t.val % 8 = 0) (h1 : ¬t.val % 8 = 7) :
    outsAt V c t.val t.isLt = caseA V c t h0 h1 := by
  obtain ⟨n, hn⟩ := t
  cases n with
  | zero => exact rfl
  | succ n => exact (dif_pos h0).trans ((dif_neg h1).trans rfl)

/-- `outsAt` at a point of case B: that case's contents, over what the point before left. -/
theorem outsAt_B (c : Dev nD) (t : Fin cfg0.N) (h0 : ¬t.val % 8 = 0) (h1 : ¬t.val % 8 = 7) :
    outsAt V c t.val t.isLt = caseB V c t h0 h1 (outsAt V c (t.val - 1) (Nat.lt_of_le_of_lt (Nat.sub_le _ _) t.isLt)).2.2.1 (outsAt V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

/-- `outsAt` at a point of case C: that case's contents, over what the point before left. -/
theorem outsAt_C (c : Dev nD) (t : Fin cfg0.N) (h0 : ¬t.val % 8 = 0) (h1 : t.val % 8 = 7) :
    outsAt V c t.val t.isLt = caseC V c t h0 h1 (outsAt V c (t.val - 1) (Nat.lt_of_le_of_lt (Nat.sub_le _ _) t.isLt)).2.2.1 (outsAt V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The region invariant, the accumulators carried -/

/-- The region invariant before position `n`: before the first point the launch's (every scoped buffer at anything);
    afterwards the two accumulators at what the point before left in them, the other scoped buffers unopened, and the
    generator register at some state. -/
def PhiS (c : Dev nD) : (n : ℕ) → n ≤ cfg0.N → sProp 𝕄
  | 0, _ => Pipeline.ΦA spec0 c
  | n + 1, hn => iprop(iprop(iprop(owns (c : Thread nD τ) scM0 fullShare ((outsAt V c n hn).2.2.1) ∗ owns (c : Thread nD τ) scM1 fullShare ((outsAt V c n hn).2.2.2)) ∗ restS (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(iprop(owns (c : Thread nD τ) scM0 fullShare ((outsAt V c n hn).2.2.1) ∗ owns (c : Thread nD τ) scM1 fullShare ((outsAt V c n hn).2.2.2)) ∗ restS (F := F) c) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(iprop(owns (c : Thread nD τ) scM0 fullShare ((outsAt V c (n - 1) (by omega)).2.2.1) ∗ owns (c : Thread nD τ) scM1 fullShare ((outsAt V c (n - 1) (by omega)).2.2.2)) ∗ restS (F := F) c) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the outputs' at `outsAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
  Φ t := PhiS V c t.val (Nat.le_of_lt_succ t.isLt)
  q _ := fullShare
  owed _ := 0

/-- The proof data's arrays are the region-entry contents (the definition projected, `V` never unfolded). -/
theorem A_eq (c : Dev nD) (w : Fin cfg0.W) : (dat V c).A w = V c (Pipeline.arrRef spec0 w) := by
  dsimp only [dat]

/-- The invariant at a point's start, restated at `t.val`. -/
theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = (outsAt V c t.val t.isLt).1 := by dsimp only [dat]
theorem after5 (c : Dev nD) (t : Fin cfg0.N) : (dat V c).after 5 t = (outsAt V c t.val t.isLt).2.1 := by dsimp only [dat]

/-- Each input's current staging buffer holds its block at every point, fetched there or not. -/
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d

/-! ## The body obligation, at a generic point -/

/-- What the body is called with at point `t` (the windows one by one), -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

/-- An input window's post: its buffer at its block (the window is never idle). -/
theorem leaves0 (c : Dev nD) (t : Fin cfg0.N) : (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [liveAt0 t], after0]
theorem leaves1 (c : Dev nD) (t : Fin cfg0.N) : (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [liveAt1 t], after1]
theorem leaves2 (c : Dev nD) (t : Fin cfg0.N) : (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [liveAt2 t], after2]
theorem leaves3 (c : Dev nD) (t : Fin cfg0.N) : (dat V c).leavesExact 3 t = owns (c : Thread nD τ) (ms3 t) fullShare (iblk V c 3 t) := by
  rw [show (dat V c).leavesExact 3 t = owns (c : Thread nD τ) (ms3 t) fullShare ((dat V c).after 3 t) from by
    unfold Dat.leavesExact; rw [liveAt3 t], after3]

set_option maxHeartbeats 4800000 in
/-- The body at any point: the inputs' memrefs hold their blocks; the closed forms say which case the point is in;
    the invariant hands the body the accumulators at what the point before left (at anything at the first point) and
    takes them back at this point's contents, the other scoped buffers and the generator register passing through;
    an output window the case does not store into is handed back as found; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0 V, before1 V, before2 V, before3 V]
  rw [show (dat V c).owesAt () t.succ = (dat V c).owesAt () t.castSucc from rfl]
  rw [show (dat V c).Φ t.succ = PhiS V c (t.val + 1) t.isLt from rfl, PhiS_succ]
  rw [leaves0 V c t, leaves1 V c t, leaves2 V c t, leaves3 V c t]
  have hN : t.val < 64 := lt_of_lt_of_eq t.isLt (show cfg0.N = 64 from N_0)
  by_cases h0 : t.val % 8 = 0
  · by_cases h1 : t.val % 8 = 7
    · exfalso; omega
    · have hc0 : cond0_0 (grid0.coords t) := (hcond0_0 t).mpr h0
      have hc1 : ¬cond0_1 (grid0.coords t) := fun h => h1 ((hcond0_1 t).mp h)
      rw [Dat.leavesExact_idle (dat V c) 4 t (idleAt4 t hc1) (noFlush4 t hc1)]
      rw [Dat.leavesExact_idle (dat V c) 5 t (idleAt5 t hc1) (noFlush5 t hc1)]
      rw [outsAt_A V c t h0 h1]
      unfold caseA sout_A_0 sout_A_1; (try dsimp only)
      by_cases hz : t.val = 0
      · rw [PhiS_castSucc V c t, PhiS_zero V c _ _ hz, PhiA_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun_A c (grid0.coords t) _ _ _ _ _ _ _ _ _ _ _ _ _ _ _ _ hc0 hc1 (iblk V c 0 t) (iblk V c 1 t) (iblk V c 2 t) (iblk V c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _ _ _ _ _ _)
              unfold owns; iexists _; isplitr
              swap; · iexact HS1
              ipureintro; exact View.read_writes_of_cover _ _ _ _ _ (scover_A_1 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc V c t, PhiS_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun_A c (grid0.coords t) _ _ _ _ _ _ _ _ _ _ _ _ _ _ _ _ hc0 hc1 (iblk V c 0 t) (iblk V c 1 t) (iblk V c 2 t) (iblk V c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _ _ _ _ _ _)
              unfold owns; iexists _; isplitr
              swap; · iexact HS1
              ipureintro; exact View.read_writes_of_cover _ _ _ _ _ (scover_A_1 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · by_cases h1 : t.val % 8 = 7
    · have hc0 : ¬cond0_0 (grid0.coords t) := fun h => h0 ((hcond0_0 t).mp h)
      have hc1 : cond0_1 (grid0.coords t) := (hcond0_1 t).mpr h1
      rw [show (dat V c).leavesExact 4 t = owns (c : Thread nD τ) (ms4 t) fullShare ((dat V c).after 4 t) from by
        unfold Dat.leavesExact; rw [liveAt4 t hc1], after4]
      rw [show (dat V c).leavesExact 5 t = owns (c : Thread nD τ) (ms5 t) fullShare ((dat V c).after 5 t) from by
        unfold Dat.leavesExact; rw [liveAt5 t hc1], after5]
      rw [outsAt_C V c t h0 h1]
      unfold caseC out_C_4 out_C_5 sout_C_0 sout_C_1; (try dsimp only)
      by_cases hz : t.val = 0
      · exfalso; omega
      · rw [PhiS_castSucc V c t, PhiS_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun_C c (grid0.coords t) _ _ _ _ _ _ _ _ _ _ _ _ _ _ _ _ hc0 hc1 (iblk V c 0 t) (iblk V c 1 t) (iblk V c 2 t) (iblk V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover_C_0 c _ _ _ _ _ _ _ _ _ _ _ _ _ _ _ _ _ _ _ _ _ _ _ _ _)
              unfold owns; iexists _; isplitr
              swap; · iexact HS1
              ipureintro; exact View.read_writes_of_cover _ _ _ _ _ (scover_C_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover_C_4 c _ _ _ _ _ _ _ _ _ _ _ _ _ _ _ _ _ _ _ _ _ _ _ _ _)
        unfold owns; iexists _; isplitr
        swap; · iexact H5
        ipureintro; exact View.read_writes_of_cover _ _ _ _ _ (cover_C_5 c _ _ _ _ _ _ _ _ _ _ _ _ _ _ _ _ _ _ _ _ _ _ _ _ _)
    · have hc0 : ¬cond0_0 (grid0.coords t) := fun h => h0 ((hcond0_0 t).mp h)
      have hc1 : ¬cond0_1 (grid0.coords t) := fun h => h1 ((hcond0_1 t).mp h)
      rw [Dat.leavesExact_idle (dat V c) 4 t (idleAt4 t hc1) (noFlush4 t hc1)]
      rw [Dat.leavesExact_idle (dat V c) 5 t (idleAt5 t hc1) (noFlush5 t hc1)]
      rw [outsAt_B V c t h0 h1]
      unfold caseB sout_B_0 sout_B_1; (try dsimp only)
      by_cases hz : t.val = 0
      · exfalso; omega
      · rw [PhiS_castSucc V c t, PhiS_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun_B c (grid0.coords t) _ _ _ _ _ _ _ _ _ _ _ _ _ _ _ _ hc0 hc1 (iblk V c 0 t) (iblk V c 1 t) (iblk V c 2 t) (iblk V c 3 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover_B_0 c _ _ _ _ _ _ _ _ _ _ _ _ _ _ _ _ _ _ _ _ _ _ _ _ _)
              unfold owns; iexists _; isplitr
              swap; · iexact HS1
              ipureintro; exact View.read_writes_of_cover _ _ _ _ _ (scover_B_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulators' named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout (c : Dev nD) : (dat V c).Φ (Fin.last cfg0.N) ⊢ Pipeline.ΦA spec0 c :=
  Phi_out V c _ (by rw [Fin.val_last]; have : cfg0.N = 64 := N_0; omega)

end Region

end Cert.Kernel.R0

end
-- ==== Proof.FrameK.R1Shared.lean ====
/- Region 1 of @main (the second pallas_call, pipeline 1, the printed function `cc1__sms_kernel`): what the three
   runs of its body, one per case, share. The body has two conditionals on the grid point t = 8*i + j: the
   first holds where j = 0 (the accumulator is zeroed), the second where j = 7 (the accumulator is copied to the
   output block). So three cases: A (j = 0), B (0 < j < 7), C (j = 7). Everything of the region is stated at a
   parameter `V`, the TensorCore's buffer contents when the region is entered. -/
import proofs.«105148_j76553497084189_1_alg».proof.Proof.Gen.Kernel.Launch
import proofs.«105148_j76553497084189_1_alg».proof.Proof.Gen.Kernel.Skeleton
import proofs.«105148_j76553497084189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (`k1_h1`), from the grid coordinates (the skeleton's scalar chain
    substituted): the column coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8), decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second `scf.if` (`k1_h2`): the column coordinate is 7. -/
abbrev cond1_1 (i : grid1.Coords) : Prop := k1_cond2 i = 1#1
/-- It holds at the points ≡ 7 (mod 8), decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The input windows are never idle. -/
theorem liveAt_0 : ∀ t : Fin cfg1.N, cfg1.idle 0 (grid1.coords t) = false := fun _ => rfl
theorem liveAt_1 : ∀ t : Fin cfg1.N, cfg1.idle 1 (grid1.coords t) = false := fun _ => rfl
theorem liveAt_2 : ∀ t : Fin cfg1.N, cfg1.idle 2 (grid1.coords t) = false := fun _ => rfl
theorem liveAt_3 : ∀ t : Fin cfg1.N, cfg1.idle 3 (grid1.coords t) = false := fun _ => rfl
theorem liveAt_4 : ∀ t : Fin cfg1.N, cfg1.idle 4 (grid1.coords t) = false := fun _ => rfl
/-- At the points of case A the output window 5 is idle: the case stores nothing into it. -/
theorem idleAt_5_A : ∀ t : Fin cfg1.N, cond1_0 (grid1.coords t) → ¬cond1_1 (grid1.coords t) → cfg1.idle 5 (grid1.coords t) = true := by decide +kernel
/-- At the points of case A the pipeline does not write output 5's block back. -/
theorem noFlush_5_A : ∀ t : Fin cfg1.N, cond1_0 (grid1.coords t) → ¬cond1_1 (grid1.coords t) → (cfg1.win 5).flush t = false := by decide +kernel
/-- At the points of case B the output window 5 is idle. -/
theorem idleAt_5_B : ∀ t : Fin cfg1.N, ¬cond1_0 (grid1.coords t) → ¬cond1_1 (grid1.coords t) → cfg1.idle 5 (grid1.coords t) = true := by decide +kernel
/-- At the points of case B the pipeline does not write output 5's block back. -/
theorem noFlush_5_B : ∀ t : Fin cfg1.N, ¬cond1_0 (grid1.coords t) → ¬cond1_1 (grid1.coords t) → (cfg1.win 5).flush t = false := by decide +kernel
/-- At the points of case C the output window 5 is live: the case stores into it. -/
theorem liveAt_5_C : ∀ t : Fin cfg1.N, ¬cond1_0 (grid1.coords t) → cond1_1 (grid1.coords t) → cfg1.idle 5 (grid1.coords t) = false := by decide +kernel

/-! ## The memrefs the body is called with -/

/-- One staging buffer of output window 5, through which its contents are stated (the choice does not matter:
    what is read back through a whole view of the shape depends on the pieces only). -/
abbrev VO_5 : View sig .tc .vmem S1024x1 .f32 := (Memref.whole cc1_stg5_0 : Memref sig .tc .vmem S1024x1 .f32).view
/-- Each window's current staging memref at point `t`, spelled as the pipeline passes it (`bodyAt1`), and its wholeness. -/
abbrev ms_0 (t : Fin cfg1.N) : Memref sig .tc .vmem S1024x128 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x128 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x1 .i32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x1024 .i32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024x1 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1024x1 .f32 := win1_5.stage (cfg1.slots t 5)
abbrev hs_5 (t : Fin cfg1.N) : (ms_5 t).IsWhole := hstage1_5 ((cfg1.slots t 5).cast nbuf1_5)
/-- The scratch operand: a whole scoped buffer of the kernel's own, passed beside the windows. -/
abbrev scM : Memref sig .tc .vmem S1024x1 .f32 := Memref.whole cc1_scratch0
/-- The scratch accumulator the kernel carries between points, as a view: what it holds is stated through it. -/
abbrev VS : View sig .tc .vmem S1024x1 .f32 := scM.view

/-! ## The invariant between grid points, opened at the scratch accumulator -/

/-- The core's scoped buffers that are neither a staging buffer of this call nor its scratch operand (the other
    call's staging buffers and scratch), at some contents each: carried unopened. -/
abbrev restBut (c : Dev nD) : sProp 𝕄 :=
  Pipeline.scopedRestBut (Ix := Unit) (Name := ℕ) (U := UR sig nD τ) (Lvl := ℕ) (Val := Elt F) spec1 c [cc1_scratch0]

/-- The scoped rest of this call split at its own scratch operand. -/
theorem scopedRest_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ restBut c) :=
  Pipeline.scopedRest_split_of_list spec1 c [cc1_scratch0] (by decide) (by decide)

/-- The invariant between grid points, before the first one: the scratch accumulator owned at some contents, the other
    scoped buffers at anything, the generator register at some state. -/
theorem PhiA_eq (c : Dev nD) :
    (Pipeline.ΦA spec1 c : sProp 𝕄)
      = iprop(iprop((∃ d, owns (c : Thread nD τ) scM fullShare d) ∗ restBut c) ∗ (∃ r, prngReg c r)) := by
  unfold Pipeline.ΦA; rw [scopedRest_split]; simp only [scM, owns_whole]; try rfl

/-! ## The windows' blocks -/

section Entry
-- the TensorCore's buffer contents when the region is entered
variable (V : (c : Dev nD) → (b : Ref sig .tc) → Buf (Elt F) ((c : Thread nD τ).loc b))

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block
    index has not moved), for any proof data whose array is `V`'s and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the block
    index has not moved), for any proof data whose array is `V`'s and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, the block
    index has not moved), for any proof data whose array is `V`'s and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, the block
    index has not moved), for any proof data whose array is `V`'s and whose body leaves the block in place. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (unfetched, the block
    index has not moved), for any proof data whose array is `V`'s and whose body leaves the block in place. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Entry

end Cert.Kernel.R1

end
-- ==== Proof.FrameK.R1RunA.lean ====
/- Region 1 of @main (`cc1__sms_kernel`): the kernel body run once in case A: from the input blocks (and the accumulator)
   to the pieces each buffer ends with. The body is a sequence of whole-block loads and stores over named payloads, with
   two conditionals on the grid point that the case's hypotheses decide; the pieces are the stores made into a buffer,
   last first. -/
import proofs.«105148_j76553497084189_1_alg».proof.Proof.FrameK.R1Shared

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (the first conditional taken, the second not: the points with j = 0). What the body's stores leave in the
    output's staging memref and in the scratch accumulator, as pieces (last first), WITH the proof that on whole
    memrefs, the inputs' at their contents, the output's (no store: idle here) at contents `xi5` handed back untouched,
    the scratch at anything (the case loads it before it stores it, and uses nothing of what it loads), the body runs
    to the continuation holding the inputs' as they were and the scratch with its pieces written. -/
noncomputable def kernelRun_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond1_0 i) (hc1 : ¬cond1_1 i)
    (x0 : Vec F S1024x128 .f32) (x1 : Vec F S1024x128 .f32) (x2 : Vec F S1024x1 .i32) (x3 : Vec F S1x1024 .i32) (x4 : Vec F S1024x1 .f32) :
    Σ' (L5 : List (View.Piece (Elt F) S1024x1 .f32)), { LS0 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__sms_kernel i arg2 harg2 arg3 harg3 arg4 harg4 arg5 harg5 arg6 harg6 arg7 harg7 arg8 harg8) K } := by
  refine ⟨[], ?_, fun xi5 E K => ?run⟩
  case run =>
    simp only [cc1__sms_kernel_eq_skeleton]; unfold cc1__sms_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.R1

end
-- ==== Proof.FrameK.R1RunB.lean ====
/- Region 1 of @main (`cc1__sms_kernel`): the kernel body run once in case B: from the input blocks (and the accumulator)
   to the pieces each buffer ends with. The body is a sequence of whole-block loads and stores over named payloads, with
   two conditionals on the grid point that the case's hypotheses decide; the pieces are the stores made into a buffer,
   last first. -/
import proofs.«105148_j76553497084189_1_alg».proof.Proof.FrameK.R1Shared

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (neither conditional taken: the points with 0 < j < 7). What the body's stores leave in the output's staging
    memref and in the scratch accumulator, as pieces (last first), WITH the proof that on whole memrefs, the inputs'
    at their contents, the output's (no store: idle here) at contents `xi5` handed back untouched, the scratch at the
    contents the point before left (`xs0`), the body runs to the continuation holding the inputs' as they were and the
    scratch with its pieces written. -/
noncomputable def kernelRun_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : ¬cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) :
    Σ' (L5 : List (View.Piece (Elt F) S1024x1 .f32)), { LS0 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__sms_kernel i arg2 harg2 arg3 harg3 arg4 harg4 arg5 harg5 arg6 harg6 arg7 harg7 arg8 harg8) K } := by
  refine ⟨[], ?_, fun xi5 E K => ?run⟩
  case run =>
    simp only [cc1__sms_kernel_eq_skeleton]; unfold cc1__sms_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.R1

end
-- ==== Proof.FrameK.R1RunC.lean ====
/- Region 1 of @main (`cc1__sms_kernel`): the kernel body run once in case C: from the input blocks (and the accumulator)
   to the pieces each buffer ends with. The body is a sequence of whole-block loads and stores over named payloads, with
   two conditionals on the grid point that the case's hypotheses decide; the pieces are the stores made into a buffer,
   last first. -/
import proofs.«105148_j76553497084189_1_alg».proof.Proof.FrameK.R1Shared

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (the second conditional taken, the first not: the points with j = 7). What the body's stores leave in the
    output's staging memref and in the scratch accumulator, as pieces (last first), WITH the proof that on whole
    memrefs, the inputs' at their contents, the output's at anything (the case loads it, uses nothing of what it
    loads, and stores it whole), the scratch at the contents the point before left (`xs0`), the body runs to the
    continuation holding the inputs' as they were and the output's and the scratch with their pieces written. -/
noncomputable def kernelRun_C (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) :
    Σ' (L5 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__sms_kernel i arg2 harg2 arg3 harg3 arg4 harg4 arg5 harg5 arg6 harg6 arg7 harg7 arg8 harg8) K } := by
  refine ⟨?_, ?_, fun E K => ?run⟩
  case run =>
    simp only [cc1__sms_kernel_eq_skeleton]; unfold cc1__sms_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.R1

end
-- ==== Proof.FrameK.R1Body.lean ====
/- Region 1 of @main (`cc1__sms_kernel`): what its body leaves point by point, at the entry contents `V`. What the
   output window and the carried scratch accumulator hold per case (the runs' pieces read back) and point by point
   (`outsAt`, by recursion on the point: the accumulator after point n is the case's pieces over what point n - 1
   left); the region invariant with the accumulator at its named contents (`PhiS`); the proof data (`dat`); the body
   obligation; and the invariant's two ends (`hin`, `hout`). -/
import proofs.«105148_j76553497084189_1_alg».proof.Proof.FrameK.R1RunA
import proofs.«105148_j76553497084189_1_alg».proof.Proof.FrameK.R1RunB
import proofs.«105148_j76553497084189_1_alg».proof.Proof.FrameK.R1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A stores nothing into output 5 (the window is idle at its points and not written back there): no pieces,
    a placeholder (junk read back) that nothing consults. -/
def out_A_5 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond1_0 i) (hc1 : ¬cond1_1 i)
    (x0 : Vec F S1024x128 .f32) (x1 : Vec F S1024x128 .f32) (x2 : Vec F S1024x1 .i32) (x3 : Vec F S1x1024 .i32) (x4 : Vec F S1024x1 .f32) : Vec F S1024x1 .f32 :=
  VO_5.read (Elt F) (VO_5.writes (Elt F) VO_5.junk (kernelRun_A c i arg2 harg2 arg3 harg3 arg4 harg4 arg5 harg5 arg6 harg6 arg7 harg7 arg8 harg8 hc0 hc1 x0 x1 x2 x3 x4).1)

/-- Case A's pieces for the scratch accumulator, which the kernel carries between points, cover it. -/
theorem scover_A_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond1_0 i) (hc1 : ¬cond1_1 i)
    (x0 : Vec F S1024x128 .f32) (x1 : Vec F S1024x128 .f32) (x2 : Vec F S1024x1 .i32) (x3 : Vec F S1x1024 .i32) (x4 : Vec F S1024x1 .f32) (y : S1024x1.Idx) :
    ∃ pc ∈ (kernelRun_A c i arg2 harg2 arg3 harg3 arg4 harg4 arg5 harg5 arg6 harg6 arg7 harg7 arg8 harg8 hc0 hc1 x0 x1 x2 x3 x4).2.1, y ∈ pc.1.set :=
  View.cover_of_tiledL (kernelRun_A c i arg2 harg2 arg3 harg3 arg4 harg4 arg5 harg5 arg6 harg6 arg7 harg7 arg8 harg8 hc0 hc1 x0 x1 x2 x3 x4).2.1 S1024x1.size (by sl_kernel_rfl) y

/-- What case A leaves in the scratch accumulator: its pieces read back over junk. -/
def sout_A_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond1_0 i) (hc1 : ¬cond1_1 i)
    (x0 : Vec F S1024x128 .f32) (x1 : Vec F S1024x128 .f32) (x2 : Vec F S1024x1 .i32) (x3 : Vec F S1x1024 .i32) (x4 : Vec F S1024x1 .f32) : Vec F S1024x1 .f32 :=
  VS.read (Elt F) (VS.writes (Elt F) VS.junk (kernelRun_A c i arg2 harg2 arg3 harg3 arg4 harg4 arg5 harg5 arg6 harg6 arg7 harg7 arg8 harg8 hc0 hc1 x0 x1 x2 x3 x4).2.1)

/-- Case B stores nothing into output 5 (the window is idle at its points and not written back there): no pieces,
    a placeholder (junk read back) that nothing consults. -/
def out_B_5 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : ¬cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) : Vec F S1024x1 .f32 :=
  VO_5.read (Elt F) (VO_5.writes (Elt F) VO_5.junk (kernelRun_B c i arg2 harg2 arg3 harg3 arg4 harg4 arg5 harg5 arg6 harg6 arg7 harg7 arg8 harg8 hc0 hc1 x0 x1 x2 x3 x4 xs0).1)

/-- Case B's pieces for the scratch accumulator, which the kernel carries between points, cover it. -/
theorem scover_B_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : ¬cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) (y : S1024x1.Idx) :
    ∃ pc ∈ (kernelRun_B c i arg2 harg2 arg3 harg3 arg4 harg4 arg5 harg5 arg6 harg6 arg7 harg7 arg8 harg8 hc0 hc1 x0 x1 x2 x3 x4 xs0).2.1, y ∈ pc.1.set :=
  View.cover_of_tiledL (kernelRun_B c i arg2 harg2 arg3 harg3 arg4 harg4 arg5 harg5 arg6 harg6 arg7 harg7 arg8 harg8 hc0 hc1 x0 x1 x2 x3 x4 xs0).2.1 S1024x1.size (by sl_kernel_rfl) y

/-- What case B leaves in the scratch accumulator: its pieces read back over junk. -/
def sout_B_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : ¬cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) : Vec F S1024x1 .f32 :=
  VS.read (Elt F) (VS.writes (Elt F) VS.junk (kernelRun_B c i arg2 harg2 arg3 harg3 arg4 harg4 arg5 harg5 arg6 harg6 arg7 harg7 arg8 harg8 hc0 hc1 x0 x1 x2 x3 x4 xs0).2.1)

/-- Case C's pieces for output 5 tile its block (one store of the whole block), so they cover it. -/
theorem cover_C_5 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) (y : S1024x1.Idx) :
    ∃ pc ∈ (kernelRun_C c i arg2 harg2 arg3 harg3 arg4 harg4 arg5 harg5 arg6 harg6 arg7 harg7 arg8 harg8 hc0 hc1 x0 x1 x2 x3 x4 xs0).1, y ∈ pc.1.set :=
  View.cover_of_tiledL (kernelRun_C c i arg2 harg2 arg3 harg3 arg4 harg4 arg5 harg5 arg6 harg6 arg7 harg7 arg8 harg8 hc0 hc1 x0 x1 x2 x3 x4 xs0).1 S1024x1.size (by sl_kernel_rfl) y

/-- What case C leaves in output 5's staging buffer: its pieces read back over junk. -/
def out_C_5 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) : Vec F S1024x1 .f32 :=
  VO_5.read (Elt F) (VO_5.writes (Elt F) VO_5.junk (kernelRun_C c i arg2 harg2 arg3 harg3 arg4 harg4 arg5 harg5 arg6 harg6 arg7 harg7 arg8 harg8 hc0 hc1 x0 x1 x2 x3 x4 xs0).1)

/-- Case C's pieces for the scratch accumulator, which the kernel carries between points, cover it. -/
theorem scover_C_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) (y : S1024x1.Idx) :
    ∃ pc ∈ (kernelRun_C c i arg2 harg2 arg3 harg3 arg4 harg4 arg5 harg5 arg6 harg6 arg7 harg7 arg8 harg8 hc0 hc1 x0 x1 x2 x3 x4 xs0).2.1, y ∈ pc.1.set :=
  View.cover_of_tiledL (kernelRun_C c i arg2 harg2 arg3 harg3 arg4 harg4 arg5 harg5 arg6 harg6 arg7 harg7 arg8 harg8 hc0 hc1 x0 x1 x2 x3 x4 xs0).2.1 S1024x1.size (by sl_kernel_rfl) y

/-- What case C leaves in the scratch accumulator: its pieces read back over junk. -/
def sout_C_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) : Vec F S1024x1 .f32 :=
  VS.read (Elt F) (VS.writes (Elt F) VS.junk (kernelRun_C c i arg2 harg2 arg3 harg3 arg4 harg4 arg5 harg5 arg6 harg6 arg7 harg7 arg8 harg8 hc0 hc1 x0 x1 x2 x3 x4 xs0).2.1)

section Entry
-- the TensorCore's buffer contents when the region is entered
variable (V : (c : Dev nD) → (b : Ref sig .tc) → Buf (Elt F) ((c : Thread nD τ).loc b))

/-! ## What the output and the accumulator hold after each point -/

/-- THE ACCUMULATION. What output 5's staging buffer and the scratch accumulator hold after the body at position `n`
    (a pair: the output, then the accumulator): the case the closed forms select at `n`, run at the point's memrefs
    and input blocks, the accumulator at what this leaves at `n - 1`. Both conditions at once is no case. -/
def outsAt (c : Dev nD) : (n : ℕ) → n < cfg1.N → Vec F S1024x1 .f32 × Vec F S1024x1 .f32
  | 0, hn => (out_A_5 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), sout_A_0 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 8 = 0 then
      if h1 : (n + 1) % 8 = 7 then
        False.elim (by omega)
      else
        (out_A_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), sout_A_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      if h1 : (n + 1) % 8 = 7 then
        (out_C_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, sout_C_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)
      else
        (out_B_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, sout_B_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)

/-- `outsAt` at a point of case A: that case's contents. -/
theorem outsAt_A (c : Dev nD) (t : Fin cfg1.N) (h0 : t.val % 8 = 0) (h1 : ¬t.val % 8 = 7) :
    outsAt V c t.val t.isLt = (out_A_5 c (grid1.coords t) (ms_0 t) (hs_0 t) (ms_1 t) (hs_1 t) (ms_2 t) (hs_2 t) (ms_3 t) (hs_3 t) (ms_4 t) (hs_4 t) (ms_5 t) (hs_5 t) scM (Memref.isWhole_whole _) ((hcond1_0 t).mpr h0) (fun h => h1 ((hcond1_1 t).mp h)) (iblk V c 0 t) (iblk V c 1 t) (iblk V c 2 t) (iblk V c 3 t) (iblk V c 4 t), sout_A_0 c (grid1.coords t) (ms_0 t) (hs_0 t) (ms_1 t) (hs_1 t) (ms_2 t) (hs_2 t) (ms_3 t) (hs_3 t) (ms_4 t) (hs_4 t) (ms_5 t) (hs_5 t) scM (Memref.isWhole_whole _) ((hcond1_0 t).mpr h0) (fun h => h1 ((hcond1_1 t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_neg h1).trans rfl)

/-- `outsAt` at a point of case B: that case's contents, over what the point before left. -/
theorem outsAt_B (c : Dev nD) (t : Fin cfg1.N) (h0 : ¬t.val % 8 = 0) (h1 : ¬t.val % 8 = 7) :
    outsAt V c t.val t.isLt = (out_B_5 c (grid1.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond1_0 t).mp h)) (fun h => h1 ((hcond1_1 t).mp h)) (iblk V c 0 t) (iblk V c 1 t) (iblk V c 2 t) (iblk V c 3 t) (iblk V c 4 t) (outsAt V c (t.val - 1) (Nat.lt_of_le_of_lt (Nat.sub_le _ _) t.isLt)).2, sout_B_0 c (grid1.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond1_0 t).mp h)) (fun h => h1 ((hcond1_1 t).mp h)) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a point of case C: that case's contents, over what the point before left. -/
theorem outsAt_C (c : Dev nD) (t : Fin cfg1.N) (h0 : ¬t.val % 8 = 0) (h1 : t.val % 8 = 7) :
    outsAt V c t.val t.isLt = (out_C_5 c (grid1.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond1_0 t).mp h)) ((hcond1_1 t).mpr h1) (iblk V c 0 t) (iblk V c 1 t) (iblk V c 2 t) (iblk V c 3 t) (iblk V c 4 t) (outsAt V c (t.val - 1) (Nat.lt_of_le_of_lt (Nat.sub_le _ _) t.isLt)).2, sout_C_0 c (grid1.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond1_0 t).mp h)) ((hcond1_1 t).mpr h1) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, the accumulator's contents named -/

/-- The region invariant before position `n`: before the first point the accumulator at anything (every scoped buffer that is no
    staging buffer at anything, the generator register at some state); afterwards the same with the accumulator at
    what the point before left in it (`outsAt`'s second component). -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ restBut c) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the accumulator at that point's contents. -/
theorem PhiS_succ (c : Dev nD) (n : ℕ) (hn : n < cfg1.N) :
    PhiS V c (n + 1) hn = iprop(iprop(owns (c : Thread nD τ) scM fullShare ((outsAt V c n hn).2) ∗ restBut c) ∗ (∃ r, prngReg c r)) := rfl

/-- Before a point that is not the first: the accumulator at what the point before left. -/
theorem PhiS_pos (c : Dev nD) (n : ℕ) (h : n ≤ cfg1.N) (hz : n ≠ 0) :
    PhiS V c n h = iprop(iprop(owns (c : Thread nD τ) scM fullShare ((outsAt V c (n - 1) (by omega)).2) ∗ restBut c) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt`'s first component; the invariant `PhiS`; nothing
    owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

/-- The proof data's arrays are the region-entry contents (the definition projected). -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window (the proof data's `match` reduced). -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = (outsAt V c t.val t.isLt).1 := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-! ## The body obligation, at a generic point -/

/-- What the body is called with at point `t` (the windows one by one), -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the closed forms say which case the point is in;
    the case's run applies; the invariant hands the body the accumulator at what the point before left (at anything
    at the first point) and takes it back at this point's contents (its pieces cover it); the core owes nothing
    throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [Dat.leavesExact_idle (dat V c) 5 t (idleAt_5_A t ((hcond1_0 t).mpr h0) (fun h => h1 ((hcond1_1 t).mp h))) (noFlush_5_A t ((hcond1_0 t).mpr h0) (fun h => h1 ((hcond1_1 t).mp h)))]
      rw [outsAt_A V c t h0 h1]
      unfold sout_A_0; (try dsimp only)
      by_cases hz : t.val = 0
      · rw [PhiS_castSucc V c t, PhiS_zero V c _ _ hz, PhiA_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun_A c (grid1.coords t) _ _ _ _ _ _ _ _ _ _ _ _ _ _ ((hcond1_0 t).mpr h0) (fun h => h1 ((hcond1_1 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun_A c (grid1.coords t) _ _ _ _ _ _ _ _ _ _ _ _ _ _ ((hcond1_0 t).mpr h0) (fun h => h1 ((hcond1_1 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5_C t (fun h => h0 ((hcond1_0 t).mp h)) ((hcond1_1 t).mpr h1)], after_5]
      rw [outsAt_C V c t h0 h1]
      unfold out_C_5 sout_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun_C c (grid1.coords t) _ _ _ _ _ _ _ _ _ _ _ _ _ _ (fun h => h0 ((hcond1_0 t).mp h)) ((hcond1_1 t).mpr h1) (iblk V c 0 t) (iblk V c 1 t) (iblk V c 2 t) (iblk V c 3 t) (iblk V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover_C_5 c _ _ _ _ _ _ _ _ _ _ _ _ _ _ _ _ _ _ _ _ _ _ _)
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [Dat.leavesExact_idle (dat V c) 5 t (idleAt_5_B t (fun h => h0 ((hcond1_0 t).mp h)) (fun h => h1 ((hcond1_1 t).mp h))) (noFlush_5_B t (fun h => h0 ((hcond1_0 t).mp h)) (fun h => h1 ((hcond1_1 t).mp h)))]
      rw [outsAt_B V c t h0 h1]
      unfold sout_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun_B c (grid1.coords t) _ _ _ _ _ _ _ _ _ _ _ _ _ _ (fun h => h0 ((hcond1_0 t).mp h)) (fun h => h1 ((hcond1_1 t).mp h)) (iblk V c 0 t) (iblk V c 1 t) (iblk V c 2 t) (iblk V c 3 t) (iblk V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the first point's back: the accumulator's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS0, HR⟩, Hg⟩
  isplitl [HS0 HR]
  · isplitl [HS0]
    · iexists _; iexact HS0
    iexact HR
  iexact Hg

/-- The same after the last point. -/
theorem hout (c : Dev nD) : (dat V c).Φ (Fin.last cfg1.N) ⊢ Pipeline.ΦA spec1 c :=
  Phi_out V c _ (by rw [Fin.val_last]; have : cfg1.N = 64 := N_1; omega)

end Entry

end Cert.Kernel.R1

end
-- ==== Proof.FrameK.Main.lean ====
import proofs.«105148_j76553497084189_1_alg».proof.Proof.Gen.Kernel.Launch
import proofs.«105148_j76553497084189_1_alg».proof.Proof.Gen.Kernel.Skeleton
import proofs.«105148_j76553497084189_1_alg».proof.Proof.Gen.Kernel.Points
import proofs.«105148_j76553497084189_1_alg».proof.Proof.Gen.Kernel.Regions
import proofs.«105148_j76553497084189_1_alg».proof.Proof.FrameK.R0Body
import proofs.«105148_j76553497084189_1_alg».proof.Proof.FrameK.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the unscoped buffers hold between the items of the program -/

/-- At launch. -/
abbrev W0 (c : Dev nD) : Valuation τ sig (Elt F) := fun b => m (c, b)
/-- After the first norm. -/
abbrev W1 (c : Dev nD) : Valuation τ sig (Elt F) := StableHlo.after hostOps0 (W0 m c)
/-- After the anchors are divided by their norms. -/
abbrev W2 (c : Dev nD) : Valuation τ sig (Elt F) := StableHlo.after hostOps0_1 (W1 m c)
/-- After the second norm. -/
abbrev W3 (c : Dev nD) : Valuation τ sig (Elt F) := StableHlo.after hostOps0_2 (W2 m c)
/-- After the positives are divided by their norms and the labels are reshaped: what the first kernel is entered with. -/
abbrev W4 (c : Dev nD) : Valuation τ sig (Elt F) := StableHlo.after hostOps0_3 (W3 m c)
abbrev V4 : (c : Dev nD) → (b : Ref sig .tc) → Buf (Elt F) ((c : Thread nD τ).loc b) := fun c b => W4 m c b
/-- After the first kernel: its windows' arrays at what its write-backs leave, every other buffer as before. -/
def W5 (c : Dev nD) : Valuation τ sig (Elt F) :=
  Pipeline.withArrays spec0 c (W4 m c) fun w => (R0.dat (V4 m) c).arrAt w cfg0.N
theorem W5_arr (c : Dev nD) (w : Fin cfg0.W) :
    W5 m c (Proc.devRef .tc (Pipeline.arrRef spec0 w)) = (R0.dat (V4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
abbrev V5 : (c : Dev nD) → (b : Ref sig .tc) → Buf (Elt F) ((c : Thread nD τ).loc b) := fun c b => W5 m c b
theorem hF0 (c : Dev nD) (w : Fin cfg0.W) : (R0.dat (V4 m) c).arrAt w cfg0.N = V5 m c (Pipeline.arrRef spec0 w) :=
  (W5_arr m c w).symm
theorem hrest0 (c : Dev nD) : ∀ b, b ∉ Finset.univ.image (Pipeline.arrRef spec0) → V5 m c b = V4 m c b :=
  fun b hb => W5_of_ne m c b fun w e => hb (Finset.mem_image.mpr ⟨w, Finset.mem_univ _, e⟩)
/-- After the second kernel. -/
def W6 (c : Dev nD) : Valuation τ sig (Elt F) :=
  Pipeline.withArrays spec1 c (W5 m c) fun w => (R1.dat (V5 m) c).arrAt w cfg1.N
theorem W6_arr (c : Dev nD) (w : Fin cfg1.W) :
    W6 m c (Proc.devRef .tc (Pipeline.arrRef spec1 w)) = (R1.dat (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (R1.dat (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the last host operations: the end. -/
abbrev W7 (c : Dev nD) : Valuation τ sig (Elt F) := StableHlo.after hostOps2 (W6 m c)

/-! ## No item writes an argument -/

theorem W7_arg (c : Dev nD) (r : Ref sig .tc) (h0 : r ∉ hostOps0_W) (h1 : r ∉ hostOps0_1_W) (h2 : r ∉ hostOps0_2_W)
    (h3 : r ∉ hostOps0_3_W) (h4 : ∀ w, Pipeline.arrRef spec0 w ≠ r) (h5 : ∀ w, Pipeline.arrRef spec1 w ≠ r) (h6 : r ∉ hostOps2_W) :
    W7 m c (Proc.devRef .tc r) = m ((c : Thread nD τ).loc r) :=
  (StableHlo.after_of_writes_sub hostOps2 _ hostOps2_writes h6).trans <|
  (W6_of_ne m c r h5).trans <| (W5_of_ne m c r h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

theorem W7_main_arg0 (c : Dev nD) : W7 m c (Proc.devRef .tc main_arg0) = m ((c : Thread nD τ).loc main_arg0) :=
  W7_arg m c main_arg0 (by decide) (by decide) (by decide) (by decide) (by decide) (by decide) (by decide)
theorem W7_main_arg1 (c : Dev nD) : W7 m c (Proc.devRef .tc main_arg1) = m ((c : Thread nD τ).loc main_arg1) :=
  W7_arg m c main_arg1 (by decide) (by decide) (by decide) (by decide) (by decide) (by decide) (by decide)
theorem W7_main_arg2 (c : Dev nD) : W7 m c (Proc.devRef .tc main_arg2) = m ((c : Thread nD τ).loc main_arg2) :=
  W7_arg m c main_arg2 (by decide) (by decide) (by decide) (by decide) (by decide) (by decide) (by decide)

/-! ## The proof data of the two kernels and what rides beside the buffers -/

abbrev adm : (p : Fin 2) → (pcfgs (F := F) p).Adm := fun p => (cfgs p).toPCfg_adm
/-- Each kernel's proof data at the contents its region is entered with. -/
def pdats : (p : Fin 2) → (c : Dev nD) → Dat τ (Elt F) Unit ℕ (UR sig nD τ) ℕ (Pipeline.pin (pcfgs (F := F)) adm p) c
  | ⟨0, _⟩ => fun c => R0.dat (V4 m) c
  | ⟨1, _⟩ => fun c => R1.dat (V5 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The two kernels as segments -/

set_option backward.isDefEq.respectTransparency.types false in
/-- Region 0 as a segment: entered with every unscoped buffer at `W4`, left with them at `W5`: its windows' arrays are
    split out of the unscoped buffers and put back at what the write-backs leave; the generator register goes into the
    kernel's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V4 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (V4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h.trans (R0.hin (V4 m) c)
  hout c := by
    rw [Pipeline.ownSems0_none]
    have h : (Pipeline.ΦA spec0 c : sProp 𝕄)
        ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (R0.hout (V4 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V4 m c) (V5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W5`, left with them at `W6`: its windows' arrays are
    split out of the unscoped buffers and put back at what the write-backs leave; the generator register goes into the
    kernel's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (R1.hin (V5 m) c)
  hout c := by
    rw [Pipeline.ownSems0_none]
    have h : (Pipeline.ΦA spec1 c : sProp 𝕄)
        ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (R1.hout (V5 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .region (reg1 m),
    .host (hseg hostOps2 hostOps2_sub hostOps2_fresh (W6 m)) ]

set_option backward.isDefEq.respectTransparency.types false in
/-- From any memory with every counter at zero, every weakly fair execution of the program on the TensorCores ends,
    nothing faulting, with every unscoped buffer at `W7`: the host operations' results composed through the two kernels'
    write-backs. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ (iprop(Tₙ m c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c)⟩) (run_all m ρ)

end Cert.Kernel.Run

end
-- ==== Proof.FrameKI.R0Shared.lean ====
/- Region 0 (the first pallas_call, `cc0__denom_kernel`): what the three case runs and the body obligation share.
   The body's two branch conditions in closed form over the grid, where the two output windows are idle, the
   staging and scratch memrefs, the region invariant with the two scratch accumulators opened, and each input
   window's block read off the buffer contents `V` the region is entered with. -/
import proofs.«105148_j76553497084189_1_alg».proof.Proof.Gen.KernelIdeal.Launch
import proofs.«105148_j76553497084189_1_alg».proof.Proof.Gen.KernelIdeal.Skeleton
import proofs.«105148_j76553497084189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (column coordinate = 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second `scf.if` (column coordinate = 7), from the grid coordinates. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The four input windows are never idle. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Where the second condition fails the body stores nothing into output windows 4 and 5: they are idle there, -/
theorem idleAt4 : ∀ t : Fin cfg0.N, ¬cond0_1 (grid0.coords t) → cfg0.idle 4 (grid0.coords t) = true := by decide +kernel
theorem idleAt5 : ∀ t : Fin cfg0.N, ¬cond0_1 (grid0.coords t) → cfg0.idle 5 (grid0.coords t) = true := by decide +kernel
/-- and the pipeline does not write their blocks back there. -/
theorem noFlush4 : ∀ t : Fin cfg0.N, ¬cond0_1 (grid0.coords t) → (cfg0.win 4).flush t = false := by decide +kernel
theorem noFlush5 : ∀ t : Fin cfg0.N, ¬cond0_1 (grid0.coords t) → (cfg0.win 5).flush t = false := by decide +kernel
/-- Where it holds they are live: the body stores into them. -/
theorem liveAt4 : ∀ t : Fin cfg0.N, cond0_1 (grid0.coords t) → cfg0.idle 4 (grid0.coords t) = false := by decide +kernel
theorem liveAt5 : ∀ t : Fin cfg0.N, cond0_1 (grid0.coords t) → cfg0.idle 5 (grid0.coords t) = false := by decide +kernel

/-! ## The staging and scratch memrefs -/

/-- One staging buffer of each output window, through which its contents are stated (the choice does not matter). -/
abbrev VO4 : View sig .tc .vmem S1024x1 .f32 := (Memref.whole cc0_stg4_0 : Memref sig .tc .vmem S1024x1 .f32).view
abbrev VO5 : View sig .tc .vmem S1024x1 .f32 := (Memref.whole cc0_stg5_0 : Memref sig .tc .vmem S1024x1 .f32).view
/-- Each window's current staging memref at point `t`, spelled as the pipeline passes it, and its wholeness. -/
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
/-- The two scratch accumulators: whole scoped buffers of the kernel's own, passed beside the windows. -/
abbrev scM0 : Memref sig .tc .vmem S1024x1 .f32 := Memref.whole cc0_scratch0
abbrev scM1 : Memref sig .tc .vmem S1024x1 .f32 := Memref.whole cc0_scratch1
/-- The same as views: what each holds is stated through it. -/
abbrev VS0 : View sig .tc .vmem S1024x1 .f32 := scM0.view
abbrev VS1 : View sig .tc .vmem S1024x1 .f32 := scM1.view

/-- The core's scoped buffers that are neither a staging buffer of this call nor one of its two scratch
    accumulators, at some contents each: carried through the region unopened. -/
abbrev restS (c : Dev nD) : sProp 𝕄 :=
  Pipeline.scopedRestBut (Ix := Unit) (Name := ℕ) (U := UR sig nD τ) (Lvl := ℕ) (Val := Elt F) spec0 c [cc0_scratch0, cc0_scratch1]

/-- The region invariant with the two scratch accumulators as memrefs owned at some contents, the other scoped
    buffers unopened, and the generator register at some state. -/
theorem PhiA_eq (c : Dev nD) :
    (Pipeline.ΦA spec0 c : sProp 𝕄)
      = iprop(iprop(iprop((∃ d, owns (c : Thread nD τ) scM0 fullShare d) ∗ (∃ d, owns (c : Thread nD τ) scM1 fullShare d)) ∗ restS (F := F) c) ∗ (∃ r, prngReg c r)) := by
  unfold Pipeline.ΦA
  rw [Pipeline.scopedRest_split_of_list spec0 c [cc0_scratch0, cc0_scratch1] (by decide) (by decide)]
  simp only [Idealize.SL.BI.bigSepL_cons_cons, Idealize.SL.BI.bigSepL_singleton, scM0, scM1, owns_whole]; try rfl

section Region
-- the buffer contents when the region is entered: the parameter everything of the region is stated at
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is `V`'s and whose body leaves the block in place: unfetched, the block index has not moved. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is `V`'s and whose body leaves the block in place: unfetched, the block index has not moved. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is `V`'s and whose body leaves the block in place: unfetched, the block index has not moved. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Region

end Cert.KernelIdeal.R0

end
-- ==== Proof.FrameKI.R0RunA.lean ====
/- Region 0, case A: the whole body of `cc0__denom_kernel` run on whole staging memrefs. The first condition holds
   (column coordinate 0) and the second does not: the two accumulators are zeroed, then added to; the two output
   windows are not touched. The pieces each accumulator ends with are the witness the run finds. -/
import proofs.«105148_j76553497084189_1_alg».proof.Proof.FrameKI.R0Shared

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- In case A, on whole memrefs — the inputs' at their contents, the two outputs' at contents handed back untouched, the
    two accumulators at anything (each is loaded, then overwritten) — the body runs to the continuation holding the
    inputs and outputs as they were and each accumulator with its pieces (last first) written. -/
noncomputable def kernelRun_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S1024x128 .f32) (x2 : Vec F S1024x1 .i32) (x3 : Vec F S1x1024 .i32) :
    Σ' (LS0 : List (View.Piece (Elt F) S1024x1 .f32)), { LS1 : List (View.Piece (Elt F) S1024x1 .f32) //
      ∀ (xi4 : Vec F S1024x1 .f32) (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__denom_kernel i arg2 harg2 arg3 harg3 arg4 harg4 arg5 harg5 arg6 harg6 arg7 harg7 arg8 harg8 arg9 harg9) K } := by
  refine ⟨?_, ?_, fun xi4 xi5 E K => ?run⟩
  case run =>
    simp only [cc0__denom_kernel_eq_skeleton]; unfold cc0__denom_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.KernelIdeal.R0

end
-- ==== Proof.FrameKI.R0RunB.lean ====
/- Region 0, case B: the whole body of `cc0__denom_kernel` run on whole staging memrefs. Neither condition
   holds (column coordinate 1…6): the two accumulators are added to; the two output windows are not touched. The
   pieces each accumulator ends with are the witness the run finds. -/
import proofs.«105148_j76553497084189_1_alg».proof.Proof.FrameKI.R0Shared

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- In case B, on whole memrefs — the inputs' at their contents, the two outputs' at contents handed back untouched, the
    two accumulators at what the point before left (`xs0`, `xs1`) — the body runs to the continuation holding the
    inputs and outputs as they were and each accumulator with its pieces (last first) written. -/
noncomputable def kernelRun_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) :
    Σ' (LS0 : List (View.Piece (Elt F) S1024x1 .f32)), { LS1 : List (View.Piece (Elt F) S1024x1 .f32) //
      ∀ (xi4 : Vec F S1024x1 .f32) (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__denom_kernel i arg2 harg2 arg3 harg3 arg4 harg4 arg5 harg5 arg6 harg6 arg7 harg7 arg8 harg8 arg9 harg9) K } := by
  refine ⟨?_, ?_, fun xi4 xi5 E K => ?run⟩
  case run =>
    simp only [cc0__denom_kernel_eq_skeleton]; unfold cc0__denom_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.KernelIdeal.R0

end
-- ==== Proof.FrameKI.R0RunC.lean ====
/- Region 0, case C: the whole body of `cc0__denom_kernel` run on whole staging memrefs. The second condition
   holds (column coordinate 7) and the first does not: the two accumulators are added to, then copied into the two
   output windows. The pieces each output and each accumulator ends with are the witness the run finds. -/
import proofs.«105148_j76553497084189_1_alg».proof.Proof.FrameKI.R0Shared

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- In case C, on whole memrefs — the inputs' at their contents, the two outputs' at anything (each is loaded, then
    overwritten), the two accumulators at what the point before left (`xs0`, `xs1`) — the body runs to the continuation
    holding the inputs as they were and each output and each accumulator with its pieces (last first) written. -/
noncomputable def kernelRun_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) :
    Σ' (L4 : List (View.Piece (Elt F) S1024x1 .f32)) (L5 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__denom_kernel i arg2 harg2 arg3 harg3 arg4 harg4 arg5 harg5 arg6 harg6 arg7 harg7 arg8 harg8 arg9 harg9) K } := by
  refine ⟨?_, ?_, ?_, ?_, fun E K => ?run⟩
  case run =>
    simp only [cc0__denom_kernel_eq_skeleton]; unfold cc0__denom_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    isplitl [HS0]
    · iexists _; iexact HS0
    iexists _; iexact HS1

end Cert.KernelIdeal.R0

end
-- ==== Proof.FrameKI.R0Body.lean ====
/- Region 0 (`cc0__denom_kernel`): the body obligation. What each case of the body leaves in the two output windows and
   the two accumulators, point by point (`outsAt`: the accumulators carried from each point to the next along a grid
   row, zeroed at column 0, copied into the outputs at column 7); the region invariant with the accumulators at those
   contents; the proof data; and the body's triple at every point from the three case runs. Everything is stated at
   the buffer contents `V` the region is entered with. -/
import proofs.«105148_j76553497084189_1_alg».proof.Proof.FrameKI.R0RunA
import proofs.«105148_j76553497084189_1_alg».proof.Proof.FrameKI.R0RunB
import proofs.«105148_j76553497084189_1_alg».proof.Proof.FrameKI.R0RunC

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves: covers and contents -/

/-- Case A's pieces for the first accumulator tile it, so they cover it. -/
theorem scover_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S1024x128 .f32) (x2 : Vec F S1024x1 .i32) (x3 : Vec F S1x1024 .i32) (y : S1024x1.Idx) :
    ∃ pc ∈ (kernelRun_A c i arg2 harg2 arg3 harg3 arg4 harg4 arg5 harg5 arg6 harg6 arg7 harg7 arg8 harg8 arg9 harg9 hc0 hc1 x0 x1 x2 x3).1, y ∈ pc.1.set :=
  View.cover_of_tiledL (kernelRun_A c i arg2 harg2 arg3 harg3 arg4 harg4 arg5 harg5 arg6 harg6 arg7 harg7 arg8 harg8 arg9 harg9 hc0 hc1 x0 x1 x2 x3).1 S1024x1.size (by sl_kernel_rfl) y

/-- What case A leaves in the first accumulator: its pieces read back over junk. -/
def sout_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S1024x128 .f32) (x2 : Vec F S1024x1 .i32) (x3 : Vec F S1x1024 .i32) : Vec F S1024x1 .f32 :=
  VS0.read (Elt F) (VS0.writes (Elt F) VS0.junk (kernelRun_A c i arg2 harg2 arg3 harg3 arg4 harg4 arg5 harg5 arg6 harg6 arg7 harg7 arg8 harg8 arg9 harg9 hc0 hc1 x0 x1 x2 x3).1)

/-- Case A's pieces for the second accumulator tile it, so they cover it. -/
theorem scover_A_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S1024x128 .f32) (x2 : Vec F S1024x1 .i32) (x3 : Vec F S1x1024 .i32) (y : S1024x1.Idx) :
    ∃ pc ∈ (kernelRun_A c i arg2 harg2 arg3 harg3 arg4 harg4 arg5 harg5 arg6 harg6 arg7 harg7 arg8 harg8 arg9 harg9 hc0 hc1 x0 x1 x2 x3).2.1, y ∈ pc.1.set :=
  View.cover_of_tiledL (kernelRun_A c i arg2 harg2 arg3 harg3 arg4 harg4 arg5 harg5 arg6 harg6 arg7 harg7 arg8 harg8 arg9 harg9 hc0 hc1 x0 x1 x2 x3).2.1 S1024x1.size (by sl_kernel_rfl) y

/-- What case A leaves in the second accumulator: its pieces read back over junk. -/
def sout_A_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S1024x128 .f32) (x2 : Vec F S1024x1 .i32) (x3 : Vec F S1x1024 .i32) : Vec F S1024x1 .f32 :=
  VS1.read (Elt F) (VS1.writes (Elt F) VS1.junk (kernelRun_A c i arg2 harg2 arg3 harg3 arg4 harg4 arg5 harg5 arg6 harg6 arg7 harg7 arg8 harg8 arg9 harg9 hc0 hc1 x0 x1 x2 x3).2.1)

/-- Case B's pieces for the first accumulator tile it, so they cover it. -/
theorem scover_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun_B c i arg2 harg2 arg3 harg3 arg4 harg4 arg5 harg5 arg6 harg6 arg7 harg7 arg8 harg8 arg9 harg9 hc0 hc1 x0 x1 x2 x3 xs0 xs1).1 S1024x1.size (by sl_kernel_rfl) y

/-- What case B leaves in the first accumulator: its pieces read back over junk. -/
def sout_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VS0.read (Elt F) (VS0.writes (Elt F) VS0.junk (kernelRun_B c i arg2 harg2 arg3 harg3 arg4 harg4 arg5 harg5 arg6 harg6 arg7 harg7 arg8 harg8 arg9 harg9 hc0 hc1 x0 x1 x2 x3 xs0 xs1).1)

/-- Case B's pieces for the second accumulator tile it, so they cover it. -/
theorem scover_B_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun_B c i arg2 harg2 arg3 harg3 arg4 harg4 arg5 harg5 arg6 harg6 arg7 harg7 arg8 harg8 arg9 harg9 hc0 hc1 x0 x1 x2 x3 xs0 xs1).2.1 S1024x1.size (by sl_kernel_rfl) y

/-- What case B leaves in the second accumulator: its pieces read back over junk. -/
def sout_B_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VS1.read (Elt F) (VS1.writes (Elt F) VS1.junk (kernelRun_B c i arg2 harg2 arg3 harg3 arg4 harg4 arg5 harg5 arg6 harg6 arg7 harg7 arg8 harg8 arg9 harg9 hc0 hc1 x0 x1 x2 x3 xs0 xs1).2.1)

/-- Case C's pieces for output window 4 tile it, so they cover it. -/
theorem cover_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun_C c i arg2 harg2 arg3 harg3 arg4 harg4 arg5 harg5 arg6 harg6 arg7 harg7 arg8 harg8 arg9 harg9 hc0 hc1 x0 x1 x2 x3 xs0 xs1).1 S1024x1.size (by sl_kernel_rfl) y

/-- What case C leaves in output window 4's staging buffer: its pieces read back over junk. -/
def out_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VO4.read (Elt F) (VO4.writes (Elt F) VO4.junk (kernelRun_C c i arg2 harg2 arg3 harg3 arg4 harg4 arg5 harg5 arg6 harg6 arg7 harg7 arg8 harg8 arg9 harg9 hc0 hc1 x0 x1 x2 x3 xs0 xs1).1)

/-- Case C's pieces for output window 5 tile it, so they cover it. -/
theorem cover_C_5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun_C c i arg2 harg2 arg3 harg3 arg4 harg4 arg5 harg5 arg6 harg6 arg7 harg7 arg8 harg8 arg9 harg9 hc0 hc1 x0 x1 x2 x3 xs0 xs1).2.1 S1024x1.size (by sl_kernel_rfl) y

/-- What case C leaves in output window 5's staging buffer: its pieces read back over junk. -/
def out_C_5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VO5.read (Elt F) (VO5.writes (Elt F) VO5.junk (kernelRun_C c i arg2 harg2 arg3 harg3 arg4 harg4 arg5 harg5 arg6 harg6 arg7 harg7 arg8 harg8 arg9 harg9 hc0 hc1 x0 x1 x2 x3 xs0 xs1).2.1)

/-- Case C's pieces for the first accumulator tile it, so they cover it. -/
theorem scover_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun_C c i arg2 harg2 arg3 harg3 arg4 harg4 arg5 harg5 arg6 harg6 arg7 harg7 arg8 harg8 arg9 harg9 hc0 hc1 x0 x1 x2 x3 xs0 xs1).2.2.1 S1024x1.size (by sl_kernel_rfl) y

/-- What case C leaves in the first accumulator: its pieces read back over junk. -/
def sout_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VS0.read (Elt F) (VS0.writes (Elt F) VS0.junk (kernelRun_C c i arg2 harg2 arg3 harg3 arg4 harg4 arg5 harg5 arg6 harg6 arg7 harg7 arg8 harg8 arg9 harg9 hc0 hc1 x0 x1 x2 x3 xs0 xs1).2.2.1)

/-- Case C's pieces for the second accumulator tile it, so they cover it. -/
theorem scover_C_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun_C c i arg2 harg2 arg3 harg3 arg4 harg4 arg5 harg5 arg6 harg6 arg7 harg7 arg8 harg8 arg9 harg9 hc0 hc1 x0 x1 x2 x3 xs0 xs1).2.2.2.1 S1024x1.size (by sl_kernel_rfl) y

/-- What case C leaves in the second accumulator: its pieces read back over junk. -/
def sout_C_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VS1.read (Elt F) (VS1.writes (Elt F) VS1.junk (kernelRun_C c i arg2 harg2 arg3 harg3 arg4 harg4 arg5 harg5 arg6 harg6 arg7 harg7 arg8 harg8 arg9 harg9 hc0 hc1 x0 x1 x2 x3 xs0 xs1).2.2.2.1)

/-- An output window at a point where the body stores nothing into it: a placeholder nothing consults (the window is
    neither written back there nor read at the next point). -/
def idle4 : Vec F S1024x1 .f32 := VO4.read (Elt F) VO4.junk
def idle5 : Vec F S1024x1 .f32 := VO5.read (Elt F) VO5.junk

section Region
-- the buffer contents when the region is entered: the parameter everything of the region is stated at
variable (V : (c : Dev nD) → (b : Ref sig .tc) → Buf (Elt F) ((c : Thread nD τ).loc b))

/-! ## What the outputs and the accumulators hold after each point -/

/-- After a point of case A (column 0): outputs untouched, the accumulators at the case's contents. -/
def caseA (c : Dev nD) (t : Fin cfg0.N) (h0 : t.val % 8 = 0) (h1 : ¬t.val % 8 = 7) : Vec F S1024x1 .f32 × Vec F S1024x1 .f32 × Vec F S1024x1 .f32 × Vec F S1024x1 .f32 :=
  (idle4, idle5, sout_A_0 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) (fun h => h1 ((hcond0_1 t).mp h)) (iblk V c 0 t) (iblk V c 1 t) (iblk V c 2 t) (iblk V c 3 t), sout_A_1 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) (fun h => h1 ((hcond0_1 t).mp h)) (iblk V c 0 t) (iblk V c 1 t) (iblk V c 2 t) (iblk V c 3 t))

/-- After a point of case B (columns 1…6): outputs untouched, the accumulators at the case's contents over what the
    point before left (`xs0`, `xs1`). -/
def caseB (c : Dev nD) (t : Fin cfg0.N) (h0 : ¬t.val % 8 = 0) (h1 : ¬t.val % 8 = 7) (xs0 : Vec F S1024x1 .f32) (xs1 : Vec F S1024x1 .f32) : Vec F S1024x1 .f32 × Vec F S1024x1 .f32 × Vec F S1024x1 .f32 × Vec F S1024x1 .f32 :=
  (idle4, idle5, sout_B_0 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) (fun h => h1 ((hcond0_1 t).mp h)) (iblk V c 0 t) (iblk V c 1 t) (iblk V c 2 t) (iblk V c 3 t) xs0 xs1, sout_B_1 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) (fun h => h1 ((hcond0_1 t).mp h)) (iblk V c 0 t) (iblk V c 1 t) (iblk V c 2 t) (iblk V c 3 t) xs0 xs1)

/-- After a point of case C (column 7): the outputs and the accumulators at the case's contents over what the point
    before left (`xs0`, `xs1`). -/
def caseC (c : Dev nD) (t : Fin cfg0.N) (h0 : ¬t.val % 8 = 0) (h1 : t.val % 8 = 7) (xs0 : Vec F S1024x1 .f32) (xs1 : Vec F S1024x1 .f32) : Vec F S1024x1 .f32 × Vec F S1024x1 .f32 × Vec F S1024x1 .f32 × Vec F S1024x1 .f32 :=
  (out_C_4 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) ((hcond0_1 t).mpr h1) (iblk V c 0 t) (iblk V c 1 t) (iblk V c 2 t) (iblk V c 3 t) xs0 xs1, out_C_5 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) ((hcond0_1 t).mpr h1) (iblk V c 0 t) (iblk V c 1 t) (iblk V c 2 t) (iblk V c 3 t) xs0 xs1, sout_C_0 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) ((hcond0_1 t).mpr h1) (iblk V c 0 t) (iblk V c 1 t) (iblk V c 2 t) (iblk V c 3 t) xs0 xs1, sout_C_1 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) ((hcond0_1 t).mpr h1) (iblk V c 0 t) (iblk V c 1 t) (iblk V c 2 t) (iblk V c 3 t) xs0 xs1)

/-- THE ACCUMULATION. What the two outputs' staging buffers and the two accumulators hold after the body at position
    `n` (outputs in window order, then the accumulators): the case the closed forms select at `n`, run at the point's
    memrefs and input blocks, the accumulators taken at what this leaves at `n - 1`. -/
def outsAt (c : Dev nD) : (n : ℕ) → n < cfg0.N → Vec F S1024x1 .f32 × Vec F S1024x1 .f32 × Vec F S1024x1 .f32 × Vec F S1024x1 .f32
  | 0, hn => caseA V c ⟨0, hn⟩ (Nat.zero_mod _) (by show ¬(0 % 8 = 7); decide)
  | n + 1, hn =>
    if h0 : (n + 1) % 8 = 0 then
      if h1 : (n + 1) % 8 = 7 then
        False.elim (by omega)
      else
        caseA V c ⟨n + 1, hn⟩ h0 h1
    else
      if h1 : (n + 1) % 8 = 7 then
        caseC V c ⟨n + 1, hn⟩ h0 h1 (outsAt c n (Nat.lt_of_succ_lt hn)).2.2.1 (outsAt c n (Nat.lt_of_succ_lt hn)).2.2.2
      else
        caseB V c ⟨n + 1, hn⟩ h0 h1 (outsAt c n (Nat.lt_of_succ_lt hn)).2.2.1 (outsAt c n (Nat.lt_of_succ_lt hn)).2.2.2

/-- `outsAt` at a point of case A: that case's contents. -/
theorem outsAt_A (c : Dev nD) (t : Fin cfg0.N) (h0 : t.val % 8 = 0) (h1 : ¬t.val % 8 = 7) :
    outsAt V c t.val t.isLt = caseA V c t h0 h1 := by
  obtain ⟨n, hn⟩ := t
  cases n with
  | zero => exact rfl
  | succ n => exact (dif_pos h0).trans ((dif_neg h1).trans rfl)

/-- `outsAt` at a point of case B: that case's contents, over what the point before left. -/
theorem outsAt_B (c : Dev nD) (t : Fin cfg0.N) (h0 : ¬t.val % 8 = 0) (h1 : ¬t.val % 8 = 7) :
    outsAt V c t.val t.isLt = caseB V c t h0 h1 (outsAt V c (t.val - 1) (Nat.lt_of_le_of_lt (Nat.sub_le _ _) t.isLt)).2.2.1 (outsAt V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

/-- `outsAt` at a point of case C: that case's contents, over what the point before left. -/
theorem outsAt_C (c : Dev nD) (t : Fin cfg0.N) (h0 : ¬t.val % 8 = 0) (h1 : t.val % 8 = 7) :
    outsAt V c t.val t.isLt = caseC V c t h0 h1 (outsAt V c (t.val - 1) (Nat.lt_of_le_of_lt (Nat.sub_le _ _) t.isLt)).2.2.1 (outsAt V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The region invariant, the accumulators carried -/

/-- The region invariant before position `n`: before the first point the launch's (every scoped buffer at anything);
    afterwards the two accumulators at what the point before left in them, the other scoped buffers unopened, and the
    generator register at some state. -/
def PhiS (c : Dev nD) : (n : ℕ) → n ≤ cfg0.N → sProp 𝕄
  | 0, _ => Pipeline.ΦA spec0 c
  | n + 1, hn => iprop(iprop(iprop(owns (c : Thread nD τ) scM0 fullShare ((outsAt V c n hn).2.2.1) ∗ owns (c : Thread nD τ) scM1 fullShare ((outsAt V c n hn).2.2.2)) ∗ restS (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(iprop(owns (c : Thread nD τ) scM0 fullShare ((outsAt V c n hn).2.2.1) ∗ owns (c : Thread nD τ) scM1 fullShare ((outsAt V c n hn).2.2.2)) ∗ restS (F := F) c) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(iprop(owns (c : Thread nD τ) scM0 fullShare ((outsAt V c (n - 1) (by omega)).2.2.1) ∗ owns (c : Thread nD τ) scM1 fullShare ((outsAt V c (n - 1) (by omega)).2.2.2)) ∗ restS (F := F) c) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the outputs' at `outsAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
  Φ t := PhiS V c t.val (Nat.le_of_lt_succ t.isLt)
  q _ := fullShare
  owed _ := 0

/-- The proof data's arrays are the region-entry contents (the definition projected, `V` never unfolded). -/
theorem A_eq (c : Dev nD) (w : Fin cfg0.W) : (dat V c).A w = V c (Pipeline.arrRef spec0 w) := by
  dsimp only [dat]

/-- The invariant at a point's start, restated at `t.val`. -/
theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = (outsAt V c t.val t.isLt).1 := by dsimp only [dat]
theorem after5 (c : Dev nD) (t : Fin cfg0.N) : (dat V c).after 5 t = (outsAt V c t.val t.isLt).2.1 := by dsimp only [dat]

/-- Each input's current staging buffer holds its block at every point, fetched there or not. -/
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d

/-! ## The body obligation, at a generic point -/

/-- What the body is called with at point `t` (the windows one by one), -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

/-- An input window's post: its buffer at its block (the window is never idle). -/
theorem leaves0 (c : Dev nD) (t : Fin cfg0.N) : (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [liveAt0 t], after0]
theorem leaves1 (c : Dev nD) (t : Fin cfg0.N) : (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [liveAt1 t], after1]
theorem leaves2 (c : Dev nD) (t : Fin cfg0.N) : (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [liveAt2 t], after2]
theorem leaves3 (c : Dev nD) (t : Fin cfg0.N) : (dat V c).leavesExact 3 t = owns (c : Thread nD τ) (ms3 t) fullShare (iblk V c 3 t) := by
  rw [show (dat V c).leavesExact 3 t = owns (c : Thread nD τ) (ms3 t) fullShare ((dat V c).after 3 t) from by
    unfold Dat.leavesExact; rw [liveAt3 t], after3]

set_option maxHeartbeats 4800000 in
/-- The body at any point: the inputs' memrefs hold their blocks; the closed forms say which case the point is in;
    the invariant hands the body the accumulators at what the point before left (at anything at the first point) and
    takes them back at this point's contents, the other scoped buffers and the generator register passing through;
    an output window the case does not store into is handed back as found; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0 V, before1 V, before2 V, before3 V]
  rw [show (dat V c).owesAt () t.succ = (dat V c).owesAt () t.castSucc from rfl]
  rw [show (dat V c).Φ t.succ = PhiS V c (t.val + 1) t.isLt from rfl, PhiS_succ]
  rw [leaves0 V c t, leaves1 V c t, leaves2 V c t, leaves3 V c t]
  have hN : t.val < 64 := lt_of_lt_of_eq t.isLt (show cfg0.N = 64 from N_0)
  by_cases h0 : t.val % 8 = 0
  · by_cases h1 : t.val % 8 = 7
    · exfalso; omega
    · have hc0 : cond0_0 (grid0.coords t) := (hcond0_0 t).mpr h0
      have hc1 : ¬cond0_1 (grid0.coords t) := fun h => h1 ((hcond0_1 t).mp h)
      rw [Dat.leavesExact_idle (dat V c) 4 t (idleAt4 t hc1) (noFlush4 t hc1)]
      rw [Dat.leavesExact_idle (dat V c) 5 t (idleAt5 t hc1) (noFlush5 t hc1)]
      rw [outsAt_A V c t h0 h1]
      unfold caseA sout_A_0 sout_A_1; (try dsimp only)
      by_cases hz : t.val = 0
      · rw [PhiS_castSucc V c t, PhiS_zero V c _ _ hz, PhiA_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun_A c (grid0.coords t) _ _ _ _ _ _ _ _ _ _ _ _ _ _ _ _ hc0 hc1 (iblk V c 0 t) (iblk V c 1 t) (iblk V c 2 t) (iblk V c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _ _ _ _ _ _)
              unfold owns; iexists _; isplitr
              swap; · iexact HS1
              ipureintro; exact View.read_writes_of_cover _ _ _ _ _ (scover_A_1 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc V c t, PhiS_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun_A c (grid0.coords t) _ _ _ _ _ _ _ _ _ _ _ _ _ _ _ _ hc0 hc1 (iblk V c 0 t) (iblk V c 1 t) (iblk V c 2 t) (iblk V c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _ _ _ _ _ _)
              unfold owns; iexists _; isplitr
              swap; · iexact HS1
              ipureintro; exact View.read_writes_of_cover _ _ _ _ _ (scover_A_1 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · by_cases h1 : t.val % 8 = 7
    · have hc0 : ¬cond0_0 (grid0.coords t) := fun h => h0 ((hcond0_0 t).mp h)
      have hc1 : cond0_1 (grid0.coords t) := (hcond0_1 t).mpr h1
      rw [show (dat V c).leavesExact 4 t = owns (c : Thread nD τ) (ms4 t) fullShare ((dat V c).after 4 t) from by
        unfold Dat.leavesExact; rw [liveAt4 t hc1], after4]
      rw [show (dat V c).leavesExact 5 t = owns (c : Thread nD τ) (ms5 t) fullShare ((dat V c).after 5 t) from by
        unfold Dat.leavesExact; rw [liveAt5 t hc1], after5]
      rw [outsAt_C V c t h0 h1]
      unfold caseC out_C_4 out_C_5 sout_C_0 sout_C_1; (try dsimp only)
      by_cases hz : t.val = 0
      · exfalso; omega
      · rw [PhiS_castSucc V c t, PhiS_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun_C c (grid0.coords t) _ _ _ _ _ _ _ _ _ _ _ _ _ _ _ _ hc0 hc1 (iblk V c 0 t) (iblk V c 1 t) (iblk V c 2 t) (iblk V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover_C_0 c _ _ _ _ _ _ _ _ _ _ _ _ _ _ _ _ _ _ _ _ _ _ _ _ _)
              unfold owns; iexists _; isplitr
              swap; · iexact HS1
              ipureintro; exact View.read_writes_of_cover _ _ _ _ _ (scover_C_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover_C_4 c _ _ _ _ _ _ _ _ _ _ _ _ _ _ _ _ _ _ _ _ _ _ _ _ _)
        unfold owns; iexists _; isplitr
        swap; · iexact H5
        ipureintro; exact View.read_writes_of_cover _ _ _ _ _ (cover_C_5 c _ _ _ _ _ _ _ _ _ _ _ _ _ _ _ _ _ _ _ _ _ _ _ _ _)
    · have hc0 : ¬cond0_0 (grid0.coords t) := fun h => h0 ((hcond0_0 t).mp h)
      have hc1 : ¬cond0_1 (grid0.coords t) := fun h => h1 ((hcond0_1 t).mp h)
      rw [Dat.leavesExact_idle (dat V c) 4 t (idleAt4 t hc1) (noFlush4 t hc1)]
      rw [Dat.leavesExact_idle (dat V c) 5 t (idleAt5 t hc1) (noFlush5 t hc1)]
      rw [outsAt_B V c t h0 h1]
      unfold caseB sout_B_0 sout_B_1; (try dsimp only)
      by_cases hz : t.val = 0
      · exfalso; omega
      · rw [PhiS_castSucc V c t, PhiS_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
        iapply ((kernelRun_B c (grid0.coords t) _ _ _ _ _ _ _ _ _ _ _ _ _ _ _ _ hc0 hc1 (iblk V c 0 t) (iblk V c 1 t) (iblk V c 2 t) (iblk V c 3 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover_B_0 c _ _ _ _ _ _ _ _ _ _ _ _ _ _ _ _ _ _ _ _ _ _ _ _ _)
              unfold owns; iexists _; isplitr
              swap; · iexact HS1
              ipureintro; exact View.read_writes_of_cover _ _ _ _ _ (scover_B_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulators' named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout (c : Dev nD) : (dat V c).Φ (Fin.last cfg0.N) ⊢ Pipeline.ΦA spec0 c :=
  Phi_out V c _ (by rw [Fin.val_last]; have : cfg0.N = 64 := N_0; omega)

end Region

end Cert.KernelIdeal.R0

end
-- ==== Proof.FrameKI.R1Shared.lean ====
/- Region 1 of @main (the second pallas_call, pipeline 1, the printed function `cc1__sms_kernel`): what the three
   runs of its body, one per case, share. The body has two conditionals on the grid point t = 8*i + j: the
   first holds where j = 0 (the accumulator is zeroed), the second where j = 7 (the accumulator is copied to the
   output block). So three cases: A (j = 0), B (0 < j < 7), C (j = 7). Everything of the region is stated at a
   parameter `V`, the TensorCore's buffer contents when the region is entered. -/
import proofs.«105148_j76553497084189_1_alg».proof.Proof.Gen.KernelIdeal.Launch
import proofs.«105148_j76553497084189_1_alg».proof.Proof.Gen.KernelIdeal.Skeleton
import proofs.«105148_j76553497084189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (`k1_h1`), from the grid coordinates (the skeleton's scalar chain
    substituted): the column coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8), decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second `scf.if` (`k1_h2`): the column coordinate is 7. -/
abbrev cond1_1 (i : grid1.Coords) : Prop := k1_cond2 i = 1#1
/-- It holds at the points ≡ 7 (mod 8), decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The input windows are never idle. -/
theorem liveAt_0 : ∀ t : Fin cfg1.N, cfg1.idle 0 (grid1.coords t) = false := fun _ => rfl
theorem liveAt_1 : ∀ t : Fin cfg1.N, cfg1.idle 1 (grid1.coords t) = false := fun _ => rfl
theorem liveAt_2 : ∀ t : Fin cfg1.N, cfg1.idle 2 (grid1.coords t) = false := fun _ => rfl
theorem liveAt_3 : ∀ t : Fin cfg1.N, cfg1.idle 3 (grid1.coords t) = false := fun _ => rfl
theorem liveAt_4 : ∀ t : Fin cfg1.N, cfg1.idle 4 (grid1.coords t) = false := fun _ => rfl
/-- At the points of case A the output window 5 is idle: the case stores nothing into it. -/
theorem idleAt_5_A : ∀ t : Fin cfg1.N, cond1_0 (grid1.coords t) → ¬cond1_1 (grid1.coords t) → cfg1.idle 5 (grid1.coords t) = true := by decide +kernel
/-- At the points of case A the pipeline does not write output 5's block back. -/
theorem noFlush_5_A : ∀ t : Fin cfg1.N, cond1_0 (grid1.coords t) → ¬cond1_1 (grid1.coords t) → (cfg1.win 5).flush t = false := by decide +kernel
/-- At the points of case B the output window 5 is idle. -/
theorem idleAt_5_B : ∀ t : Fin cfg1.N, ¬cond1_0 (grid1.coords t) → ¬cond1_1 (grid1.coords t) → cfg1.idle 5 (grid1.coords t) = true := by decide +kernel
/-- At the points of case B the pipeline does not write output 5's block back. -/
theorem noFlush_5_B : ∀ t : Fin cfg1.N, ¬cond1_0 (grid1.coords t) → ¬cond1_1 (grid1.coords t) → (cfg1.win 5).flush t = false := by decide +kernel
/-- At the points of case C the output window 5 is live: the case stores into it. -/
theorem liveAt_5_C : ∀ t : Fin cfg1.N, ¬cond1_0 (grid1.coords t) → cond1_1 (grid1.coords t) → cfg1.idle 5 (grid1.coords t) = false := by decide +kernel

/-! ## The memrefs the body is called with -/

/-- One staging buffer of output window 5, through which its contents are stated (the choice does not matter:
    what is read back through a whole view of the shape depends on the pieces only). -/
abbrev VO_5 : View sig .tc .vmem S1024x1 .f32 := (Memref.whole cc1_stg5_0 : Memref sig .tc .vmem S1024x1 .f32).view
/-- Each window's current staging memref at point `t`, spelled as the pipeline passes it (`bodyAt1`), and its wholeness. -/
abbrev ms_0 (t : Fin cfg1.N) : Memref sig .tc .vmem S1024x128 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x128 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x1 .i32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x1024 .i32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024x1 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1024x1 .f32 := win1_5.stage (cfg1.slots t 5)
abbrev hs_5 (t : Fin cfg1.N) : (ms_5 t).IsWhole := hstage1_5 ((cfg1.slots t 5).cast nbuf1_5)
/-- The scratch operand: a whole scoped buffer of the kernel's own, passed beside the windows. -/
abbrev scM : Memref sig .tc .vmem S1024x1 .f32 := Memref.whole cc1_scratch0
/-- The scratch accumulator the kernel carries between points, as a view: what it holds is stated through it. -/
abbrev VS : View sig .tc .vmem S1024x1 .f32 := scM.view

/-! ## The invariant between grid points, opened at the scratch accumulator -/

/-- The core's scoped buffers that are neither a staging buffer of this call nor its scratch operand (the other
    call's staging buffers and scratch), at some contents each: carried unopened. -/
abbrev restBut (c : Dev nD) : sProp 𝕄 :=
  Pipeline.scopedRestBut (Ix := Unit) (Name := ℕ) (U := UR sig nD τ) (Lvl := ℕ) (Val := Elt F) spec1 c [cc1_scratch0]

/-- The scoped rest of this call split at its own scratch operand. -/
theorem scopedRest_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ restBut c) :=
  Pipeline.scopedRest_split_of_list spec1 c [cc1_scratch0] (by decide) (by decide)

/-- The invariant between grid points, before the first one: the scratch accumulator owned at some contents, the other
    scoped buffers at anything, the generator register at some state. -/
theorem PhiA_eq (c : Dev nD) :
    (Pipeline.ΦA spec1 c : sProp 𝕄)
      = iprop(iprop((∃ d, owns (c : Thread nD τ) scM fullShare d) ∗ restBut c) ∗ (∃ r, prngReg c r)) := by
  unfold Pipeline.ΦA; rw [scopedRest_split]; simp only [scM, owns_whole]; try rfl

/-! ## The windows' blocks -/

section Entry
-- the TensorCore's buffer contents when the region is entered
variable (V : (c : Dev nD) → (b : Ref sig .tc) → Buf (Elt F) ((c : Thread nD τ).loc b))

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the block
    index has not moved), for any proof data whose array is `V`'s and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the block
    index has not moved), for any proof data whose array is `V`'s and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, the block
    index has not moved), for any proof data whose array is `V`'s and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, the block
    index has not moved), for any proof data whose array is `V`'s and whose body leaves the block in place. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (unfetched, the block
    index has not moved), for any proof data whose array is `V`'s and whose body leaves the block in place. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Entry

end Cert.KernelIdeal.R1

end
-- ==== Proof.FrameKI.R1RunA.lean ====
/- Region 1 of @main (`cc1__sms_kernel`): the kernel body run once in case A: from the input blocks (and the accumulator)
   to the pieces each buffer ends with. The body is a sequence of whole-block loads and stores over named payloads, with
   two conditionals on the grid point that the case's hypotheses decide; the pieces are the stores made into a buffer,
   last first. -/
import proofs.«105148_j76553497084189_1_alg».proof.Proof.FrameKI.R1Shared

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (the first conditional taken, the second not: the points with j = 0). What the body's stores leave in the
    output's staging memref and in the scratch accumulator, as pieces (last first), WITH the proof that on whole
    memrefs, the inputs' at their contents, the output's (no store: idle here) at contents `xi5` handed back untouched,
    the scratch at anything (the case loads it before it stores it, and uses nothing of what it loads), the body runs
    to the continuation holding the inputs' as they were and the scratch with its pieces written. -/
noncomputable def kernelRun_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond1_0 i) (hc1 : ¬cond1_1 i)
    (x0 : Vec F S1024x128 .f32) (x1 : Vec F S1024x128 .f32) (x2 : Vec F S1024x1 .i32) (x3 : Vec F S1x1024 .i32) (x4 : Vec F S1024x1 .f32) :
    Σ' (L5 : List (View.Piece (Elt F) S1024x1 .f32)), { LS0 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__sms_kernel i arg2 harg2 arg3 harg3 arg4 harg4 arg5 harg5 arg6 harg6 arg7 harg7 arg8 harg8) K } := by
  refine ⟨[], ?_, fun xi5 E K => ?run⟩
  case run =>
    simp only [cc1__sms_kernel_eq_skeleton]; unfold cc1__sms_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.R1

end
-- ==== Proof.FrameKI.R1RunB.lean ====
/- Region 1 of @main (`cc1__sms_kernel`): the kernel body run once in case B: from the input blocks (and the accumulator)
   to the pieces each buffer ends with. The body is a sequence of whole-block loads and stores over named payloads, with
   two conditionals on the grid point that the case's hypotheses decide; the pieces are the stores made into a buffer,
   last first. -/
import proofs.«105148_j76553497084189_1_alg».proof.Proof.FrameKI.R1Shared

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (neither conditional taken: the points with 0 < j < 7). What the body's stores leave in the output's staging
    memref and in the scratch accumulator, as pieces (last first), WITH the proof that on whole memrefs, the inputs'
    at their contents, the output's (no store: idle here) at contents `xi5` handed back untouched, the scratch at the
    contents the point before left (`xs0`), the body runs to the continuation holding the inputs' as they were and the
    scratch with its pieces written. -/
noncomputable def kernelRun_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : ¬cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) :
    Σ' (L5 : List (View.Piece (Elt F) S1024x1 .f32)), { LS0 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__sms_kernel i arg2 harg2 arg3 harg3 arg4 harg4 arg5 harg5 arg6 harg6 arg7 harg7 arg8 harg8) K } := by
  refine ⟨[], ?_, fun xi5 E K => ?run⟩
  case run =>
    simp only [cc1__sms_kernel_eq_skeleton]; unfold cc1__sms_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.R1

end
-- ==== Proof.FrameKI.R1RunC.lean ====
/- Region 1 of @main (`cc1__sms_kernel`): the kernel body run once in case C: from the input blocks (and the accumulator)
   to the pieces each buffer ends with. The body is a sequence of whole-block loads and stores over named payloads, with
   two conditionals on the grid point that the case's hypotheses decide; the pieces are the stores made into a buffer,
   last first. -/
import proofs.«105148_j76553497084189_1_alg».proof.Proof.FrameKI.R1Shared

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (the second conditional taken, the first not: the points with j = 7). What the body's stores leave in the
    output's staging memref and in the scratch accumulator, as pieces (last first), WITH the proof that on whole
    memrefs, the inputs' at their contents, the output's at anything (the case loads it, uses nothing of what it
    loads, and stores it whole), the scratch at the contents the point before left (`xs0`), the body runs to the
    continuation holding the inputs' as they were and the output's and the scratch with their pieces written. -/
noncomputable def kernelRun_C (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) :
    Σ' (L5 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__sms_kernel i arg2 harg2 arg3 harg3 arg4 harg4 arg5 harg5 arg6 harg6 arg7 harg7 arg8 harg8) K } := by
  refine ⟨?_, ?_, fun E K => ?run⟩
  case run =>
    simp only [cc1__sms_kernel_eq_skeleton]; unfold cc1__sms_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.R1

end
-- ==== Proof.FrameKI.R1Body.lean ====
/- Region 1 of @main (`cc1__sms_kernel`): what its body leaves point by point, at the entry contents `V`. What the
   output window and the carried scratch accumulator hold per case (the runs' pieces read back) and point by point
   (`outsAt`, by recursion on the point: the accumulator after point n is the case's pieces over what point n - 1
   left); the region invariant with the accumulator at its named contents (`PhiS`); the proof data (`dat`); the body
   obligation; and the invariant's two ends (`hin`, `hout`). -/
import proofs.«105148_j76553497084189_1_alg».proof.Proof.FrameKI.R1RunA
import proofs.«105148_j76553497084189_1_alg».proof.Proof.FrameKI.R1RunB
import proofs.«105148_j76553497084189_1_alg».proof.Proof.FrameKI.R1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A stores nothing into output 5 (the window is idle at its points and not written back there): no pieces,
    a placeholder (junk read back) that nothing consults. -/
def out_A_5 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond1_0 i) (hc1 : ¬cond1_1 i)
    (x0 : Vec F S1024x128 .f32) (x1 : Vec F S1024x128 .f32) (x2 : Vec F S1024x1 .i32) (x3 : Vec F S1x1024 .i32) (x4 : Vec F S1024x1 .f32) : Vec F S1024x1 .f32 :=
  VO_5.read (Elt F) (VO_5.writes (Elt F) VO_5.junk (kernelRun_A c i arg2 harg2 arg3 harg3 arg4 harg4 arg5 harg5 arg6 harg6 arg7 harg7 arg8 harg8 hc0 hc1 x0 x1 x2 x3 x4).1)

/-- Case A's pieces for the scratch accumulator, which the kernel carries between points, cover it. -/
theorem scover_A_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond1_0 i) (hc1 : ¬cond1_1 i)
    (x0 : Vec F S1024x128 .f32) (x1 : Vec F S1024x128 .f32) (x2 : Vec F S1024x1 .i32) (x3 : Vec F S1x1024 .i32) (x4 : Vec F S1024x1 .f32) (y : S1024x1.Idx) :
    ∃ pc ∈ (kernelRun_A c i arg2 harg2 arg3 harg3 arg4 harg4 arg5 harg5 arg6 harg6 arg7 harg7 arg8 harg8 hc0 hc1 x0 x1 x2 x3 x4).2.1, y ∈ pc.1.set :=
  View.cover_of_tiledL (kernelRun_A c i arg2 harg2 arg3 harg3 arg4 harg4 arg5 harg5 arg6 harg6 arg7 harg7 arg8 harg8 hc0 hc1 x0 x1 x2 x3 x4).2.1 S1024x1.size (by sl_kernel_rfl) y

/-- What case A leaves in the scratch accumulator: its pieces read back over junk. -/
def sout_A_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond1_0 i) (hc1 : ¬cond1_1 i)
    (x0 : Vec F S1024x128 .f32) (x1 : Vec F S1024x128 .f32) (x2 : Vec F S1024x1 .i32) (x3 : Vec F S1x1024 .i32) (x4 : Vec F S1024x1 .f32) : Vec F S1024x1 .f32 :=
  VS.read (Elt F) (VS.writes (Elt F) VS.junk (kernelRun_A c i arg2 harg2 arg3 harg3 arg4 harg4 arg5 harg5 arg6 harg6 arg7 harg7 arg8 harg8 hc0 hc1 x0 x1 x2 x3 x4).2.1)

/-- Case B stores nothing into output 5 (the window is idle at its points and not written back there): no pieces,
    a placeholder (junk read back) that nothing consults. -/
def out_B_5 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : ¬cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) : Vec F S1024x1 .f32 :=
  VO_5.read (Elt F) (VO_5.writes (Elt F) VO_5.junk (kernelRun_B c i arg2 harg2 arg3 harg3 arg4 harg4 arg5 harg5 arg6 harg6 arg7 harg7 arg8 harg8 hc0 hc1 x0 x1 x2 x3 x4 xs0).1)

/-- Case B's pieces for the scratch accumulator, which the kernel carries between points, cover it. -/
theorem scover_B_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : ¬cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) (y : S1024x1.Idx) :
    ∃ pc ∈ (kernelRun_B c i arg2 harg2 arg3 harg3 arg4 harg4 arg5 harg5 arg6 harg6 arg7 harg7 arg8 harg8 hc0 hc1 x0 x1 x2 x3 x4 xs0).2.1, y ∈ pc.1.set :=
  View.cover_of_tiledL (kernelRun_B c i arg2 harg2 arg3 harg3 arg4 harg4 arg5 harg5 arg6 harg6 arg7 harg7 arg8 harg8 hc0 hc1 x0 x1 x2 x3 x4 xs0).2.1 S1024x1.size (by sl_kernel_rfl) y

/-- What case B leaves in the scratch accumulator: its pieces read back over junk. -/
def sout_B_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : ¬cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) : Vec F S1024x1 .f32 :=
  VS.read (Elt F) (VS.writes (Elt F) VS.junk (kernelRun_B c i arg2 harg2 arg3 harg3 arg4 harg4 arg5 harg5 arg6 harg6 arg7 harg7 arg8 harg8 hc0 hc1 x0 x1 x2 x3 x4 xs0).2.1)

/-- Case C's pieces for output 5 tile its block (one store of the whole block), so they cover it. -/
theorem cover_C_5 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) (y : S1024x1.Idx) :
    ∃ pc ∈ (kernelRun_C c i arg2 harg2 arg3 harg3 arg4 harg4 arg5 harg5 arg6 harg6 arg7 harg7 arg8 harg8 hc0 hc1 x0 x1 x2 x3 x4 xs0).1, y ∈ pc.1.set :=
  View.cover_of_tiledL (kernelRun_C c i arg2 harg2 arg3 harg3 arg4 harg4 arg5 harg5 arg6 harg6 arg7 harg7 arg8 harg8 hc0 hc1 x0 x1 x2 x3 x4 xs0).1 S1024x1.size (by sl_kernel_rfl) y

/-- What case C leaves in output 5's staging buffer: its pieces read back over junk. -/
def out_C_5 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) : Vec F S1024x1 .f32 :=
  VO_5.read (Elt F) (VO_5.writes (Elt F) VO_5.junk (kernelRun_C c i arg2 harg2 arg3 harg3 arg4 harg4 arg5 harg5 arg6 harg6 arg7 harg7 arg8 harg8 hc0 hc1 x0 x1 x2 x3 x4 xs0).1)

/-- Case C's pieces for the scratch accumulator, which the kernel carries between points, cover it. -/
theorem scover_C_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) (y : S1024x1.Idx) :
    ∃ pc ∈ (kernelRun_C c i arg2 harg2 arg3 harg3 arg4 harg4 arg5 harg5 arg6 harg6 arg7 harg7 arg8 harg8 hc0 hc1 x0 x1 x2 x3 x4 xs0).2.1, y ∈ pc.1.set :=
  View.cover_of_tiledL (kernelRun_C c i arg2 harg2 arg3 harg3 arg4 harg4 arg5 harg5 arg6 harg6 arg7 harg7 arg8 harg8 hc0 hc1 x0 x1 x2 x3 x4 xs0).2.1 S1024x1.size (by sl_kernel_rfl) y

/-- What case C leaves in the scratch accumulator: its pieces read back over junk. -/
def sout_C_0 (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) : Vec F S1024x1 .f32 :=
  VS.read (Elt F) (VS.writes (Elt F) VS.junk (kernelRun_C c i arg2 harg2 arg3 harg3 arg4 harg4 arg5 harg5 arg6 harg6 arg7 harg7 arg8 harg8 hc0 hc1 x0 x1 x2 x3 x4 xs0).2.1)

section Entry
-- the TensorCore's buffer contents when the region is entered
variable (V : (c : Dev nD) → (b : Ref sig .tc) → Buf (Elt F) ((c : Thread nD τ).loc b))

/-! ## What the output and the accumulator hold after each point -/

/-- THE ACCUMULATION. What output 5's staging buffer and the scratch accumulator hold after the body at position `n`
    (a pair: the output, then the accumulator): the case the closed forms select at `n`, run at the point's memrefs
    and input blocks, the accumulator at what this leaves at `n - 1`. Both conditions at once is no case. -/
def outsAt (c : Dev nD) : (n : ℕ) → n < cfg1.N → Vec F S1024x1 .f32 × Vec F S1024x1 .f32
  | 0, hn => (out_A_5 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), sout_A_0 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 8 = 0 then
      if h1 : (n + 1) % 8 = 7 then
        False.elim (by omega)
      else
        (out_A_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), sout_A_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      if h1 : (n + 1) % 8 = 7 then
        (out_C_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, sout_C_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)
      else
        (out_B_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, sout_B_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)

/-- `outsAt` at a point of case A: that case's contents. -/
theorem outsAt_A (c : Dev nD) (t : Fin cfg1.N) (h0 : t.val % 8 = 0) (h1 : ¬t.val % 8 = 7) :
    outsAt V c t.val t.isLt = (out_A_5 c (grid1.coords t) (ms_0 t) (hs_0 t) (ms_1 t) (hs_1 t) (ms_2 t) (hs_2 t) (ms_3 t) (hs_3 t) (ms_4 t) (hs_4 t) (ms_5 t) (hs_5 t) scM (Memref.isWhole_whole _) ((hcond1_0 t).mpr h0) (fun h => h1 ((hcond1_1 t).mp h)) (iblk V c 0 t) (iblk V c 1 t) (iblk V c 2 t) (iblk V c 3 t) (iblk V c 4 t), sout_A_0 c (grid1.coords t) (ms_0 t) (hs_0 t) (ms_1 t) (hs_1 t) (ms_2 t) (hs_2 t) (ms_3 t) (hs_3 t) (ms_4 t) (hs_4 t) (ms_5 t) (hs_5 t) scM (Memref.isWhole_whole _) ((hcond1_0 t).mpr h0) (fun h => h1 ((hcond1_1 t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_neg h1).trans rfl)

/-- `outsAt` at a point of case B: that case's contents, over what the point before left. -/
theorem outsAt_B (c : Dev nD) (t : Fin cfg1.N) (h0 : ¬t.val % 8 = 0) (h1 : ¬t.val % 8 = 7) :
    outsAt V c t.val t.isLt = (out_B_5 c (grid1.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond1_0 t).mp h)) (fun h => h1 ((hcond1_1 t).mp h)) (iblk V c 0 t) (iblk V c 1 t) (iblk V c 2 t) (iblk V c 3 t) (iblk V c 4 t) (outsAt V c (t.val - 1) (Nat.lt_of_le_of_lt (Nat.sub_le _ _) t.isLt)).2, sout_B_0 c (grid1.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond1_0 t).mp h)) (fun h => h1 ((hcond1_1 t).mp h)) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a point of case C: that case's contents, over what the point before left. -/
theorem outsAt_C (c : Dev nD) (t : Fin cfg1.N) (h0 : ¬t.val % 8 = 0) (h1 : t.val % 8 = 7) :
    outsAt V c t.val t.isLt = (out_C_5 c (grid1.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond1_0 t).mp h)) ((hcond1_1 t).mpr h1) (iblk V c 0 t) (iblk V c 1 t) (iblk V c 2 t) (iblk V c 3 t) (iblk V c 4 t) (outsAt V c (t.val - 1) (Nat.lt_of_le_of_lt (Nat.sub_le _ _) t.isLt)).2, sout_C_0 c (grid1.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond1_0 t).mp h)) ((hcond1_1 t).mpr h1) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, the accumulator's contents named -/

/-- The region invariant before position `n`: before the first point the accumulator at anything (every scoped buffer that is no
    staging buffer at anything, the generator register at some state); afterwards the same with the accumulator at
    what the point before left in it (`outsAt`'s second component). -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ restBut c) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the accumulator at that point's contents. -/
theorem PhiS_succ (c : Dev nD) (n : ℕ) (hn : n < cfg1.N) :
    PhiS V c (n + 1) hn = iprop(iprop(owns (c : Thread nD τ) scM fullShare ((outsAt V c n hn).2) ∗ restBut c) ∗ (∃ r, prngReg c r)) := rfl

/-- Before a point that is not the first: the accumulator at what the point before left. -/
theorem PhiS_pos (c : Dev nD) (n : ℕ) (h : n ≤ cfg1.N) (hz : n ≠ 0) :
    PhiS V c n h = iprop(iprop(owns (c : Thread nD τ) scM fullShare ((outsAt V c (n - 1) (by omega)).2) ∗ restBut c) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt`'s first component; the invariant `PhiS`; nothing
    owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

/-- The proof data's arrays are the region-entry contents (the definition projected). -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window (the proof data's `match` reduced). -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = (outsAt V c t.val t.isLt).1 := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-! ## The body obligation, at a generic point -/

/-- What the body is called with at point `t` (the windows one by one), -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the closed forms say which case the point is in;
    the case's run applies; the invariant hands the body the accumulator at what the point before left (at anything
    at the first point) and takes it back at this point's contents (its pieces cover it); the core owes nothing
    throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [Dat.leavesExact_idle (dat V c) 5 t (idleAt_5_A t ((hcond1_0 t).mpr h0) (fun h => h1 ((hcond1_1 t).mp h))) (noFlush_5_A t ((hcond1_0 t).mpr h0) (fun h => h1 ((hcond1_1 t).mp h)))]
      rw [outsAt_A V c t h0 h1]
      unfold sout_A_0; (try dsimp only)
      by_cases hz : t.val = 0
      · rw [PhiS_castSucc V c t, PhiS_zero V c _ _ hz, PhiA_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun_A c (grid1.coords t) _ _ _ _ _ _ _ _ _ _ _ _ _ _ ((hcond1_0 t).mpr h0) (fun h => h1 ((hcond1_1 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun_A c (grid1.coords t) _ _ _ _ _ _ _ _ _ _ _ _ _ _ ((hcond1_0 t).mpr h0) (fun h => h1 ((hcond1_1 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5_C t (fun h => h0 ((hcond1_0 t).mp h)) ((hcond1_1 t).mpr h1)], after_5]
      rw [outsAt_C V c t h0 h1]
      unfold out_C_5 sout_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun_C c (grid1.coords t) _ _ _ _ _ _ _ _ _ _ _ _ _ _ (fun h => h0 ((hcond1_0 t).mp h)) ((hcond1_1 t).mpr h1) (iblk V c 0 t) (iblk V c 1 t) (iblk V c 2 t) (iblk V c 3 t) (iblk V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover_C_5 c _ _ _ _ _ _ _ _ _ _ _ _ _ _ _ _ _ _ _ _ _ _ _)
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [Dat.leavesExact_idle (dat V c) 5 t (idleAt_5_B t (fun h => h0 ((hcond1_0 t).mp h)) (fun h => h1 ((hcond1_1 t).mp h))) (noFlush_5_B t (fun h => h0 ((hcond1_0 t).mp h)) (fun h => h1 ((hcond1_1 t).mp h)))]
      rw [outsAt_B V c t h0 h1]
      unfold sout_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun_B c (grid1.coords t) _ _ _ _ _ _ _ _ _ _ _ _ _ _ (fun h => h0 ((hcond1_0 t).mp h)) (fun h => h1 ((hcond1_1 t).mp h)) (iblk V c 0 t) (iblk V c 1 t) (iblk V c 2 t) (iblk V c 3 t) (iblk V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the first point's back: the accumulator's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS0, HR⟩, Hg⟩
  isplitl [HS0 HR]
  · isplitl [HS0]
    · iexists _; iexact HS0
    iexact HR
  iexact Hg

/-- The same after the last point. -/
theorem hout (c : Dev nD) : (dat V c).Φ (Fin.last cfg1.N) ⊢ Pipeline.ΦA spec1 c :=
  Phi_out V c _ (by rw [Fin.val_last]; have : cfg1.N = 64 := N_1; omega)

end Entry

end Cert.KernelIdeal.R1

end
-- ==== Proof.FrameKI.Main.lean ====
import proofs.«105148_j76553497084189_1_alg».proof.Proof.Gen.KernelIdeal.Launch
import proofs.«105148_j76553497084189_1_alg».proof.Proof.Gen.KernelIdeal.Skeleton
import proofs.«105148_j76553497084189_1_alg».proof.Proof.Gen.KernelIdeal.Points
import proofs.«105148_j76553497084189_1_alg».proof.Proof.Gen.KernelIdeal.Regions
import proofs.«105148_j76553497084189_1_alg».proof.Proof.FrameKI.R0Body
import proofs.«105148_j76553497084189_1_alg».proof.Proof.FrameKI.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the unscoped buffers hold between the items of the program -/

/-- At launch. -/
abbrev W0 (c : Dev nD) : Valuation τ sig (Elt F) := fun b => m (c, b)
/-- After the first norm. -/
abbrev W1 (c : Dev nD) : Valuation τ sig (Elt F) := StableHlo.after hostOps0 (W0 m c)
/-- After the anchors are divided by their norms. -/
abbrev W2 (c : Dev nD) : Valuation τ sig (Elt F) := StableHlo.after hostOps0_1 (W1 m c)
/-- After the second norm. -/
abbrev W3 (c : Dev nD) : Valuation τ sig (Elt F) := StableHlo.after hostOps0_2 (W2 m c)
/-- After the positives are divided by their norms and the labels are reshaped: what the first kernel is entered with. -/
abbrev W4 (c : Dev nD) : Valuation τ sig (Elt F) := StableHlo.after hostOps0_3 (W3 m c)
abbrev V4 : (c : Dev nD) → (b : Ref sig .tc) → Buf (Elt F) ((c : Thread nD τ).loc b) := fun c b => W4 m c b
/-- After the first kernel: its windows' arrays at what its write-backs leave, every other buffer as before. -/
def W5 (c : Dev nD) : Valuation τ sig (Elt F) :=
  Pipeline.withArrays spec0 c (W4 m c) fun w => (R0.dat (V4 m) c).arrAt w cfg0.N
theorem W5_arr (c : Dev nD) (w : Fin cfg0.W) :
    W5 m c (Proc.devRef .tc (Pipeline.arrRef spec0 w)) = (R0.dat (V4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
abbrev V5 : (c : Dev nD) → (b : Ref sig .tc) → Buf (Elt F) ((c : Thread nD τ).loc b) := fun c b => W5 m c b
theorem hF0 (c : Dev nD) (w : Fin cfg0.W) : (R0.dat (V4 m) c).arrAt w cfg0.N = V5 m c (Pipeline.arrRef spec0 w) :=
  (W5_arr m c w).symm
theorem hrest0 (c : Dev nD) : ∀ b, b ∉ Finset.univ.image (Pipeline.arrRef spec0) → V5 m c b = V4 m c b :=
  fun b hb => W5_of_ne m c b fun w e => hb (Finset.mem_image.mpr ⟨w, Finset.mem_univ _, e⟩)
/-- After the second kernel. -/
def W6 (c : Dev nD) : Valuation τ sig (Elt F) :=
  Pipeline.withArrays spec1 c (W5 m c) fun w => (R1.dat (V5 m) c).arrAt w cfg1.N
theorem W6_arr (c : Dev nD) (w : Fin cfg1.W) :
    W6 m c (Proc.devRef .tc (Pipeline.arrRef spec1 w)) = (R1.dat (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (R1.dat (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the last host operations: the end. -/
abbrev W7 (c : Dev nD) : Valuation τ sig (Elt F) := StableHlo.after hostOps2 (W6 m c)

/-! ## No item writes an argument -/

theorem W7_arg (c : Dev nD) (r : Ref sig .tc) (h0 : r ∉ hostOps0_W) (h1 : r ∉ hostOps0_1_W) (h2 : r ∉ hostOps0_2_W)
    (h3 : r ∉ hostOps0_3_W) (h4 : ∀ w, Pipeline.arrRef spec0 w ≠ r) (h5 : ∀ w, Pipeline.arrRef spec1 w ≠ r) (h6 : r ∉ hostOps2_W) :
    W7 m c (Proc.devRef .tc r) = m ((c : Thread nD τ).loc r) :=
  (StableHlo.after_of_writes_sub hostOps2 _ hostOps2_writes h6).trans <|
  (W6_of_ne m c r h5).trans <| (W5_of_ne m c r h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

theorem W7_main_arg0 (c : Dev nD) : W7 m c (Proc.devRef .tc main_arg0) = m ((c : Thread nD τ).loc main_arg0) :=
  W7_arg m c main_arg0 (by decide) (by decide) (by decide) (by decide) (by decide) (by decide) (by decide)
theorem W7_main_arg1 (c : Dev nD) : W7 m c (Proc.devRef .tc main_arg1) = m ((c : Thread nD τ).loc main_arg1) :=
  W7_arg m c main_arg1 (by decide) (by decide) (by decide) (by decide) (by decide) (by decide) (by decide)
theorem W7_main_arg2 (c : Dev nD) : W7 m c (Proc.devRef .tc main_arg2) = m ((c : Thread nD τ).loc main_arg2) :=
  W7_arg m c main_arg2 (by decide) (by decide) (by decide) (by decide) (by decide) (by decide) (by decide)

/-! ## The proof data of the two kernels and what rides beside the buffers -/

abbrev adm : (p : Fin 2) → (pcfgs (F := F) p).Adm := fun p => (cfgs p).toPCfg_adm
/-- Each kernel's proof data at the contents its region is entered with. -/
def pdats : (p : Fin 2) → (c : Dev nD) → Dat τ (Elt F) Unit ℕ (UR sig nD τ) ℕ (Pipeline.pin (pcfgs (F := F)) adm p) c
  | ⟨0, _⟩ => fun c => R0.dat (V4 m) c
  | ⟨1, _⟩ => fun c => R1.dat (V5 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The two kernels as segments -/

set_option backward.isDefEq.respectTransparency.types false in
/-- Region 0 as a segment: entered with every unscoped buffer at `W4`, left with them at `W5`: its windows' arrays are
    split out of the unscoped buffers and put back at what the write-backs leave; the generator register goes into the
    kernel's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V4 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (V4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h.trans (R0.hin (V4 m) c)
  hout c := by
    rw [Pipeline.ownSems0_none]
    have h : (Pipeline.ΦA spec0 c : sProp 𝕄)
        ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (R0.hout (V4 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V4 m c) (V5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W5`, left with them at `W6`: its windows' arrays are
    split out of the unscoped buffers and put back at what the write-backs leave; the generator register goes into the
    kernel's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (R1.hin (V5 m) c)
  hout c := by
    rw [Pipeline.ownSems0_none]
    have h : (Pipeline.ΦA spec1 c : sProp 𝕄)
        ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (R1.hout (V5 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .region (reg1 m),
    .host (hseg hostOps2 hostOps2_sub hostOps2_fresh (W6 m)) ]

set_option backward.isDefEq.respectTransparency.types false in
/-- From any memory with every counter at zero, every weakly fair execution of the program on the TensorCores ends,
    nothing faulting, with every unscoped buffer at `W7`: the host operations' results composed through the two kernels'
    write-backs. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ (iprop(Tₙ m c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c)⟩) (run_all m ρ)

end Cert.KernelIdeal.Run

end
-- ==== Proof.Spec.lean ====
import Idealize.ShloMosaic.PureOps.Ideal
import Idealize.ShloMosaic.PureOps.Ideal.Laws
import Idealize.ShloMosaic.Lib.ValueIdx

/-!
The contrastive loss as one function of plain arrays of extended reals.

Rows of the two feature arrays are divided by their euclidean norms; `sim i j` is the inner
product of row `i` of the first with row `j` of the second; `ex` is its exponential after
the division by the temperature word (the word of 1.0, kept as a word); two rows are "same"
when their labels are equal words. Every sum is the plain finite sum of extended reals (no
initial zero term), every masked-out term is the extended real `0`, and every operation with
a corner (division, square root, exponential, logarithm) is the ideal instance's.
-/

noncomputable section

open scoped BigOperators

namespace Cert.Spec

open Idealize.ShloMosaic

/-- A row divided by its euclidean norm: `x[i,k] / sqrt (∑ k', x[i,k'] * x[i,k'])`. -/
def nrmRow (x : Fin 8192 → Fin 128 → EReal) (i : Fin 8192) (k : Fin 128) : EReal :=
  Ideal.div (x i k) (Ideal.sqrt (∑ k' : Fin 128, x i k' * x i k'))

section
variable (A B : Fin 8192 → Fin 128 → EReal) (l : Fin 8192 → BitVec 32)

/-- The inner product of row `i` of `A` and row `j` of `B`. -/
def sim (i j : Fin 8192) : EReal := ∑ k : Fin 128, A i k * B j k

/-- `exp (sim / 1.0)`, the temperature kept as the word of 1.0. -/
def ex (i j : Fin 8192) : EReal :=
  Ideal.exp (Ideal.div (sim A B i j) (Ideal.ofBits .f32 0x3F800000#32))

/-- The sum of `ex i j` over the columns whose label differs from row `i`'s. -/
def denom (i : Fin 8192) : EReal := ∑ j : Fin 8192, if l i = l j then 0 else ex A B i j

/-- The number of columns with row `i`'s label, as a sum of ones. -/
def cnt (i : Fin 8192) : EReal := ∑ j : Fin 8192, if l i = l j then 1 else 0

/-- The sum over the columns with row `i`'s label of `log (ex / (ex + denom i))`. -/
def sms (i : Fin 8192) : EReal :=
  ∑ j : Fin 8192,
    if l i = l j then Ideal.log (Ideal.div (ex A B i j) (ex A B i j + denom A B l i)) else 0

/-- The loss: `∑ i, (-1.0 / cnt i) * sms i`, the numerator kept as the word of -1.0. -/
def loss : EReal :=
  ∑ i : Fin 8192, Ideal.div (Ideal.ofBits .f32 0xBF800000#32) (cnt l i) * sms A B l i

end

end Cert.Spec

end
-- ==== Proof.Spec2.lean ====
import proofs.«105148_j76553497084189_1_alg».proof.Proof.Spec

/-!
The pieces of the loss with the row labels and the column labels as two separate arrays, and the
per-row log-ratio sum over an arbitrary per-row denominator: the forms the two tiled passes compute
(the first pass the masked sum of exponentials and the count, the second the log-ratio sum over the
first pass's result). With one label array and the first pass's own denominator they are the
specification's `denom`, `cnt` and `sms`.
-/

noncomputable section

open scoped BigOperators

namespace Cert.Spec

open Idealize.ShloMosaic

section
variable (A B : Fin 8192 → Fin 128 → EReal) (li lj : Fin 8192 → BitVec 32) (D : Fin 8192 → EReal)

/-- The sum of `ex i j` over the columns whose label differs from row `i`'s. -/
def denom2 (i : Fin 8192) : EReal := ∑ j : Fin 8192, if li i = lj j then 0 else ex A B i j

/-- The number of columns with row `i`'s label, as a sum of ones. -/
def cnt2 (i : Fin 8192) : EReal := ∑ j : Fin 8192, if li i = lj j then 1 else 0

/-- The sum over the columns with row `i`'s label of `log (ex / (ex + D i))`. -/
def sms2 (i : Fin 8192) : EReal :=
  ∑ j : Fin 8192, if li i = lj j then Ideal.log (Ideal.div (ex A B i j) (ex A B i j + D i)) else 0

end

theorem denom_eq (A B : Fin 8192 → Fin 128 → EReal) (l : Fin 8192 → BitVec 32) (i : Fin 8192) :
    denom A B l i = denom2 A B l l i := rfl
theorem cnt_eq (l : Fin 8192 → BitVec 32) (i : Fin 8192) : cnt l i = cnt2 l l i := rfl
theorem sms_eq (A B : Fin 8192 → Fin 128 → EReal) (l : Fin 8192 → BitVec 32) (i : Fin 8192) :
    sms A B l i = sms2 A B l l (denom2 A B l l) i := rfl

end Cert.Spec

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KIPay.lean ====
import proofs.«105148_j76553497084189_1_alg».proof.Proof.Gen.KernelIdeal.Skeleton
import proofs.«105148_j76553497084189_1_alg».proof.Proof.Spec2
import proofs.«105148_j76553497084189_1_alg».proof.Proof.LibPlainMatmul
import proofs.«105148_j76553497084189_1_alg».proof.Proof.LibKeepdims
import Idealize.ShloMosaic.Lib.ValueLayout
import Idealize.ShloMosaic.Lib.Pipeline.Value
import Idealize.ShloMosaic.Lib.ValueIdx
import Idealize.ShloMosaic.PureOps.Ideal.Laws

/-!
The values the two tiled passes store, read at one row of a block of 1024 rows against a block of
1024 columns, as extended reals: the label mask, the exponential of the inner product over the
temperature, and the three running row sums (the masked sum of exponentials, the count, and the masked
sum of logarithms of ratios), each the accumulator's entry plus a sum over the block's columns.
-/

noncomputable section

open scoped BigOperators

namespace Cert.KernelIdeal.Pay

open Idealize.ShloMosaic Idealize.ShloMosaic.ValueIdx Cert.KernelIdeal Cert.KernelIdeal.Gen

/-! ### The pieces, over any witnesses of the shape relations -/

/-- Comparing two words for equality answers the bit 1 exactly when they are the same word. -/
theorem cmpi_eq_ite (a b : BitVec 32) : IntOp.cmpi .eq a b = if a = b then 1#1 else 0#1 := by
  unfold IntOp.cmpi
  by_cases h : a = b
  · rw [if_pos h]; simp [h]
  · rw [if_neg h, show (a == b) = false from beq_false_of_ne h]; rfl

/-- The label mask at row r and column q: the row block's label column broadcast along the columns against the
    column block's label row broadcast along the rows. -/
theorem mask_apply (h1 : S1024x1.ShapeCasts S1024x1) (h2 : S1x1024.ShapeCasts S1x1024)
    (hb1 : S1024x1.Broadcasts S1024x1024) (hb2 : S1x1024.Broadcasts S1024x1024)
    (v12 : Vec Ideal S1024x1 .i32) (v14 : Vec Ideal S1x1024 .i32) (r q : Fin 1024) :
    cmpi .eq (broadcastTo S1024x1024 (shapeCast S1024x1 v12 h1) hb1)
        (broadcastTo S1024x1024 (shapeCast S1x1024 v14 h2) hb2) (ix2 r q)
      = if v12 (ix2 r (0 : Fin 1)) = v14 (ix2 (0 : Fin 1) q) then 1#1 else 0#1 := by
  rw [shapeCast_self, shapeCast_self]
  show IntOp.cmpi .eq (broadcastTo S1024x1024 v12 hb1 (ix2 r q)) (broadcastTo S1024x1024 v14 hb2 (ix2 r q)) = _
  rw [Cert.Keepdims.broadcastTo_a1_ab_apply, broadcastTo_1b_ab_apply, cmpi_eq_ite]

/-- A select on a bit known to be the indicator of p is the `if` on p. -/
theorem select_ite {α : Type} (c : BitVec 1) (p : Prop) [Decidable p] (hc : c = if p then 1#1 else 0#1) (a b : α) :
    Scalar.select c a b = if p then a else b := by
  subst hc
  by_cases h : p
  · rw [if_pos h, if_pos h]; exact select_one a b
  · rw [if_neg h, if_neg h]; exact select_zero a b

/-- A bit known to be the indicator of p, widened to 32 bits and converted signed to a float, is 1 or 0. -/
theorem sitofp_ite (c : BitVec 1) (p : Prop) [Decidable p] (hc : c = if p then 1#1 else 0#1) :
    FloatOps.sitofp (F := Ideal) .f32 (c.setWidth 32) = if p then (1 : EReal) else 0 := by
  subst hc
  show ((((if p then 1#1 else 0#1 : BitVec 1).setWidth 32).toInt : ℝ) : EReal) = _
  by_cases h : p
  · rw [if_pos h, if_pos h, show ((1#1 : BitVec 1).setWidth 32).toInt = 1 from by decide, Int.cast_one, EReal.coe_one]
  · rw [if_neg h, if_neg h, show ((0#1 : BitVec 1).setWidth 32).toInt = 0 from by decide, Int.cast_zero, EReal.coe_zero]

/-- A sum along the columns, kept as a column: at row r, the sum of the row's 1024 entries. -/
theorem lane_sum_col (h : S1024x1024.Reduces [1] S1024) (hφ : FKind.Formats .f32)
    (hacc : (0x00000000#32 : BitVec 32) = 0x00000000#32) (hc : S1024.ShapeCasts S1024x1)
    (src : FVec Ideal S1024x1024 .f32) (r : Fin 1024) :
    shapeCast S1024x1 (multiReduction .add [1] S1024 src 0x00000000#32 h hφ hacc) hc (ix2 r (0 : Fin 1))
      = ∑ q : Fin 1024, src (ix2 r q) := by
  refine (Cert.Keepdims.shapeCast_a_a1_apply _ hc r 0).trans ?_
  refine (Ideal.multiReduction_add_single src 0x00000000#32 h hφ hacc (ix1 r)).trans ?_
  show ∑ q : Fin 1024, src (h.lift (ix1 r) q) = _
  refine Finset.sum_congr rfl fun q _ => congrArg src (funext fun a => Fin.ext ?_)
  match a with
  | ⟨0, _⟩ => rfl
  | ⟨1, _⟩ => rfl

/-- An accumulator column plus a sum along the columns: at row r, the accumulator's entry plus the row's sum. -/
theorem acc_lane_sum (hcc : S1024x1.ShapeCasts S1024x1) (h : S1024x1024.Reduces [1] S1024) (hφ : FKind.Formats .f32)
    (hacc : (0x00000000#32 : BitVec 32) = 0x00000000#32) (hc : S1024.ShapeCasts S1024x1)
    (acc : FVec Ideal S1024x1 .f32) (src : FVec Ideal S1024x1024 .f32) (r : Fin 1024) :
    shapeCast S1024x1 (addf acc (shapeCast S1024x1 (multiReduction .add [1] S1024 src 0x00000000#32 h hφ hacc) hc)) hcc
        (ix2 r (0 : Fin 1))
      = acc (ix2 r 0) + ∑ q : Fin 1024, src (ix2 r q) := by
  rw [shapeCast_self]
  exact congrArg (acc (ix2 r 0) + ·) (lane_sum_col h hφ hacc hc src r)

/-! ### The product of a row block with a transposed column block -/

theorem dot_hl0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl

theorem dot_hl1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q

theorem dot_hr0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q

theorem dot_hr1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The exponential of (row block · transposed column block) over the temperature, at row r and column q: the
    exponential of the inner product of row r of the one with row q of the other, over the word of 1.0. -/
theorem ex_apply (hs1 hs2 : S1024x128.ShapeCasts S1024x128) (ht : S1024x128.Transposes [1, 0] S128x1024)
    (v3 v5 : Vec Ideal S1024x128 .f32) (r q : Fin 1024) :
    exp (F := Ideal) (divf (matmul (φ₁ := .f32) (φ₂ := .f32) dot_S1024x128_S128x1024_S1024x1024_1_0_0_1_n_n none (shapeCast S1024x128 v3 hs1)
        (transpose S128x1024 [1, 0] (shapeCast S1024x128 v5 hs2) ht) (constant S1024x1024 .f32 0x00000000#32))
        (broadcast S1024x1024 (Scalar.ofBits .f32 0x3F800000#32))) (ix2 r q)
      = Ideal.exp (Ideal.div (∑ k : Fin 128, v3 (ix2 r k) * v5 (ix2 q k)) (Ideal.ofBits .f32 0x3F800000#32)) := by
  rw [shapeCast_self, shapeCast_self]
  show Ideal.exp (Ideal.div (FloatOps.matmul (F := Ideal) (φ₁ := .f32) (φ₂ := .f32) dot_S1024x128_S128x1024_S1024x1024_1_0_0_1_n_n none v3
    (transpose S128x1024 [1, 0] v5 ht) (constant (F := Ideal) S1024x1024 .f32 0x00000000#32) (ix2 r q)) (Ideal.ofBits .f32 0x3F800000#32)) = _
  refine congrArg (fun z => Ideal.exp (Ideal.div z (Ideal.ofBits .f32 0x3F800000#32))) ?_
  refine (Cert.LibPlainMatmul.matmul_zero_at dot_S1024x128_S128x1024_S1024x1024_1_0_0_1_n_n none rfl rfl dot_hl0 dot_hl1 dot_hr0 dot_hr1 v3 _ r q).trans ?_
  refine Finset.sum_congr rfl fun k _ => ?_
  rw [transpose_ix2_apply]

/-- The logarithm of e / (e + the denominator column broadcast along the columns), at row r and column q. -/
theorem log_ratio_apply (hcc : S1024x1.ShapeCasts S1024x1) (hb : S1024x1.Broadcasts S1024x1024)
    (e : FVec Ideal S1024x1024 .f32) (d : Vec Ideal S1024x1 .f32) (r q : Fin 1024) (x : EReal)
    (he : e (ix2 r q) = x) :
    log (F := Ideal) (divf e (addf e (broadcastTo S1024x1024 (shapeCast S1024x1 d hcc) hb))) (ix2 r q)
      = Ideal.log (Ideal.div x (x + d (ix2 r (0 : Fin 1)))) := by
  rw [shapeCast_self]
  show Ideal.log (Ideal.div (e (ix2 r q)) (e (ix2 r q) + broadcastTo S1024x1024 d hb (ix2 r q))) = _
  rw [Cert.Keepdims.broadcastTo_a1_ab_apply, he]

/-! ### The stored values -/

/-- The first pass's final store of the count column: a cast to its own shape. -/
theorem pay1_apply {F : FTy → Type} [FloatOps F] (v33 : FVec F S1024x1 .f32) : k0_pay1 v33 = v33 :=
  shapeCast_self _ _

/-- The first pass's initial denominator column is zero. -/
theorem pay2_apply (i : S1024x1.Idx) : k0_pay2 (F := Ideal) i = 0 := by
  unfold k0_pay2
  rw [shapeCast_self]
  exact Ideal.ofBits_zero_f32

/-- The first pass's initial count column is zero. -/
theorem pay3_apply (i : S1024x1.Idx) : k0_pay3 (F := Ideal) i = 0 := by
  unfold k0_pay3
  rw [shapeCast_self]
  exact Ideal.ofBits_zero_f32

/-- The second pass's initial column is zero. -/
theorem k1_pay1_apply (i : S1024x1.Idx) : k1_pay1 (F := Ideal) i = 0 := by
  unfold k1_pay1
  rw [shapeCast_self]
  exact Ideal.ofBits_zero_f32

/-- The label mask of a row block against a column block. -/
theorem pay4_apply (v12 : Vec Ideal S1024x1 .i32) (v14 : Vec Ideal S1x1024 .i32) (r q : Fin 1024) :
    k0_pay4 (F := Ideal) v12 v14 (ix2 r q)
      = if v12 (ix2 r (0 : Fin 1)) = v14 (ix2 (0 : Fin 1) q) then 1#1 else 0#1 :=
  mask_apply _ _ _ _ v12 v14 r q

/-- The running masked sum of exponentials after one more column block. -/
theorem pay5_apply (v3 v5 : Vec Ideal S1024x128 .f32) (v12 : Vec Ideal S1024x1 .i32) (v14 : Vec Ideal S1x1024 .i32)
    (v19 : Vec Ideal S1024x1 .f32) (r : Fin 1024) :
    k0_pay5 (F := Ideal) v3 v5 v12 v14 v19 (ix2 r (0 : Fin 1))
      = v19 (ix2 r 0) + ∑ q : Fin 1024,
          (if v12 (ix2 r 0) = v14 (ix2 (0 : Fin 1) q) then (0 : EReal) else Ideal.exp (Ideal.div (∑ k : Fin 128, v3 (ix2 r k) * v5 (ix2 q k)) (Ideal.ofBits .f32 0x3F800000#32))) := by
  unfold k0_pay5
  refine (acc_lane_sum _ _ _ _ _ v19 _ r).trans ?_
  refine congrArg (v19 (ix2 r 0) + ·) (Finset.sum_congr rfl fun q _ => ?_)
  refine (select_ite _ _ (pay4_apply v12 v14 r q) _ _).trans ?_
  exact if_congr Iff.rfl Ideal.ofBits_zero_f32 (ex_apply _ _ _ v3 v5 r q)

/-- The running count after one more column block. -/
theorem pay6_apply (v12 : Vec Ideal S1024x1 .i32) (v14 : Vec Ideal S1x1024 .i32) (v28 : Vec Ideal S1024x1 .f32)
    (r : Fin 1024) :
    k0_pay6 (F := Ideal) v12 v14 v28 (ix2 r (0 : Fin 1))
      = v28 (ix2 r 0) + ∑ q : Fin 1024, (if v12 (ix2 r 0) = v14 (ix2 (0 : Fin 1) q) then (1 : EReal) else 0) := by
  unfold k0_pay6
  refine congrArg (v28 (ix2 r 0) + ·) ((lane_sum_col _ _ _ _ _ r).trans ?_)
  refine Finset.sum_congr rfl fun q _ => ?_
  exact sitofp_ite _ _ (pay4_apply v12 v14 r q)

/-- The running masked sum of logarithms of ratios after one more column block. -/
theorem k1_pay2_apply (v3 v5 : Vec Ideal S1024x128 .f32) (v12 : Vec Ideal S1024x1 .i32) (v14 : Vec Ideal S1x1024 .i32)
    (v19 v25 : Vec Ideal S1024x1 .f32) (r : Fin 1024) :
    k1_pay2 (F := Ideal) v3 v5 v12 v14 v19 v25 (ix2 r (0 : Fin 1))
      = v25 (ix2 r 0) + ∑ q : Fin 1024,
          (if v12 (ix2 r 0) = v14 (ix2 (0 : Fin 1) q) then
            Ideal.log (Ideal.div (Ideal.exp (Ideal.div (∑ k : Fin 128, v3 (ix2 r k) * v5 (ix2 q k)) (Ideal.ofBits .f32 0x3F800000#32))) (Ideal.exp (Ideal.div (∑ k : Fin 128, v3 (ix2 r k) * v5 (ix2 q k)) (Ideal.ofBits .f32 0x3F800000#32)) + v19 (ix2 r 0)))
          else 0) := by
  unfold k1_pay2
  refine (acc_lane_sum _ _ _ _ _ v25 _ r).trans ?_
  refine congrArg (v25 (ix2 r 0) + ·) (Finset.sum_congr rfl fun q _ => ?_)
  refine (select_ite _ _ (mask_apply _ _ _ _ v12 v14 r q) _ _).trans ?_
  exact if_congr Iff.rfl (log_ratio_apply _ _ _ v19 r q _ (ex_apply _ _ _ v3 v5 r q)) Ideal.ofBits_zero_f32

end Cert.KernelIdeal.Pay

end
-- ==== Proof.LibBlockFold.lean ====
/-
  A reduction over all the columns of a row, taken one block of columns at a time.

  For a family f : Fin N → α and a block width m, block n holds the entries f (m·n + q), q < m. A running
  accumulator starts at the unit b and, at step n, is combined with the reduction of block n alone. After enough
  steps to cover all N columns (N ≤ m·n) the accumulator is the reduction of the whole row: this is shown for the
  maximum and the minimum in a linear order (where max b b = b and min b b = b hold for every b, so any starting
  value b serves as the unit of both the accumulator and each block's own reduction) and for the sum in a
  commutative monoid. The four-step forms at N = 4096, m = 1024 are written out at the end.
-/
import Mathlib.Data.Finset.Fold
import Mathlib.Algebra.BigOperators.Fin
import Mathlib.Algebra.BigOperators.Intervals
import Mathlib.Tactic

namespace Cert.LibBlockFold

open Finset

variable {α : Type*} {N m : ℕ}

/-- Entry q of block n of width m: the entry f (m·n + q) where that index is a column, else the default b. -/
def blk (b : α) (f : Fin N → α) (n : ℕ) (q : Fin m) : α :=
  if h : m * n + q.val < N then f ⟨m * n + q.val, h⟩ else b

/-- Inside the row, entry q of block n is f (m·n + q). -/
theorem blk_of_lt (b : α) (f : Fin N → α) (n : ℕ) (q : Fin m) (h : m * n + q.val < N) :
    blk b f n q = f ⟨m * n + q.val, h⟩ := dif_pos h

/-! ### Maximum -/

section Max
variable [LinearOrder α]

/-- The running maximum: b before any block; after block n, the larger of the previous value and block n's own
    maximum (itself started from b). -/
def accMax (m : ℕ) (b : α) (f : Fin N → α) : ℕ → α
  | 0 => b
  | n + 1 => max (accMax m b f n) ((univ : Finset (Fin m)).fold max b (blk b f n))

/-- The running maximum after n blocks lies below c exactly when b and every entry of the first m·n columns do. -/
theorem accMax_le_iff (m : ℕ) (b : α) (f : Fin N → α) (n : ℕ) (c : α) :
    accMax m b f n ≤ c ↔ b ≤ c ∧ ∀ j : Fin N, j.val < m * n → f j ≤ c := by
  induction n with
  | zero => simp [accMax]
  | succ n ih =>
    rw [accMax, max_le_iff, ih, fold_max_le]
    constructor
    · rintro ⟨⟨hb, h1⟩, -, h2⟩
      refine ⟨hb, fun j hj => ?_⟩
      by_cases hlt : j.val < m * n
      · exact h1 j hlt
      · rw [Nat.mul_add_one] at hj
        have hq : j.val - m * n < m := by omega
        have hidx : m * n + (j.val - m * n) = j.val := by omega
        have h3 := h2 ⟨j.val - m * n, hq⟩ (mem_univ _)
        rw [blk_of_lt b f n _ (by simpa [hidx] using j.isLt)] at h3
        have hj' : (⟨m * n + (j.val - m * n), by simpa [hidx] using j.isLt⟩ : Fin N) = j := Fin.ext hidx
        simpa [hj'] using h3
    · rintro ⟨hb, h⟩
      refine ⟨⟨hb, fun j hj => h j (by rw [Nat.mul_add_one]; omega)⟩, hb, fun q _ => ?_⟩
      unfold blk
      split
      · exact h _ (by rw [Nat.mul_add_one]; simp)
      · exact hb

/-- Once the blocks cover the row, the running maximum is the maximum over the whole row. -/
theorem accMax_eq_fold (m : ℕ) (b : α) (f : Fin N → α) (n : ℕ) (h : N ≤ m * n) :
    accMax m b f n = (univ : Finset (Fin N)).fold max b f := by
  refine eq_of_forall_ge_iff fun c => ?_
  rw [accMax_le_iff, fold_max_le]
  constructor
  · rintro ⟨hb, h1⟩; exact ⟨hb, fun j _ => h1 j (lt_of_lt_of_le j.isLt h)⟩
  · rintro ⟨hb, h1⟩; exact ⟨hb, fun j _ => h1 j (mem_univ _)⟩

end Max

/-! ### Minimum -/

section Min
variable [LinearOrder α]

/-- The running minimum: b before any block; after block n, the smaller of the previous value and block n's own
    minimum (itself started from b). -/
def accMin (m : ℕ) (b : α) (f : Fin N → α) : ℕ → α
  | 0 => b
  | n + 1 => min (accMin m b f n) ((univ : Finset (Fin m)).fold min b (blk b f n))

/-- The running minimum after n blocks lies above c exactly when b and every entry of the first m·n columns do. -/
theorem le_accMin_iff (m : ℕ) (b : α) (f : Fin N → α) (n : ℕ) (c : α) :
    c ≤ accMin m b f n ↔ c ≤ b ∧ ∀ j : Fin N, j.val < m * n → c ≤ f j := by
  induction n with
  | zero => simp [accMin]
  | succ n ih =>
    rw [accMin, le_min_iff, ih, le_fold_min]
    constructor
    · rintro ⟨⟨hb, h1⟩, -, h2⟩
      refine ⟨hb, fun j hj => ?_⟩
      by_cases hlt : j.val < m * n
      · exact h1 j hlt
      · rw [Nat.mul_add_one] at hj
        have hq : j.val - m * n < m := by omega
        have hidx : m * n + (j.val - m * n) = j.val := by omega
        have h3 := h2 ⟨j.val - m * n, hq⟩ (mem_univ _)
        rw [blk_of_lt b f n _ (by simpa [hidx] using j.isLt)] at h3
        have hj' : (⟨m * n + (j.val - m * n), by simpa [hidx] using j.isLt⟩ : Fin N) = j := Fin.ext hidx
        simpa [hj'] using h3
    · rintro ⟨hb, h⟩
      refine ⟨⟨hb, fun j hj => h j (by rw [Nat.mul_add_one]; omega)⟩, hb, fun q _ => ?_⟩
      unfold blk
      split
      · exact h _ (by rw [Nat.mul_add_one]; simp)
      · exact hb

/-- Once the blocks cover the row, the running minimum is the minimum over the whole row. -/
theorem accMin_eq_fold (m : ℕ) (b : α) (f : Fin N → α) (n : ℕ) (h : N ≤ m * n) :
    accMin m b f n = (univ : Finset (Fin N)).fold min b f := by
  refine eq_of_forall_le_iff fun c => ?_
  rw [le_accMin_iff, le_fold_min]
  constructor
  · rintro ⟨hb, h1⟩; exact ⟨hb, fun j _ => h1 j (lt_of_lt_of_le j.isLt h)⟩
  · rintro ⟨hb, h1⟩; exact ⟨hb, fun j _ => h1 j (mem_univ _)⟩

end Min

/-! ### Sum -/

section Sum
variable [AddCommMonoid α]

/-- The row continued by zeros past its last column, as a function of a natural-number index. -/
def ext0 (f : Fin N → α) (i : ℕ) : α := if h : i < N then f ⟨i, h⟩ else 0

/-- The running sum: 0 before any block; after block n, the previous value plus block n's own sum. -/
def accSum (m : ℕ) (f : Fin N → α) : ℕ → α
  | 0 => 0
  | n + 1 => accSum m f n + ∑ q : Fin m, blk 0 f n q

/-- The running sum after n blocks is the sum of the first m·n entries of the zero-continued row. -/
theorem accSum_eq_sum_range (m : ℕ) (f : Fin N → α) (n : ℕ) :
    accSum m f n = ∑ i ∈ range (m * n), ext0 f i := by
  induction n with
  | zero => simp [accSum]
  | succ n ih =>
    rw [accSum, ih, Nat.mul_add_one, sum_range_add]
    congr 1
    exact Fin.sum_univ_eq_sum_range (fun i => ext0 f (m * n + i)) m

/-- The sum of the whole row is the sum of the first N entries of its zero-continued form. -/
theorem sum_univ_eq_sum_range_ext0 (f : Fin N → α) : ∑ j : Fin N, f j = ∑ i ∈ range N, ext0 f i := by
  rw [← Fin.sum_univ_eq_sum_range (ext0 f) N]
  exact Finset.sum_congr rfl fun j _ => by simp [ext0]

/-- Once the blocks cover the row, the running sum is the sum over the whole row. -/
theorem accSum_eq_sum (m : ℕ) (f : Fin N → α) (n : ℕ) (h : N ≤ m * n) :
    accSum m f n = ∑ j : Fin N, f j := by
  rw [accSum_eq_sum_range, sum_univ_eq_sum_range_ext0]
  refine (Finset.sum_subset (range_mono h) fun i _ hi => ?_).symm
  have : ¬ i < N := by simpa using hi
  simp [ext0, this]

end Sum

/-! ### The four-step forms: 4096 columns in four blocks of 1024 -/

section Four

/-- Four blocks of 1024 columns: the running maximum written out. Block k is given as any function gk that agrees
    entrywise with columns 1024·k … 1024·k + 1023 of f; the accumulator may start from any value a, and the block
    maxima and the whole-row maximum start from b. -/
theorem max_four_blocks [LinearOrder α] (a b : α) (f : Fin 4096 → α) (g0 g1 g2 g3 : Fin 1024 → α)
    (h0 : ∀ q : Fin 1024, g0 q = f ⟨q.val, by omega⟩)
    (h1 : ∀ q : Fin 1024, g1 q = f ⟨1024 + q.val, by omega⟩)
    (h2 : ∀ q : Fin 1024, g2 q = f ⟨2048 + q.val, by omega⟩)
    (h3 : ∀ q : Fin 1024, g3 q = f ⟨3072 + q.val, by omega⟩) :
    max (max (max (max a ((univ : Finset (Fin 1024)).fold max b g0)) ((univ : Finset (Fin 1024)).fold max b g1))
      ((univ : Finset (Fin 1024)).fold max b g2)) ((univ : Finset (Fin 1024)).fold max b g3)
      = max a ((univ : Finset (Fin 4096)).fold max b f) := by
  have e0 : g0 = blk b f 0 := funext fun q => by
    rw [h0, blk_of_lt b f 0 q (by omega)]; exact congrArg f (Fin.ext (by simp))
  have e1 : g1 = blk b f 1 := funext fun q => by
    rw [h1, blk_of_lt b f 1 q (by omega)]
  have e2 : g2 = blk b f 2 := funext fun q => by
    rw [h2, blk_of_lt b f 2 q (by omega)]
  have e3 : g3 = blk b f 3 := funext fun q => by
    rw [h3, blk_of_lt b f 3 q (by omega)]
  rw [← accMax_eq_fold 1024 b f 4 (by norm_num), e0, e1, e2, e3]
  refine eq_of_forall_ge_iff fun c => ?_
  simp only [accMax, max_le_iff, fold_max_le]
  tauto

/-- The same with the accumulator started from b itself: the running maximum after four blocks is the maximum of
    the whole row. -/
theorem max_four_blocks_self [LinearOrder α] (b : α) (f : Fin 4096 → α) (g0 g1 g2 g3 : Fin 1024 → α)
    (h0 : ∀ q : Fin 1024, g0 q = f ⟨q.val, by omega⟩)
    (h1 : ∀ q : Fin 1024, g1 q = f ⟨1024 + q.val, by omega⟩)
    (h2 : ∀ q : Fin 1024, g2 q = f ⟨2048 + q.val, by omega⟩)
    (h3 : ∀ q : Fin 1024, g3 q = f ⟨3072 + q.val, by omega⟩) :
    max (max (max (max b ((univ : Finset (Fin 1024)).fold max b g0)) ((univ : Finset (Fin 1024)).fold max b g1))
      ((univ : Finset (Fin 1024)).fold max b g2)) ((univ : Finset (Fin 1024)).fold max b g3)
      = (univ : Finset (Fin 4096)).fold max b f := by
  rw [max_four_blocks b b f g0 g1 g2 g3 h0 h1 h2 h3]
  exact max_eq_right ((le_fold_max b).2 (Or.inl le_rfl))

/-- Four blocks of 1024 columns: the running minimum written out (accumulator from any a, block minima and the
    whole-row minimum from b). -/
theorem min_four_blocks [LinearOrder α] (a b : α) (f : Fin 4096 → α) (g0 g1 g2 g3 : Fin 1024 → α)
    (h0 : ∀ q : Fin 1024, g0 q = f ⟨q.val, by omega⟩)
    (h1 : ∀ q : Fin 1024, g1 q = f ⟨1024 + q.val, by omega⟩)
    (h2 : ∀ q : Fin 1024, g2 q = f ⟨2048 + q.val, by omega⟩)
    (h3 : ∀ q : Fin 1024, g3 q = f ⟨3072 + q.val, by omega⟩) :
    min (min (min (min a ((univ : Finset (Fin 1024)).fold min b g0)) ((univ : Finset (Fin 1024)).fold min b g1))
      ((univ : Finset (Fin 1024)).fold min b g2)) ((univ : Finset (Fin 1024)).fold min b g3)
      = min a ((univ : Finset (Fin 4096)).fold min b f) := by
  have e0 : g0 = blk b f 0 := funext fun q => by
    rw [h0, blk_of_lt b f 0 q (by omega)]; exact congrArg f (Fin.ext (by simp))
  have e1 : g1 = blk b f 1 := funext fun q => by
    rw [h1, blk_of_lt b f 1 q (by omega)]
  have e2 : g2 = blk b f 2 := funext fun q => by
    rw [h2, blk_of_lt b f 2 q (by omega)]
  have e3 : g3 = blk b f 3 := funext fun q => by
    rw [h3, blk_of_lt b f 3 q (by omega)]
  rw [← accMin_eq_fold 1024 b f 4 (by norm_num), e0, e1, e2, e3]
  refine eq_of_forall_le_iff fun c => ?_
  simp only [accMin, le_min_iff, le_fold_min]
  tauto

/-- The same with the accumulator started from b itself. -/
theorem min_four_blocks_self [LinearOrder α] (b : α) (f : Fin 4096 → α) (g0 g1 g2 g3 : Fin 1024 → α)
    (h0 : ∀ q : Fin 1024, g0 q = f ⟨q.val, by omega⟩)
    (h1 : ∀ q : Fin 1024, g1 q = f ⟨1024 + q.val, by omega⟩)
    (h2 : ∀ q : Fin 1024, g2 q = f ⟨2048 + q.val, by omega⟩)
    (h3 : ∀ q : Fin 1024, g3 q = f ⟨3072 + q.val, by omega⟩) :
    min (min (min (min b ((univ : Finset (Fin 1024)).fold min b g0)) ((univ : Finset (Fin 1024)).fold min b g1))
      ((univ : Finset (Fin 1024)).fold min b g2)) ((univ : Finset (Fin 1024)).fold min b g3)
      = (univ : Finset (Fin 4096)).fold min b f := by
  rw [min_four_blocks b b f g0 g1 g2 g3 h0 h1 h2 h3]
  exact min_eq_right ((fold_min_le b).2 (Or.inl le_rfl))

/-- Four blocks of 1024 columns: the running sum written out, started from any value a. -/
theorem sum_four_blocks [AddCommMonoid α] (a : α) (f : Fin 4096 → α) (g0 g1 g2 g3 : Fin 1024 → α)
    (h0 : ∀ q : Fin 1024, g0 q = f ⟨q.val, by omega⟩)
    (h1 : ∀ q : Fin 1024, g1 q = f ⟨1024 + q.val, by omega⟩)
    (h2 : ∀ q : Fin 1024, g2 q = f ⟨2048 + q.val, by omega⟩)
    (h3 : ∀ q : Fin 1024, g3 q = f ⟨3072 + q.val, by omega⟩) :
    a + ∑ q, g0 q + ∑ q, g1 q + ∑ q, g2 q + ∑ q, g3 q = a + ∑ j : Fin 4096, f j := by
  have e0 : g0 = blk 0 f 0 := funext fun q => by
    rw [h0, blk_of_lt 0 f 0 q (by omega)]; exact congrArg f (Fin.ext (by simp))
  have e1 : g1 = blk 0 f 1 := funext fun q => by
    rw [h1, blk_of_lt 0 f 1 q (by omega)]
  have e2 : g2 = blk 0 f 2 := funext fun q => by
    rw [h2, blk_of_lt 0 f 2 q (by omega)]
  have e3 : g3 = blk 0 f 3 := funext fun q => by
    rw [h3, blk_of_lt 0 f 3 q (by omega)]
  rw [← accSum_eq_sum 1024 f 4 (by norm_num), e0, e1, e2, e3]
  simp only [accSum, zero_add, add_assoc]

end Four

end Cert.LibBlockFold
-- ==== Proof.FrameKI.R0Value.lean ====
/- Region 0 (`cc0__denom_kernel`), the VALUES at the ideal instance. What each case of the body leaves in the two
   accumulators and the two output blocks is the stored payload of the blocks loaded; a point's input blocks are the
   rows `1024·(t/8) …` and the columns `1024·(t%8) …` of the region's arrays; so after point `t` each accumulator row holds
   the running sum over the column blocks `0 … t % 8` of its row block (induction on the point), at column 7 all eight
   blocks, which is the sum over all 8192 columns; the output blocks written back at column 7 are copies of the
   accumulators, and those blocks tile the two result arrays. -/
import proofs.«105148_j76553497084189_1_alg».proof.Proof.FrameKI.R0Body
import proofs.«105148_j76553497084189_1_alg».proof.Proof.Spec2
import proofs.«105148_j76553497084189_1_alg».proof.Proof.KIPay
import proofs.«105148_j76553497084189_1_alg».proof.Proof.LibBlockFold
import Idealize.ShloMosaic.Lib.Pipeline.Value
import Idealize.ShloMosaic.Lib.ValueIdx
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## What each case leaves, as the stored payloads -/

/-- At column 0 the first accumulator ends at one block's masked sum added to the zero column. -/
theorem sout_A_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S1024x128 .f32) (x2 : Vec F S1024x1 .i32) (x3 : Vec F S1x1024 .i32) :
    sout_A_0 c i arg2 harg2 arg3 harg3 arg4 harg4 arg5 harg5 arg6 harg6 arg7 harg7 arg8 harg8 arg9 harg9 hc0 hc1 x0 x1 x2 x3 = k0_pay5 x0 x1 x2 x3 k0_pay2 := by
  unfold sout_A_0
  rw [View.read_writes_eq_canon _ _ _ (scover_A_0 c i arg2 harg2 arg3 harg3 arg4 harg4 arg5 harg5 arg6 harg6 arg7 harg7 arg8 harg8 arg9 harg9 hc0 hc1 x0 x1 x2 x3)]
  unfold kernelRun_A
  dsimp only
  sl_unfold_words
  first
    | rw [View.canon_unit_zero (S := S1024x1) hz]
    | rw [View.canon_cons_unit_zero (S := S1024x1) hz]
  simp only [View.readCov_cons_toLoadRect, View.readAt_eq_ld, harg2.read_unread, harg3.read_unread, harg4.read_unread, harg5.read_unread, harg8.read_unread, harg9.read_unread, View.ld_unit_zero (S := S1024x128) hz, View.ld_unit_zero (S := S1024x1) hz, View.ld_unit_zero (S := S1x1024) hz]

/-- At column 0 the second accumulator ends at one block's count added to the zero column. -/
theorem sout_A_1_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S1024x128 .f32) (x2 : Vec F S1024x1 .i32) (x3 : Vec F S1x1024 .i32) :
    sout_A_1 c i arg2 harg2 arg3 harg3 arg4 harg4 arg5 harg5 arg6 harg6 arg7 harg7 arg8 harg8 arg9 harg9 hc0 hc1 x0 x1 x2 x3 = k0_pay1 (k0_pay6 x2 x3 k0_pay3) := by
  unfold sout_A_1
  rw [View.read_writes_eq_canon _ _ _ (scover_A_1 c i arg2 harg2 arg3 harg3 arg4 harg4 arg5 harg5 arg6 harg6 arg7 harg7 arg8 harg8 arg9 harg9 hc0 hc1 x0 x1 x2 x3)]
  unfold kernelRun_A
  dsimp only
  sl_unfold_words
  first
    | rw [View.canon_unit_zero (S := S1024x1) hz]
    | rw [View.canon_cons_unit_zero (S := S1024x1) hz]
  simp only [View.readCov_cons_toLoadRect, View.readAt_eq_ld, harg2.read_unread, harg3.read_unread, harg4.read_unread, harg5.read_unread, harg8.read_unread, harg9.read_unread, View.ld_unit_zero (S := S1024x128) hz, View.ld_unit_zero (S := S1024x1) hz, View.ld_unit_zero (S := S1x1024) hz]

/-- At columns 1…6 the first accumulator ends at the block's masked sum added to what it held. -/
theorem sout_B_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) :
    sout_B_0 c i arg2 harg2 arg3 harg3 arg4 harg4 arg5 harg5 arg6 harg6 arg7 harg7 arg8 harg8 arg9 harg9 hc0 hc1 x0 x1 x2 x3 xs0 xs1 = k0_pay5 x0 x1 x2 x3 xs0 := by
  unfold sout_B_0
  rw [View.read_writes_eq_canon _ _ _ (scover_B_0 c i arg2 harg2 arg3 harg3 arg4 harg4 arg5 harg5 arg6 harg6 arg7 harg7 arg8 harg8 arg9 harg9 hc0 hc1 x0 x1 x2 x3 xs0 xs1)]
  unfold kernelRun_B
  dsimp only
  sl_unfold_words
  first
    | rw [View.canon_unit_zero (S := S1024x1) hz]
    | rw [View.canon_cons_unit_zero (S := S1024x1) hz]
  simp only [View.readCov_cons_toLoadRect, View.readAt_eq_ld, harg2.read_unread, harg3.read_unread, harg4.read_unread, harg5.read_unread, harg8.read_unread, harg9.read_unread, View.ld_unit_zero (S := S1024x128) hz, View.ld_unit_zero (S := S1024x1) hz, View.ld_unit_zero (S := S1x1024) hz]

/-- At columns 1…6 the second accumulator ends at the block's count added to what it held. -/
theorem sout_B_1_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) :
    sout_B_1 c i arg2 harg2 arg3 harg3 arg4 harg4 arg5 harg5 arg6 harg6 arg7 harg7 arg8 harg8 arg9 harg9 hc0 hc1 x0 x1 x2 x3 xs0 xs1 = k0_pay1 (k0_pay6 x2 x3 xs1) := by
  unfold sout_B_1
  rw [View.read_writes_eq_canon _ _ _ (scover_B_1 c i arg2 harg2 arg3 harg3 arg4 harg4 arg5 harg5 arg6 harg6 arg7 harg7 arg8 harg8 arg9 harg9 hc0 hc1 x0 x1 x2 x3 xs0 xs1)]
  unfold kernelRun_B
  dsimp only
  sl_unfold_words
  first
    | rw [View.canon_unit_zero (S := S1024x1) hz]
    | rw [View.canon_cons_unit_zero (S := S1024x1) hz]
  simp only [View.readCov_cons_toLoadRect, View.readAt_eq_ld, harg2.read_unread, harg3.read_unread, harg4.read_unread, harg5.read_unread, harg8.read_unread, harg9.read_unread, View.ld_unit_zero (S := S1024x128) hz, View.ld_unit_zero (S := S1024x1) hz, View.ld_unit_zero (S := S1x1024) hz]

/-- At column 7 the first accumulator ends at the block's masked sum added to what it held, -/
theorem sout_C_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) :
    sout_C_0 c i arg2 harg2 arg3 harg3 arg4 harg4 arg5 harg5 arg6 harg6 arg7 harg7 arg8 harg8 arg9 harg9 hc0 hc1 x0 x1 x2 x3 xs0 xs1 = k0_pay5 x0 x1 x2 x3 xs0 := by
  unfold sout_C_0
  rw [View.read_writes_eq_canon _ _ _ (scover_C_0 c i arg2 harg2 arg3 harg3 arg4 harg4 arg5 harg5 arg6 harg6 arg7 harg7 arg8 harg8 arg9 harg9 hc0 hc1 x0 x1 x2 x3 xs0 xs1)]
  unfold kernelRun_C
  dsimp only
  sl_unfold_words
  first
    | rw [View.canon_unit_zero (S := S1024x1) hz]
    | rw [View.canon_cons_unit_zero (S := S1024x1) hz]
  simp only [View.readCov_cons_toLoadRect, View.readAt_eq_ld, harg2.read_unread, harg3.read_unread, harg4.read_unread, harg5.read_unread, harg8.read_unread, harg9.read_unread, View.ld_unit_zero (S := S1024x128) hz, View.ld_unit_zero (S := S1024x1) hz, View.ld_unit_zero (S := S1x1024) hz]

/-- the second at the block's count added to what it held, -/
theorem sout_C_1_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) :
    sout_C_1 c i arg2 harg2 arg3 harg3 arg4 harg4 arg5 harg5 arg6 harg6 arg7 harg7 arg8 harg8 arg9 harg9 hc0 hc1 x0 x1 x2 x3 xs0 xs1 = k0_pay1 (k0_pay6 x2 x3 xs1) := by
  unfold sout_C_1
  rw [View.read_writes_eq_canon _ _ _ (scover_C_1 c i arg2 harg2 arg3 harg3 arg4 harg4 arg5 harg5 arg6 harg6 arg7 harg7 arg8 harg8 arg9 harg9 hc0 hc1 x0 x1 x2 x3 xs0 xs1)]
  unfold kernelRun_C
  dsimp only
  sl_unfold_words
  first
    | rw [View.canon_unit_zero (S := S1024x1) hz]
    | rw [View.canon_cons_unit_zero (S := S1024x1) hz]
  simp only [View.readCov_cons_toLoadRect, View.readAt_eq_ld, harg2.read_unread, harg3.read_unread, harg4.read_unread, harg5.read_unread, harg8.read_unread, harg9.read_unread, View.ld_unit_zero (S := S1024x128) hz, View.ld_unit_zero (S := S1024x1) hz, View.ld_unit_zero (S := S1x1024) hz]

/-- and the two output blocks are copies of the two accumulators: the first output, -/
theorem out_C_4_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) :
    out_C_4 c i arg2 harg2 arg3 harg3 arg4 harg4 arg5 harg5 arg6 harg6 arg7 harg7 arg8 harg8 arg9 harg9 hc0 hc1 x0 x1 x2 x3 xs0 xs1 = k0_pay5 x0 x1 x2 x3 xs0 := by
  unfold out_C_4
  rw [View.read_writes_eq_canon _ _ _ (cover_C_4 c i arg2 harg2 arg3 harg3 arg4 harg4 arg5 harg5 arg6 harg6 arg7 harg7 arg8 harg8 arg9 harg9 hc0 hc1 x0 x1 x2 x3 xs0 xs1)]
  unfold kernelRun_C
  dsimp only
  sl_unfold_words
  first
    | rw [View.canon_unit_zero (S := S1024x1) hz]
    | rw [View.canon_cons_unit_zero (S := S1024x1) hz]
  simp only [View.readCov_cons_toLoadRect, View.readAt_eq_ld, harg2.read_unread, harg3.read_unread, harg4.read_unread, harg5.read_unread, harg8.read_unread, harg9.read_unread, View.ld_unit_zero (S := S1024x128) hz, View.ld_unit_zero (S := S1024x1) hz, View.ld_unit_zero (S := S1x1024) hz]

/-- the second output. -/
theorem out_C_5_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32) (xs0 : Vec F S1024x1 .f32) (xs1 : Vec F S1024x1 .f32) :
    out_C_5 c i arg2 harg2 arg3 harg3 arg4 harg4 arg5 harg5 arg6 harg6 arg7 harg7 arg8 harg8 arg9 harg9 hc0 hc1 x0 x1 x2 x3 xs0 xs1 = k0_pay1 (k0_pay6 x2 x3 xs1) := by
  unfold out_C_5
  rw [View.read_writes_eq_canon _ _ _ (cover_C_5 c i arg2 harg2 arg3 harg3 arg4 harg4 arg5 harg5 arg6 harg6 arg7 harg7 arg8 harg8 arg9 harg9 hc0 hc1 x0 x1 x2 x3 xs0 xs1)]
  unfold kernelRun_C
  dsimp only
  sl_unfold_words
  first
    | rw [View.canon_unit_zero (S := S1024x1) hz]
    | rw [View.canon_cons_unit_zero (S := S1024x1) hz]
  simp only [View.readCov_cons_toLoadRect, View.readAt_eq_ld, harg2.read_unread, harg3.read_unread, harg4.read_unread, harg5.read_unread, harg8.read_unread, harg9.read_unread, View.ld_unit_zero (S := S1024x128) hz, View.ld_unit_zero (S := S1024x1) hz, View.ld_unit_zero (S := S1x1024) hz]

/-! ## The blocks, read at coordinates -/

open Idealize.ShloMosaic.ValueIdx
open scoped BigOperators

/-- Row `r` of row block `ib`, as a row of the whole array (for `ib < 8` the row `1024·ib + r`). -/
def rowIx (ib : ℕ) (r : Fin 1024) : Fin 8192 := ⟨(1024 * ib + r.val) % 8192, Nat.mod_lt _ (by decide)⟩
/-- Column `q` of column block `jb`, as a column of the whole row (for `jb < 8` the column `1024·jb + q`). -/
def colIx (jb : ℕ) (q : Fin 1024) : Fin 8192 := ⟨(1024 * jb + q.val) % 8192, Nat.mod_lt _ (by decide)⟩

/-- The windows' block indices at point `t`: the row block is `t / 8`, the column block `t % 8`. -/
theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx3 : ∀ t : Fin cfg0.N, win0_3.index t 0 = 0 ∧ win0_3.index t 1 = t.val % 8 :=
  (by decide +kernel : ∀ t : Fin grid0.N, win0_3.index t 0 = 0 ∧ win0_3.index t 1 = t.val % 8)
theorem idx4 : ∀ t : Fin cfg0.N, win0_4.index t 0 = t.val / 8 ∧ win0_4.index t 1 = 0 :=
  (by decide +kernel : ∀ t : Fin grid0.N, win0_4.index t 0 = t.val / 8 ∧ win0_4.index t 1 = 0)
theorem idx5 : ∀ t : Fin cfg0.N, win0_5.index t 0 = t.val / 8 ∧ win0_5.index t 1 = 0 :=
  (by decide +kernel : ∀ t : Fin grid0.N, win0_5.index t 0 = t.val / 8 ∧ win0_5.index t 1 = 0)

section Value
variable (V : (c : Dev nD) → (b : Ref sig .tc) → Buf (Elt Ideal) ((c : Thread nD τ).loc b))

/-- The region's input arrays as plain functions of a row and a column: the two feature arrays, -/
abbrev arrA (c : Dev nD) : Fin 8192 → Fin 128 → EReal := fun i k => (V c main_v2 : S8192x128.Idx → EReal) (ix2 i k)
abbrev arrB (c : Dev nD) : Fin 8192 → Fin 128 → EReal := fun j k => (V c main_v5 : S8192x128.Idx → EReal) (ix2 j k)
/-- the labels as a column and as a row. -/
abbrev labI (c : Dev nD) : Fin 8192 → BitVec 32 := fun i => (V c main_v6 : S8192x1.Idx → BitVec 32) (ix2 i (0 : Fin 1))
abbrev labJ (c : Dev nD) : Fin 8192 → BitVec 32 := fun j => (V c main_v7 : S1x8192.Idx → BitVec 32) (ix2 (0 : Fin 1) j)

/-- Window 0's block at point `t` holds rows `1024·(t/8) …` of the first feature array. -/
theorem iblk0_apply (c : Dev nD) (t : Fin cfg0.N) (r : Fin 1024) (k : Fin 128) :
    (iblk V c 0 t : Vec Ideal S1024x128 .f32) (ix2 r k) = arrA V c (rowIx (t.val / 8) r) k := by
  have hN : t.val < 64 := lt_of_lt_of_eq t.isLt (show cfg0.N = 64 from N_0)
  unfold iblk
  rw [View.read_apply]
  show (V c main_v2 : S8192x128.Idx → EReal) _ = (V c main_v2 : S8192x128.Idx → EReal) _
  refine congrArg (V c main_v2 : S8192x128.Idx → EReal) (funext fun a => Fin.ext ?_)
  match a with
  | ⟨0, _⟩ => show win0_0.index t 0 * 1024 + 1 * r.val = (1024 * (t.val / 8) + r.val) % 8192; rw [(idx0 t).1]; omega
  | ⟨1, _⟩ => show win0_0.index t 1 * 128 + 1 * k.val = k.val; rw [(idx0 t).2]; omega

/-- Window 1's block at point `t` holds rows `1024·(t%8) …` of the second feature array. -/
theorem iblk1_apply (c : Dev nD) (t : Fin cfg0.N) (q : Fin 1024) (k : Fin 128) :
    (iblk V c 1 t : Vec Ideal S1024x128 .f32) (ix2 q k) = arrB V c (colIx (t.val % 8) q) k := by
  unfold iblk
  rw [View.read_apply]
  show (V c main_v5 : S8192x128.Idx → EReal) _ = (V c main_v5 : S8192x128.Idx → EReal) _
  refine congrArg (V c main_v5 : S8192x128.Idx → EReal) (funext fun a => Fin.ext ?_)
  match a with
  | ⟨0, _⟩ => show win0_1.index t 0 * 1024 + 1 * q.val = (1024 * (t.val % 8) + q.val) % 8192; rw [(idx1 t).1]; omega
  | ⟨1, _⟩ => show win0_1.index t 1 * 128 + 1 * k.val = k.val; rw [(idx1 t).2]; omega

/-- Window 2's block at point `t` holds rows `1024·(t/8) …` of the label column. -/
theorem iblk2_apply (c : Dev nD) (t : Fin cfg0.N) (r : Fin 1024) :
    (iblk V c 2 t : Vec Ideal S1024x1 .i32) (ix2 r (0 : Fin 1)) = labI V c (rowIx (t.val / 8) r) := by
  have hN : t.val < 64 := lt_of_lt_of_eq t.isLt (show cfg0.N = 64 from N_0)
  unfold iblk
  rw [View.read_apply]
  show (V c main_v6 : S8192x1.Idx → BitVec 32) _ = (V c main_v6 : S8192x1.Idx → BitVec 32) _
  refine congrArg (V c main_v6 : S8192x1.Idx → BitVec 32) (funext fun a => Fin.ext ?_)
  match a with
  | ⟨0, _⟩ => show win0_2.index t 0 * 1024 + 1 * r.val = (1024 * (t.val / 8) + r.val) % 8192; rw [(idx2 t).1]; omega
  | ⟨1, _⟩ => show win0_2.index t 1 * 1 + 1 * 0 = 0; rw [(idx2 t).2]

/-- Window 3's block at point `t` holds columns `1024·(t%8) …` of the label row. -/
theorem iblk3_apply (c : Dev nD) (t : Fin cfg0.N) (q : Fin 1024) :
    (iblk V c 3 t : Vec Ideal S1x1024 .i32) (ix2 (0 : Fin 1) q) = labJ V c (colIx (t.val % 8) q) := by
  unfold iblk
  rw [View.read_apply]
  show (V c main_v7 : S1x8192.Idx → BitVec 32) _ = (V c main_v7 : S1x8192.Idx → BitVec 32) _
  refine congrArg (V c main_v7 : S1x8192.Idx → BitVec 32) (funext fun a => Fin.ext ?_)
  match a with
  | ⟨0, _⟩ => show win0_3.index t 0 * 1 + 1 * 0 = 0; rw [(idx3 t).1]
  | ⟨1, _⟩ => show win0_3.index t 1 * 1024 + 1 * q.val = (1024 * (t.val % 8) + q.val) % 8192; rw [(idx3 t).2]; omega

end Value

/-! ## One more column block added to a running row sum -/

/-- A running sum over the first `k` column blocks, plus the sum over block `k`'s own 1024 columns, is the running sum
    over `k + 1` blocks. -/
theorem accSum_step (f : Fin 8192 → EReal) (k : ℕ) (hk : k < 8) (g : Fin 1024 → EReal)
    (hg : ∀ q : Fin 1024, g q = f (colIx k q)) (a : EReal) (ha : a = Cert.LibBlockFold.accSum 1024 f k) :
    a + ∑ q : Fin 1024, g q = Cert.LibBlockFold.accSum 1024 f (k + 1) := by
  subst ha
  show _ = Cert.LibBlockFold.accSum 1024 f k + ∑ q : Fin 1024, Cert.LibBlockFold.blk 0 f k q
  refine congrArg (Cert.LibBlockFold.accSum 1024 f k + ·) (Finset.sum_congr rfl fun q _ => ?_)
  have hq := q.isLt
  rw [hg, Cert.LibBlockFold.blk_of_lt 0 f k q (by omega)]
  exact congrArg f (Fin.ext (by show (1024 * k + q.val) % 8192 = 1024 * k + q.val; omega))

/-- The output windows' blocks are whole at every point: 1024 rows, one column. -/
theorem xs4 : ∀ t : Fin cfg0.N, win0_4.xsize (grid0.coords t) 0 = 1024 ∧ win0_4.xsize (grid0.coords t) 1 = 1 :=
  (by decide +kernel : ∀ t : Fin grid0.N, win0_4.xsize (grid0.coords t) 0 = 1024 ∧ win0_4.xsize (grid0.coords t) 1 = 1)
theorem xs5 : ∀ t : Fin cfg0.N, win0_5.xsize (grid0.coords t) 0 = 1024 ∧ win0_5.xsize (grid0.coords t) 1 = 1 :=
  (by decide +kernel : ∀ t : Fin grid0.N, win0_5.xsize (grid0.coords t) 0 = 1024 ∧ win0_5.xsize (grid0.coords t) 1 = 1)

/-! ## One point's contribution, over plain blocks -/

/-- The count accumulator after one more column block: given the row's label and the block's column labels, the
    running count over `k` blocks becomes the running count over `k + 1`. -/
theorem cnt_point (x2 : Vec Ideal S1024x1 .i32) (x3 : Vec Ideal S1x1024 .i32) (acc : Vec Ideal S1024x1 .f32)
    (li : BitVec 32) (lj : Fin 8192 → BitVec 32) (k : ℕ) (hk : k < 8) (r : Fin 1024)
    (h2 : x2 (ix2 r (0 : Fin 1)) = li) (h3 : ∀ q : Fin 1024, x3 (ix2 (0 : Fin 1) q) = lj (colIx k q))
    (ha : acc (ix2 r (0 : Fin 1)) = Cert.LibBlockFold.accSum 1024 (fun j => if li = lj j then (1 : EReal) else 0) k) :
    k0_pay1 (k0_pay6 (F := Ideal) x2 x3 acc) (ix2 r (0 : Fin 1))
      = Cert.LibBlockFold.accSum 1024 (fun j => if li = lj j then (1 : EReal) else 0) (k + 1) := by
  rw [Pay.pay1_apply]
  refine (Pay.pay6_apply x2 x3 acc r).trans ?_
  refine accSum_step _ k hk _ (fun q => ?_) _ ha
  show (if x2 (ix2 r (0 : Fin 1)) = x3 (ix2 (0 : Fin 1) q) then (1 : EReal) else 0) = if li = lj (colIx k q) then (1 : EReal) else 0
  rw [h2, h3]

/-- The masked sum of exponentials after one more column block, likewise: the block's rows of the two feature arrays
    give the exponential of the inner product over the temperature. -/
theorem den_point (x0 x1 : Vec Ideal S1024x128 .f32) (x2 : Vec Ideal S1024x1 .i32) (x3 : Vec Ideal S1x1024 .i32)
    (acc : Vec Ideal S1024x1 .f32) (A B : Fin 8192 → Fin 128 → EReal) (i : Fin 8192)
    (li : BitVec 32) (lj : Fin 8192 → BitVec 32) (k : ℕ) (hk : k < 8) (r : Fin 1024)
    (h0 : ∀ kk : Fin 128, x0 (ix2 r kk) = A i kk) (h1 : ∀ (q : Fin 1024) (kk : Fin 128), x1 (ix2 q kk) = B (colIx k q) kk)
    (h2 : x2 (ix2 r (0 : Fin 1)) = li) (h3 : ∀ q : Fin 1024, x3 (ix2 (0 : Fin 1) q) = lj (colIx k q))
    (ha : acc (ix2 r (0 : Fin 1)) = Cert.LibBlockFold.accSum 1024 (fun j => if li = lj j then (0 : EReal) else Cert.Spec.ex A B i j) k) :
    k0_pay5 (F := Ideal) x0 x1 x2 x3 acc (ix2 r (0 : Fin 1))
      = Cert.LibBlockFold.accSum 1024 (fun j => if li = lj j then (0 : EReal) else Cert.Spec.ex A B i j) (k + 1) := by
  refine (Pay.pay5_apply x0 x1 x2 x3 acc r).trans ?_
  refine accSum_step _ k hk _ (fun q => ?_) _ ha
  show (if x2 (ix2 r (0 : Fin 1)) = x3 (ix2 (0 : Fin 1) q) then (0 : EReal)
      else Ideal.exp (Ideal.div (∑ kk : Fin 128, x0 (ix2 r kk) * x1 (ix2 q kk)) (Ideal.ofBits .f32 0x3F800000#32)))
    = if li = lj (colIx k q) then (0 : EReal) else Cert.Spec.ex A B i (colIx k q)
  rw [h2, h3]
  refine if_congr Iff.rfl rfl ?_
  unfold Cert.Spec.ex Cert.Spec.sim
  refine congrArg (fun z => Ideal.exp (Ideal.div z (Ideal.ofBits .f32 0x3F800000#32))) (Finset.sum_congr rfl fun kk _ => ?_)
  rw [h0, h1]

section Value2
variable (V : (c : Dev nD) → (b : Ref sig .tc) → Buf (Elt Ideal) ((c : Thread nD τ).loc b))

/-! ## The accumulators, point by point -/

/-- Row `r` of row block `ib` against every column: the count's summand, and the masked exponential. -/
abbrev cntRow (c : Dev nD) (ib : ℕ) (r : Fin 1024) : Fin 8192 → EReal :=
  fun j => if labI V c (rowIx ib r) = labJ V c j then (1 : EReal) else 0
abbrev denRow (c : Dev nD) (ib : ℕ) (r : Fin 1024) : Fin 8192 → EReal :=
  fun j => if labI V c (rowIx ib r) = labJ V c j then (0 : EReal) else Cert.Spec.ex (arrA V c) (arrB V c) (rowIx ib r) j

/-- The count accumulator after point `t`, given what it held after the point before (at column 0 it restarts from zero): the running count over the column blocks `0 … t % 8` of the point's row block. -/
theorem acc1_step (c : Dev nD) (t : Fin cfg0.N) (r : Fin 1024)
    (ih : ¬t.val % 8 = 0 → (outsAt V c (t.val - 1) (Nat.lt_of_le_of_lt (Nat.sub_le _ _) t.isLt)).2.2.2 (ix2 r (0 : Fin 1)) = Cert.LibBlockFold.accSum 1024 (cntRow V c (t.val / 8) r) (t.val % 8)) :
    (outsAt V c t.val t.isLt).2.2.2 (ix2 r (0 : Fin 1)) = Cert.LibBlockFold.accSum 1024 (cntRow V c (t.val / 8) r) (t.val % 8 + 1) := by
  have hN : t.val < 64 := lt_of_lt_of_eq t.isLt (show cfg0.N = 64 from N_0)
  have hk : t.val % 8 < 8 := Nat.mod_lt _ (by decide)
  by_cases h0 : t.val % 8 = 0
  · have h1 : ¬t.val % 8 = 7 := by omega
    rw [outsAt_A V c t h0 h1]
    unfold caseA; dsimp only
    refine (congrFun (sout_A_1_eq (F := Ideal) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) (fun h => h1 ((hcond0_1 t).mp h)) (iblk V c 0 t) (iblk V c 1 t) (iblk V c 2 t) (iblk V c 3 t)) (ix2 r (0 : Fin 1))).trans ?_
    exact cnt_point (iblk V c 2 t) (iblk V c 3 t) (k0_pay3 (F := Ideal)) _ (labJ V c) (t.val % 8) hk r (iblk2_apply V c t r) (fun q => iblk3_apply V c t q) (by rw [h0]; exact Pay.pay3_apply _)
  · by_cases h1 : t.val % 8 = 7
    · rw [outsAt_C V c t h0 h1]
      unfold caseC; dsimp only
      refine (congrFun (sout_C_1_eq (F := Ideal) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) ((hcond0_1 t).mpr h1) (iblk V c 0 t) (iblk V c 1 t) (iblk V c 2 t) (iblk V c 3 t) (outsAt V c (t.val - 1) (Nat.lt_of_le_of_lt (Nat.sub_le _ _) t.isLt)).2.2.1 (outsAt V c (t.val - 1) (Nat.lt_of_le_of_lt (Nat.sub_le _ _) t.isLt)).2.2.2) (ix2 r (0 : Fin 1))).trans ?_
      exact cnt_point (iblk V c 2 t) (iblk V c 3 t) (outsAt V c (t.val - 1) (Nat.lt_of_le_of_lt (Nat.sub_le _ _) t.isLt)).2.2.2 _ (labJ V c) (t.val % 8) hk r (iblk2_apply V c t r) (fun q => iblk3_apply V c t q) (ih h0)
    · rw [outsAt_B V c t h0 h1]
      unfold caseB; dsimp only
      refine (congrFun (sout_B_1_eq (F := Ideal) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) (fun h => h1 ((hcond0_1 t).mp h)) (iblk V c 0 t) (iblk V c 1 t) (iblk V c 2 t) (iblk V c 3 t) (outsAt V c (t.val - 1) (Nat.lt_of_le_of_lt (Nat.sub_le _ _) t.isLt)).2.2.1 (outsAt V c (t.val - 1) (Nat.lt_of_le_of_lt (Nat.sub_le _ _) t.isLt)).2.2.2) (ix2 r (0 : Fin 1))).trans ?_
      exact cnt_point (iblk V c 2 t) (iblk V c 3 t) (outsAt V c (t.val - 1) (Nat.lt_of_le_of_lt (Nat.sub_le _ _) t.isLt)).2.2.2 _ (labJ V c) (t.val % 8) hk r (iblk2_apply V c t r) (fun q => iblk3_apply V c t q) (ih h0)

/-- So after every point the accumulator holds the running sum over the column blocks done in the point's row block: by
    induction on the point. -/
theorem acc1_eq (c : Dev nD) : ∀ (n : ℕ) (hn : n < cfg0.N) (r : Fin 1024),
    (outsAt V c n hn).2.2.2 (ix2 r (0 : Fin 1)) = Cert.LibBlockFold.accSum 1024 (cntRow V c (n / 8) r) (n % 8 + 1) := by
  intro n
  induction n with
  | zero => intro hn r; exact acc1_step V c ⟨0, hn⟩ r (fun h => absurd (Nat.zero_mod 8) h)
  | succ n ih =>
    intro hn r
    refine acc1_step V c ⟨n + 1, hn⟩ r (fun h => ?_)
    have hh : ¬(n + 1) % 8 = 0 := h
    have e1 : (n + 1) / 8 = n / 8 := by omega
    have e2 : (n + 1) % 8 = n % 8 + 1 := by omega
    show (outsAt V c n _).2.2.2 (ix2 r (0 : Fin 1)) = Cert.LibBlockFold.accSum 1024 (cntRow V c ((n + 1) / 8) r) ((n + 1) % 8)
    rw [e1, e2]
    exact ih (Nat.lt_of_succ_lt hn) r

/-- At a point of column 7 output window 5's block is a copy of its accumulator: all eight column blocks summed. -/
theorem out5_flush (c : Dev nD) (t : Fin cfg0.N) (h7 : t.val % 8 = 7) (r : Fin 1024) :
    (outsAt V c t.val t.isLt).2.1 (ix2 r (0 : Fin 1)) = Cert.Spec.cnt2 (labI V c) (labJ V c) (rowIx (t.val / 8) r) := by
  have h0 : ¬t.val % 8 = 0 := by omega
  have h1 : t.val % 8 = 7 := h7
  have e : (outsAt V c t.val t.isLt).2.1 = (outsAt V c t.val t.isLt).2.2.2 := by
    rw [outsAt_C V c t h0 h1]
    unfold caseC; dsimp only
    exact (out_C_5_eq (F := Ideal) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) ((hcond0_1 t).mpr h1) (iblk V c 0 t) (iblk V c 1 t) (iblk V c 2 t) (iblk V c 3 t) (outsAt V c (t.val - 1) (Nat.lt_of_le_of_lt (Nat.sub_le _ _) t.isLt)).2.2.1 (outsAt V c (t.val - 1) (Nat.lt_of_le_of_lt (Nat.sub_le _ _) t.isLt)).2.2.2).trans
      (sout_C_1_eq (F := Ideal) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) ((hcond0_1 t).mpr h1) (iblk V c 0 t) (iblk V c 1 t) (iblk V c 2 t) (iblk V c 3 t) (outsAt V c (t.val - 1) (Nat.lt_of_le_of_lt (Nat.sub_le _ _) t.isLt)).2.2.1 (outsAt V c (t.val - 1) (Nat.lt_of_le_of_lt (Nat.sub_le _ _) t.isLt)).2.2.2).symm
  rw [e, acc1_eq V c t.val t.isLt r, h7]
  exact Cert.LibBlockFold.accSum_eq_sum 1024 _ 8 (by norm_num)

/-- The whole result array of counts: row `i` holds the specification's value at `i`. -/
def G5 (c : Dev nD) : Buf (Elt Ideal) ((c : Thread nD τ).loc main_v8_1) :=
  fun (y : S8192x1.Idx) => Cert.Spec.cnt2 (labI V c) (labJ V c) (y 0)

/-- What a write-back of window 5 writes is its block of that array. -/
theorem flushed_eq5 (c : Dev nD) (t : Fin cfg0.N) (hf : (cfg0.win 5).flush t = true) :
    (dat V c).flushed 5 t = ((cfg0.win 5).blk t).view.read (Elt Ideal) (G5 V c) := by
  have hN : t.val < 64 := lt_of_lt_of_eq t.isLt (show cfg0.N = 64 from N_0)
  have h7 : t.val % 8 = 7 := (flush0_5 t).mp hf
  show (cfg0.win 5).cut (grid0.coords t) ((dat V c).after 5 t) = _
  rw [after5]
  have key : ∀ y' : S1024x1.Idx, (outsAt V c t.val t.isLt).2.1 y' = Cert.Spec.cnt2 (labI V c) (labJ V c) (rowIx (t.val / 8) (y' 0)) := fun y' =>
    (congrArg (outsAt V c t.val t.isLt).2.1 ((eq_ix2 y').trans (congrArg (ix2 (y' 0)) (Fin.ext (Nat.lt_one_iff.mp (y' 1).isLt) : y' 1 = (0 : Fin 1))))).trans
      (out5_flush V c t h7 (y' 0))
  funext y
  rw [View.read_apply]
  refine (key y).trans ?_
  show Cert.Spec.cnt2 (labI V c) (labJ V c) _ = Cert.Spec.cnt2 (labI V c) (labJ V c) ((((cfg0.win 5).blk t).view.emb y) 0)
  refine congrArg (Cert.Spec.cnt2 (labI V c) (labJ V c)) (Fin.ext ?_)
  have hy : (y 0).val < 1024 := (y 0).isLt
  show (1024 * (t.val / 8) + (y 0).val) % 8192 = win0_5.index t 0 * 1024 + 1 * (y 0).val
  rw [(idx5 t).1]; omega

/-- Every row of the array lies in the block written back at column 7 of its row block. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 8192 := (i 0).isLt
  have h1 : (i 1 : Nat) < 1 := (i 1).isLt
  have hN : cfg0.N = 64 := N_0
  let t : Fin cfg0.N := ⟨8 * ((i 0 : Nat) / 1024) + 7, by rw [hN]; omega⟩
  have ht : t.val = 8 * ((i 0 : Nat) / 1024) + 7 := rfl
  refine ⟨t, (flush0_5 t).mpr (by rw [ht]; omega), ?_⟩
  show i ∈ ((View.whole main_v8_1).slice (win0_5.rect t)).set
  rw [View.set_slice_whole, Rect.mem_set_unit]
  intro a
  match a with
  | ⟨0, _⟩ =>
    show win0_5.index t 0 * win0_5.size 0 ≤ (i 0 : Nat) ∧ (i 0 : Nat) < win0_5.index t 0 * win0_5.size 0 + win0_5.xsize (grid0.coords t) 0
    rw [(idx5 t).1, show win0_5.size 0 = 1024 from rfl, (xs5 t).1, ht]; omega
  | ⟨1, _⟩ =>
    show win0_5.index t 1 * win0_5.size 1 ≤ (i 1 : Nat) ∧ (i 1 : Nat) < win0_5.index t 1 * win0_5.size 1 + win0_5.xsize (grid0.coords t) 1
    rw [(idx5 t).2, show win0_5.size 1 = 1 from rfl, (xs5 t).2]; omega

/-- So the array ends holding the specification's values. -/
theorem final5 (c : Dev nD) : (dat V c).arrAt 5 cfg0.N = G5 V c :=
  (dat V c).arrAt_eq_of_cover 5 (G5 V c) (flushed_eq5 V c) (cover5 c)

/-- THE COUNT: row `i` of the second result array ends at the number of columns carrying row `i`'s label. -/
theorem cnt_final (c : Dev nD) (i : Fin 8192) :
    (dat (F := Ideal) V c).arrAt 5 cfg0.N (ix2 i (0 : Fin 1)) = Cert.Spec.cnt2 (labI V c) (labJ V c) i :=
  congrFun (final5 V c) (ix2 i (0 : Fin 1))

/-- The masked-exponential accumulator after point `t`, likewise. -/
theorem acc0_step (c : Dev nD) (t : Fin cfg0.N) (r : Fin 1024)
    (ih : ¬t.val % 8 = 0 → (outsAt V c (t.val - 1) (Nat.lt_of_le_of_lt (Nat.sub_le _ _) t.isLt)).2.2.1 (ix2 r (0 : Fin 1)) = Cert.LibBlockFold.accSum 1024 (denRow V c (t.val / 8) r) (t.val % 8)) :
    (outsAt V c t.val t.isLt).2.2.1 (ix2 r (0 : Fin 1)) = Cert.LibBlockFold.accSum 1024 (denRow V c (t.val / 8) r) (t.val % 8 + 1) := by
  have hN : t.val < 64 := lt_of_lt_of_eq t.isLt (show cfg0.N = 64 from N_0)
  have hk : t.val % 8 < 8 := Nat.mod_lt _ (by decide)
  by_cases h0 : t.val % 8 = 0
  · have h1 : ¬t.val % 8 = 7 := by omega
    rw [outsAt_A V c t h0 h1]
    unfold caseA; dsimp only
    refine (congrFun (sout_A_0_eq (F := Ideal) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcond0_0 t).mpr h0) (fun h => h1 ((hcond0_1 t).mp h)) (iblk V c 0 t) (iblk V c 1 t) (iblk V c 2 t) (iblk V c 3 t)) (ix2 r (0 : Fin 1))).trans ?_
    exact den_point (iblk V c 0 t) (iblk V c 1 t) (iblk V c 2 t) (iblk V c 3 t) (k0_pay2 (F := Ideal)) (arrA V c) (arrB V c) (rowIx (t.val / 8) r) _ (labJ V c) (t.val % 8) hk r (fun kk => iblk0_apply V c t r kk) (fun q kk => iblk1_apply V c t q kk) (iblk2_apply V c t r) (fun q => iblk3_apply V c t q) (by rw [h0]; exact Pay.pay2_apply _)
  · by_cases h1 : t.val % 8 = 7
    · rw [outsAt_C V c t h0 h1]
      unfold caseC; dsimp only
      refine (congrFun (sout_C_0_eq (F := Ideal) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) ((hcond0_1 t).mpr h1) (iblk V c 0 t) (iblk V c 1 t) (iblk V c 2 t) (iblk V c 3 t) (outsAt V c (t.val - 1) (Nat.lt_of_le_of_lt (Nat.sub_le _ _) t.isLt)).2.2.1 (outsAt V c (t.val - 1) (Nat.lt_of_le_of_lt (Nat.sub_le _ _) t.isLt)).2.2.2) (ix2 r (0 : Fin 1))).trans ?_
      exact den_point (iblk V c 0 t) (iblk V c 1 t) (iblk V c 2 t) (iblk V c 3 t) (outsAt V c (t.val - 1) (Nat.lt_of_le_of_lt (Nat.sub_le _ _) t.isLt)).2.2.1 (arrA V c) (arrB V c) (rowIx (t.val / 8) r) _ (labJ V c) (t.val % 8) hk r (fun kk => iblk0_apply V c t r kk) (fun q kk => iblk1_apply V c t q kk) (iblk2_apply V c t r) (fun q => iblk3_apply V c t q) (ih h0)
    · rw [outsAt_B V c t h0 h1]
      unfold caseB; dsimp only
      refine (congrFun (sout_B_0_eq (F := Ideal) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) (fun h => h1 ((hcond0_1 t).mp h)) (iblk V c 0 t) (iblk V c 1 t) (iblk V c 2 t) (iblk V c 3 t) (outsAt V c (t.val - 1) (Nat.lt_of_le_of_lt (Nat.sub_le _ _) t.isLt)).2.2.1 (outsAt V c (t.val - 1) (Nat.lt_of_le_of_lt (Nat.sub_le _ _) t.isLt)).2.2.2) (ix2 r (0 : Fin 1))).trans ?_
      exact den_point (iblk V c 0 t) (iblk V c 1 t) (iblk V c 2 t) (iblk V c 3 t) (outsAt V c (t.val - 1) (Nat.lt_of_le_of_lt (Nat.sub_le _ _) t.isLt)).2.2.1 (arrA V c) (arrB V c) (rowIx (t.val / 8) r) _ (labJ V c) (t.val % 8) hk r (fun kk => iblk0_apply V c t r kk) (fun q kk => iblk1_apply V c t q kk) (iblk2_apply V c t r) (fun q => iblk3_apply V c t q) (ih h0)

/-- So after every point the accumulator holds the running sum over the column blocks done in the point's row block: by
    induction on the point. -/
theorem acc0_eq (c : Dev nD) : ∀ (n : ℕ) (hn : n < cfg0.N) (r : Fin 1024),
    (outsAt V c n hn).2.2.1 (ix2 r (0 : Fin 1)) = Cert.LibBlockFold.accSum 1024 (denRow V c (n / 8) r) (n % 8 + 1) := by
  intro n
  induction n with
  | zero => intro hn r; exact acc0_step V c ⟨0, hn⟩ r (fun h => absurd (Nat.zero_mod 8) h)
  | succ n ih =>
    intro hn r
    refine acc0_step V c ⟨n + 1, hn⟩ r (fun h => ?_)
    have hh : ¬(n + 1) % 8 = 0 := h
    have e1 : (n + 1) / 8 = n / 8 := by omega
    have e2 : (n + 1) % 8 = n % 8 + 1 := by omega
    show (outsAt V c n _).2.2.1 (ix2 r (0 : Fin 1)) = Cert.LibBlockFold.accSum 1024 (denRow V c ((n + 1) / 8) r) ((n + 1) % 8)
    rw [e1, e2]
    exact ih (Nat.lt_of_succ_lt hn) r

/-- At a point of column 7 output window 4's block is a copy of its accumulator: all eight column blocks summed. -/
theorem out4_flush (c : Dev nD) (t : Fin cfg0.N) (h7 : t.val % 8 = 7) (r : Fin 1024) :
    (outsAt V c t.val t.isLt).1 (ix2 r (0 : Fin 1)) = Cert.Spec.denom2 (arrA V c) (arrB V c) (labI V c) (labJ V c) (rowIx (t.val / 8) r) := by
  have h0 : ¬t.val % 8 = 0 := by omega
  have h1 : t.val % 8 = 7 := h7
  have e : (outsAt V c t.val t.isLt).1 = (outsAt V c t.val t.isLt).2.2.1 := by
    rw [outsAt_C V c t h0 h1]
    unfold caseC; dsimp only
    exact (out_C_4_eq (F := Ideal) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) ((hcond0_1 t).mpr h1) (iblk V c 0 t) (iblk V c 1 t) (iblk V c 2 t) (iblk V c 3 t) (outsAt V c (t.val - 1) (Nat.lt_of_le_of_lt (Nat.sub_le _ _) t.isLt)).2.2.1 (outsAt V c (t.val - 1) (Nat.lt_of_le_of_lt (Nat.sub_le _ _) t.isLt)).2.2.2).trans
      (sout_C_0_eq (F := Ideal) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcond0_0 t).mp h)) ((hcond0_1 t).mpr h1) (iblk V c 0 t) (iblk V c 1 t) (iblk V c 2 t) (iblk V c 3 t) (outsAt V c (t.val - 1) (Nat.lt_of_le_of_lt (Nat.sub_le _ _) t.isLt)).2.2.1 (outsAt V c (t.val - 1) (Nat.lt_of_le_of_lt (Nat.sub_le _ _) t.isLt)).2.2.2).symm
  rw [e, acc0_eq V c t.val t.isLt r, h7]
  exact Cert.LibBlockFold.accSum_eq_sum 1024 _ 8 (by norm_num)

/-- The whole result array of masked sums of exponentials: row `i` holds the specification's value at `i`. -/
def G4 (c : Dev nD) : Buf (Elt Ideal) ((c : Thread nD τ).loc main_v8_0) :=
  fun (y : S8192x1.Idx) => Cert.Spec.denom2 (arrA V c) (arrB V c) (labI V c) (labJ V c) (y 0)

/-- What a write-back of window 4 writes is its block of that array. -/
theorem flushed_eq4 (c : Dev nD) (t : Fin cfg0.N) (hf : (cfg0.win 4).flush t = true) :
    (dat V c).flushed 4 t = ((cfg0.win 4).blk t).view.read (Elt Ideal) (G4 V c) := by
  have hN : t.val < 64 := lt_of_lt_of_eq t.isLt (show cfg0.N = 64 from N_0)
  have h7 : t.val % 8 = 7 := (flush0_4 t).mp hf
  show (cfg0.win 4).cut (grid0.coords t) ((dat V c).after 4 t) = _
  rw [after4]
  have key : ∀ y' : S1024x1.Idx, (outsAt V c t.val t.isLt).1 y' = Cert.Spec.denom2 (arrA V c) (arrB V c) (labI V c) (labJ V c) (rowIx (t.val / 8) (y' 0)) := fun y' =>
    (congrArg (outsAt V c t.val t.isLt).1 ((eq_ix2 y').trans (congrArg (ix2 (y' 0)) (Fin.ext (Nat.lt_one_iff.mp (y' 1).isLt) : y' 1 = (0 : Fin 1))))).trans
      (out4_flush V c t h7 (y' 0))
  funext y
  rw [View.read_apply]
  refine (key y).trans ?_
  show Cert.Spec.denom2 (arrA V c) (arrB V c) (labI V c) (labJ V c) _ = Cert.Spec.denom2 (arrA V c) (arrB V c) (labI V c) (labJ V c) ((((cfg0.win 4).blk t).view.emb y) 0)
  refine congrArg (Cert.Spec.denom2 (arrA V c) (arrB V c) (labI V c) (labJ V c)) (Fin.ext ?_)
  have hy : (y 0).val < 1024 := (y 0).isLt
  show (1024 * (t.val / 8) + (y 0).val) % 8192 = win0_4.index t 0 * 1024 + 1 * (y 0).val
  rw [(idx4 t).1]; omega

/-- Every row of the array lies in the block written back at column 7 of its row block. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 8192 := (i 0).isLt
  have h1 : (i 1 : Nat) < 1 := (i 1).isLt
  have hN : cfg0.N = 64 := N_0
  let t : Fin cfg0.N := ⟨8 * ((i 0 : Nat) / 1024) + 7, by rw [hN]; omega⟩
  have ht : t.val = 8 * ((i 0 : Nat) / 1024) + 7 := rfl
  refine ⟨t, (flush0_4 t).mpr (by rw [ht]; omega), ?_⟩
  show i ∈ ((View.whole main_v8_0).slice (win0_4.rect t)).set
  rw [View.set_slice_whole, Rect.mem_set_unit]
  intro a
  match a with
  | ⟨0, _⟩ =>
    show win0_4.index t 0 * win0_4.size 0 ≤ (i 0 : Nat) ∧ (i 0 : Nat) < win0_4.index t 0 * win0_4.size 0 + win0_4.xsize (grid0.coords t) 0
    rw [(idx4 t).1, show win0_4.size 0 = 1024 from rfl, (xs4 t).1, ht]; omega
  | ⟨1, _⟩ =>
    show win0_4.index t 1 * win0_4.size 1 ≤ (i 1 : Nat) ∧ (i 1 : Nat) < win0_4.index t 1 * win0_4.size 1 + win0_4.xsize (grid0.coords t) 1
    rw [(idx4 t).2, show win0_4.size 1 = 1 from rfl, (xs4 t).2]; omega

/-- So the array ends holding the specification's values. -/
theorem final4 (c : Dev nD) : (dat V c).arrAt 4 cfg0.N = G4 V c :=
  (dat V c).arrAt_eq_of_cover 4 (G4 V c) (flushed_eq4 V c) (cover4 c)

/-- THE DENOMINATOR: row `i` of the first result array ends at the sum, over the columns whose label differs from row
    `i`'s, of the exponential of the inner product over the temperature. -/
theorem denom_final (c : Dev nD) (i : Fin 8192) :
    (dat (F := Ideal) V c).arrAt 4 cfg0.N (ix2 i (0 : Fin 1)) = Cert.Spec.denom2 (arrA V c) (arrB V c) (labI V c) (labJ V c) i :=
  congrFun (final4 V c) (ix2 i (0 : Fin 1))

end Value2

end Cert.KernelIdeal.R0

end
-- ==== Proof.FrameKI.R1Value.lean ====
/- Region 1 of @main (`cc1__sms_kernel`): the VALUE of its result array at the ideal instance. The pieces the three
   runs found are read back as values: every case leaves in the accumulator ONE covering store whose payload is
   `k1_pay2` of the five input blocks and of the accumulator's contents before (in case A: of the zero block `k1_pay1`
   the case has just stored), and case C copies that into the output block. So the accumulator after point t = 8*i + j
   is the zero block plus the masked log-ratio sums of column blocks 0..j of row block i (`chain`, by recursion on the
   point; `outsAt_sc`, by induction on the point), after the row block's last point the sum over all 8192 columns, and
   that is what the one write-back of the row block writes into rows 1024*i .. 1024*i + 1023 of the result. -/
import proofs.«105148_j76553497084189_1_alg».proof.Proof.FrameKI.R1Body
import proofs.«105148_j76553497084189_1_alg».proof.Proof.Spec2
import proofs.«105148_j76553497084189_1_alg».proof.Proof.LibBlockFold
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## The pieces the runs found, as values (any float instance) -/

/-- CASE B (0 < j < 7): the accumulator holding `xs0` is left at the payload of the blocks and `xs0`: its one covering
    store, whose loads read the whole buffers. -/
theorem sout_B_0_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : ¬cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) :
    sout_B_0 c i arg2 harg2 arg3 harg3 arg4 harg4 arg5 harg5 arg6 harg6 arg7 harg7 arg8 harg8 hc0 hc1 x0 x1 x2 x3 x4 xs0 = k1_pay2 x0 x1 x2 x3 x4 xs0 := by
  unfold sout_B_0
  rw [View.read_writes_eq_canon _ _ _ (scover_B_0 c i arg2 harg2 arg3 harg3 arg4 harg4 arg5 harg5 arg6 harg6 arg7 harg7 arg8 harg8 hc0 hc1 x0 x1 x2 x3 x4 xs0)]
  unfold kernelRun_B
  dsimp only
  rw [View.canon_unit_zero (S := S1024x1) hz]
  simp only [View.readAt_eq_ld, harg2.read_unread, harg3.read_unread, harg4.read_unread, harg5.read_unread, harg6.read_unread, harg8.read_unread,
    View.ld_unit_zero (S := S1024x128) hz, View.ld_unit_zero (S := S1024x1) hz, View.ld_unit_zero (S := S1x1024) hz]

/-- CASE A (j = 0): the body stores the zero block, reads it back, and leaves the payload of the blocks and the zero block. -/
theorem sout_A_0_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond1_0 i) (hc1 : ¬cond1_1 i)
    (x0 : Vec F S1024x128 .f32) (x1 : Vec F S1024x128 .f32) (x2 : Vec F S1024x1 .i32) (x3 : Vec F S1x1024 .i32) (x4 : Vec F S1024x1 .f32) :
    sout_A_0 c i arg2 harg2 arg3 harg3 arg4 harg4 arg5 harg5 arg6 harg6 arg7 harg7 arg8 harg8 hc0 hc1 x0 x1 x2 x3 x4 = k1_pay2 x0 x1 x2 x3 x4 (k1_pay1 (F := F)) := by
  unfold sout_A_0
  rw [View.read_writes_eq_canon _ _ _ (scover_A_0 c i arg2 harg2 arg3 harg3 arg4 harg4 arg5 harg5 arg6 harg6 arg7 harg7 arg8 harg8 hc0 hc1 x0 x1 x2 x3 x4)]
  unfold kernelRun_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg8.read_unread,
    View.ld_unit_zero (S := S1024x128) hz, View.ld_unit_zero (S := S1024x1) hz, View.ld_unit_zero (S := S1x1024) hz]

/-- CASE C (j = 7): the accumulator as in case B; -/
theorem sout_C_0_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) :
    sout_C_0 c i arg2 harg2 arg3 harg3 arg4 harg4 arg5 harg5 arg6 harg6 arg7 harg7 arg8 harg8 hc0 hc1 x0 x1 x2 x3 x4 xs0 = k1_pay2 x0 x1 x2 x3 x4 xs0 := by
  unfold sout_C_0
  rw [View.read_writes_eq_canon _ _ _ (scover_C_0 c i arg2 harg2 arg3 harg3 arg4 harg4 arg5 harg5 arg6 harg6 arg7 harg7 arg8 harg8 hc0 hc1 x0 x1 x2 x3 x4 xs0)]
  unfold kernelRun_C
  dsimp only
  sl_unfold_words
  rw [View.canon_unit_zero (S := S1024x1) hz]
  simp only [View.readAt_eq_ld, harg2.read_unread, harg3.read_unread, harg4.read_unread, harg5.read_unread, harg6.read_unread, harg8.read_unread,
    View.ld_unit_zero (S := S1024x128) hz, View.ld_unit_zero (S := S1024x1) hz, View.ld_unit_zero (S := S1x1024) hz]

/-- and the output block is the accumulator read back after that store. -/
theorem out_C_5_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond1_0 i) (hc1 : cond1_1 i)
    (x0 : Vec F S1024x128 .f32) (x1 : Vec F S1024x128 .f32) (x2 : Vec F S1024x1 .i32) (x3 : Vec F S1x1024 .i32) (x4 : Vec F S1024x1 .f32) (xs0 : Vec F S1024x1 .f32) :
    out_C_5 c i arg2 harg2 arg3 harg3 arg4 harg4 arg5 harg5 arg6 harg6 arg7 harg7 arg8 harg8 hc0 hc1 x0 x1 x2 x3 x4 xs0 = k1_pay2 x0 x1 x2 x3 x4 xs0 := by
  unfold out_C_5
  rw [View.read_writes_eq_canon _ _ _ (cover_C_5 c i arg2 harg2 arg3 harg3 arg4 harg4 arg5 harg5 arg6 harg6 arg7 harg7 arg8 harg8 hc0 hc1 x0 x1 x2 x3 x4 xs0)]
  unfold kernelRun_C
  dsimp only
  sl_unfold_words
  rw [View.canon_unit_zero (S := S1024x1) hz, View.readCov_unit_zero (S := S1024x1) _ hz]
  simp only [View.readAt_eq_ld, harg2.read_unread, harg3.read_unread, harg4.read_unread, harg5.read_unread, harg6.read_unread, harg8.read_unread,
    View.ld_unit_zero (S := S1024x128) hz, View.ld_unit_zero (S := S1024x1) hz, View.ld_unit_zero (S := S1x1024) hz]

section Entry
variable (V : (c : Dev nD) → (b : Ref sig .tc) → Buf (Elt F) ((c : Thread nD τ).loc b))

/-! ## The accumulator point by point -/

/-- The accumulator after point `n`: at the first point of a row block (n ≡ 0 mod 8) the payload of the point's blocks
    over the zero block, elsewhere over what the point before left. -/
def chain (c : Dev nD) : (n : ℕ) → n < cfg1.N → Vec F S1024x1 .f32
  | 0, h => k1_pay2 (iblk V c 0 ⟨0, h⟩) (iblk V c 1 ⟨0, h⟩) (iblk V c 2 ⟨0, h⟩) (iblk V c 3 ⟨0, h⟩) (iblk V c 4 ⟨0, h⟩) (k1_pay1 (F := F))
  | n + 1, h =>
    if (n + 1) % 8 = 0 then k1_pay2 (iblk V c 0 ⟨n + 1, h⟩) (iblk V c 1 ⟨n + 1, h⟩) (iblk V c 2 ⟨n + 1, h⟩) (iblk V c 3 ⟨n + 1, h⟩) (iblk V c 4 ⟨n + 1, h⟩) (k1_pay1 (F := F))
    else k1_pay2 (iblk V c 0 ⟨n + 1, h⟩) (iblk V c 1 ⟨n + 1, h⟩) (iblk V c 2 ⟨n + 1, h⟩) (iblk V c 3 ⟨n + 1, h⟩) (iblk V c 4 ⟨n + 1, h⟩) (chain c n (Nat.lt_of_succ_lt h))

/-- What the runs leave in the accumulator after point `n` IS `chain`: by induction on the point, the case by the
    closed forms of the conditions. -/
theorem outsAt_sc (c : Dev nD) : ∀ (n : ℕ) (h : n < cfg1.N), (outsAt V c n h).2 = chain V c n h
  | 0, h => by
    rw [outsAt_A V c ⟨0, h⟩ (Nat.zero_mod 8) (show ¬(0 % 8 = 7) by decide)]
    dsimp only
    exact sout_A_0_eq c (grid1.coords ⟨0, h⟩) (ms_0 ⟨0, h⟩) (hs_0 ⟨0, h⟩) (ms_1 ⟨0, h⟩) (hs_1 ⟨0, h⟩) (ms_2 ⟨0, h⟩) (hs_2 ⟨0, h⟩) (ms_3 ⟨0, h⟩) (hs_3 ⟨0, h⟩) (ms_4 ⟨0, h⟩) (hs_4 ⟨0, h⟩) (ms_5 ⟨0, h⟩) (hs_5 ⟨0, h⟩) scM (Memref.isWhole_whole _) ((hcond1_0 ⟨0, h⟩).mpr (Nat.zero_mod 8)) (fun hh => (by decide : ¬(0 % 8 = 7)) ((hcond1_1 ⟨0, h⟩).mp hh)) (iblk V c 0 ⟨0, h⟩) (iblk V c 1 ⟨0, h⟩) (iblk V c 2 ⟨0, h⟩) (iblk V c 3 ⟨0, h⟩) (iblk V c 4 ⟨0, h⟩)
  | n + 1, h => by
    by_cases h0 : (n + 1) % 8 = 0
    · have h1 : ¬(n + 1) % 8 = 7 := by omega
      rw [outsAt_A V c ⟨n + 1, h⟩ h0 h1]
      dsimp only
      refine (sout_A_0_eq c (grid1.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) (ms_4 ⟨n + 1, h⟩) (hs_4 ⟨n + 1, h⟩) (ms_5 ⟨n + 1, h⟩) (hs_5 ⟨n + 1, h⟩) scM (Memref.isWhole_whole _) ((hcond1_0 ⟨n + 1, h⟩).mpr h0) (fun hh => h1 ((hcond1_1 ⟨n + 1, h⟩).mp hh)) (iblk V c 0 ⟨n + 1, h⟩) (iblk V c 1 ⟨n + 1, h⟩) (iblk V c 2 ⟨n + 1, h⟩) (iblk V c 3 ⟨n + 1, h⟩) (iblk V c 4 ⟨n + 1, h⟩)).trans ?_
      exact (if_pos h0).symm
    · by_cases h1 : (n + 1) % 8 = 7
      · rw [outsAt_C V c ⟨n + 1, h⟩ h0 h1]
        dsimp only
        refine (sout_C_0_eq c (grid1.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) (ms_4 ⟨n + 1, h⟩) (hs_4 ⟨n + 1, h⟩) (ms_5 ⟨n + 1, h⟩) (hs_5 ⟨n + 1, h⟩) scM (Memref.isWhole_whole _) (fun hh => h0 ((hcond1_0 ⟨n + 1, h⟩).mp hh)) ((hcond1_1 ⟨n + 1, h⟩).mpr h1) (iblk V c 0 ⟨n + 1, h⟩) (iblk V c 1 ⟨n + 1, h⟩) (iblk V c 2 ⟨n + 1, h⟩) (iblk V c 3 ⟨n + 1, h⟩) (iblk V c 4 ⟨n + 1, h⟩) _).trans ?_
        refine Eq.trans ?_ (if_neg h0).symm
        show k1_pay2 (iblk V c 0 ⟨n + 1, h⟩) (iblk V c 1 ⟨n + 1, h⟩) (iblk V c 2 ⟨n + 1, h⟩) (iblk V c 3 ⟨n + 1, h⟩) (iblk V c 4 ⟨n + 1, h⟩) (outsAt V c n _).2 = k1_pay2 (iblk V c 0 ⟨n + 1, h⟩) (iblk V c 1 ⟨n + 1, h⟩) (iblk V c 2 ⟨n + 1, h⟩) (iblk V c 3 ⟨n + 1, h⟩) (iblk V c 4 ⟨n + 1, h⟩) (chain V c n _)
        rw [outsAt_sc c n]
      · rw [outsAt_B V c ⟨n + 1, h⟩ h0 h1]
        dsimp only
        refine (sout_B_0_eq c (grid1.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) (ms_4 ⟨n + 1, h⟩) (hs_4 ⟨n + 1, h⟩) (ms_5 ⟨n + 1, h⟩) (hs_5 ⟨n + 1, h⟩) scM (Memref.isWhole_whole _) (fun hh => h0 ((hcond1_0 ⟨n + 1, h⟩).mp hh)) (fun hh => h1 ((hcond1_1 ⟨n + 1, h⟩).mp hh)) (iblk V c 0 ⟨n + 1, h⟩) (iblk V c 1 ⟨n + 1, h⟩) (iblk V c 2 ⟨n + 1, h⟩) (iblk V c 3 ⟨n + 1, h⟩) (iblk V c 4 ⟨n + 1, h⟩) _).trans ?_
        refine Eq.trans ?_ (if_neg h0).symm
        show k1_pay2 (iblk V c 0 ⟨n + 1, h⟩) (iblk V c 1 ⟨n + 1, h⟩) (iblk V c 2 ⟨n + 1, h⟩) (iblk V c 3 ⟨n + 1, h⟩) (iblk V c 4 ⟨n + 1, h⟩) (outsAt V c n _).2 = k1_pay2 (iblk V c 0 ⟨n + 1, h⟩) (iblk V c 1 ⟨n + 1, h⟩) (iblk V c 2 ⟨n + 1, h⟩) (iblk V c 3 ⟨n + 1, h⟩) (iblk V c 4 ⟨n + 1, h⟩) (chain V c n _)
        rw [outsAt_sc c n]

/-- At the last point of a row block (n ≡ 7 mod 8) the output block is the accumulator. -/
theorem outsAt_out (c : Dev nD) (t : Fin cfg1.N) (h1 : t.val % 8 = 7) :
    (outsAt V c t.val t.isLt).1 = chain V c t.val t.isLt := by
  have h0 : ¬t.val % 8 = 0 := by omega
  have e2 := outsAt_sc V c t.val t.isLt
  rw [outsAt_C V c t h0 h1] at e2 ⊢
  dsimp only at e2 ⊢
  refine Eq.trans ?_ e2
  exact (out_C_5_eq c (grid1.coords t) (ms_0 t) (hs_0 t) (ms_1 t) (hs_1 t) (ms_2 t) (hs_2 t) (ms_3 t) (hs_3 t) (ms_4 t) (hs_4 t) (ms_5 t) (hs_5 t) scM (Memref.isWhole_whole _) (fun hh => h0 ((hcond1_0 t).mp hh)) ((hcond1_1 t).mpr h1) (iblk V c 0 t) (iblk V c 1 t) (iblk V c 2 t) (iblk V c 3 t) (iblk V c 4 t) _).trans
    (sout_C_0_eq c (grid1.coords t) (ms_0 t) (hs_0 t) (ms_1 t) (hs_1 t) (ms_2 t) (hs_2 t) (ms_3 t) (hs_3 t) (ms_4 t) (hs_4 t) (ms_5 t) (hs_5 t) scM (Memref.isWhole_whole _) (fun hh => h0 ((hcond1_0 t).mp hh)) ((hcond1_1 t).mpr h1) (iblk V c 0 t) (iblk V c 1 t) (iblk V c 2 t) (iblk V c 3 t) (iblk V c 4 t) _).symm

end Entry

end Cert.KernelIdeal.R1

end
-- ==== Proof.FrameKI.R1ValueSum.lean ====
/- Region 1 of @main (`cc1__sms_kernel`): its result array at the ideal instance, in closed form. Point t = 8*i + j of
   the grid reads row block i of the anchors, of the row labels and of the first pass's denominators, and column
   block j of the positives and of the column labels (the block-index facts below, decided over the grid); so the
   payload's masked log-ratio sum over the 1024 columns of the point's block is the sum of entries 1024*j .. 1024*j +
   1023 of the row's 8192 summands, the accumulator after point 8*i + j is the running sum of j + 1 column blocks, and
   after point 8*i + 7 the whole row's sum: what the row block's one write-back writes. -/
import proofs.«105148_j76553497084189_1_alg».proof.Proof.FrameKI.R1Value
import proofs.«105148_j76553497084189_1_alg».proof.Proof.KIPay
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

local notation "𝕄" => MT nD τ sig Unit (Elt F) ℕ (UR sig nD τ) ℕ

/-! ## Which block each window reads at a point -/

/-- Window 0's block index at point `t`, decided over the grid. -/
theorem index_0 : ∀ t : Fin cfg1.N, win1_0.index t 0 = t.val / 8 ∧ win1_0.index t 1 = 0 :=
  (by decide +kernel : ∀ t : Fin grid1.N, win1_0.index t 0 = t.val / 8 ∧ win1_0.index t 1 = 0)
/-- Window 1's block index at point `t`, decided over the grid. -/
theorem index_1 : ∀ t : Fin cfg1.N, win1_1.index t 0 = t.val % 8 ∧ win1_1.index t 1 = 0 :=
  (by decide +kernel : ∀ t : Fin grid1.N, win1_1.index t 0 = t.val % 8 ∧ win1_1.index t 1 = 0)
/-- Window 2's block index at point `t`, decided over the grid. -/
theorem index_2 : ∀ t : Fin cfg1.N, win1_2.index t 0 = t.val / 8 ∧ win1_2.index t 1 = 0 :=
  (by decide +kernel : ∀ t : Fin grid1.N, win1_2.index t 0 = t.val / 8 ∧ win1_2.index t 1 = 0)
/-- Window 3's block index at point `t`, decided over the grid. -/
theorem index_3 : ∀ t : Fin cfg1.N, win1_3.index t 0 = 0 ∧ win1_3.index t 1 = t.val % 8 :=
  (by decide +kernel : ∀ t : Fin grid1.N, win1_3.index t 0 = 0 ∧ win1_3.index t 1 = t.val % 8)
/-- Window 4's block index at point `t`, decided over the grid. -/
theorem index_4 : ∀ t : Fin cfg1.N, win1_4.index t 0 = t.val / 8 ∧ win1_4.index t 1 = 0 :=
  (by decide +kernel : ∀ t : Fin grid1.N, win1_4.index t 0 = t.val / 8 ∧ win1_4.index t 1 = 0)
/-- Window 5's block index at point `t`, decided over the grid. -/
theorem index_5 : ∀ t : Fin cfg1.N, win1_5.index t 0 = t.val / 8 ∧ win1_5.index t 1 = 0 :=
  (by decide +kernel : ∀ t : Fin grid1.N, win1_5.index t 0 = t.val / 8 ∧ win1_5.index t 1 = 0)

section Entry
variable (V : (c : Dev nD) → (b : Ref sig .tc) → Buf (Elt F) ((c : Thread nD τ).loc b))

/-! ## The windows' blocks read at an entry: the array's entry at the block's offset -/

/-- The anchors' block at a point of row block `ib`: rows 1024*ib .. 1024*ib + 1023. -/
theorem iblk_0_apply (c : Dev nD) (t : Fin cfg1.N) (ib : Fin 8) (hib : t.val / 8 = ib.val) (r : Fin 1024) (k : Fin 128) :
    (iblk V c 0 t : Vec F S1024x128 .f32) (ix2 r k)
      = V c main_v2 (ix2 (⟨1024 * ib.val + r.val, by omega⟩ : Fin 8192) k) := by
  unfold iblk
  rw [View.read_apply]
  show V c main_v2 _ = V c main_v2 _
  congr 1
  funext a
  apply Fin.ext
  match a with
  | ⟨0, _⟩ => show win1_0.index t 0 * 1024 + 1 * r.val = 1024 * ib.val + r.val; rw [(index_0 t).1, hib]; omega
  | ⟨1, _⟩ => show win1_0.index t 1 * 128 + 1 * k.val = k.val; rw [(index_0 t).2]; omega

/-- The positives' block at a point of column block `jb`: rows 1024*jb .. 1024*jb + 1023. -/
theorem iblk_1_apply (c : Dev nD) (t : Fin cfg1.N) (jb : Fin 8) (hjb : t.val % 8 = jb.val) (q : Fin 1024) (k : Fin 128) :
    (iblk V c 1 t : Vec F S1024x128 .f32) (ix2 q k)
      = V c main_v5 (ix2 (⟨1024 * jb.val + q.val, by omega⟩ : Fin 8192) k) := by
  unfold iblk
  rw [View.read_apply]
  show V c main_v5 _ = V c main_v5 _
  congr 1
  funext a
  apply Fin.ext
  match a with
  | ⟨0, _⟩ => show win1_1.index t 0 * 1024 + 1 * q.val = 1024 * jb.val + q.val; rw [(index_1 t).1, hjb]; omega
  | ⟨1, _⟩ => show win1_1.index t 1 * 128 + 1 * k.val = k.val; rw [(index_1 t).2]; omega

/-- The row labels' block at a point of row block `ib`. -/
theorem iblk_2_apply (c : Dev nD) (t : Fin cfg1.N) (ib : Fin 8) (hib : t.val / 8 = ib.val) (r : Fin 1024) :
    (iblk V c 2 t : Vec F S1024x1 .i32) (ix2 r (0 : Fin 1))
      = V c main_v6 (ix2 (⟨1024 * ib.val + r.val, by omega⟩ : Fin 8192) (0 : Fin 1)) := by
  unfold iblk
  rw [View.read_apply]
  show V c main_v6 _ = V c main_v6 _
  congr 1
  funext a
  apply Fin.ext
  match a with
  | ⟨0, _⟩ => show win1_2.index t 0 * 1024 + 1 * r.val = 1024 * ib.val + r.val; rw [(index_2 t).1, hib]; omega
  | ⟨1, _⟩ => show win1_2.index t 1 * 1 + 1 * 0 = 0; rw [(index_2 t).2]

/-- The column labels' block at a point of column block `jb`. -/
theorem iblk_3_apply (c : Dev nD) (t : Fin cfg1.N) (jb : Fin 8) (hjb : t.val % 8 = jb.val) (q : Fin 1024) :
    (iblk V c 3 t : Vec F S1x1024 .i32) (ix2 (0 : Fin 1) q)
      = V c main_v7 (ix2 (0 : Fin 1) (⟨1024 * jb.val + q.val, by omega⟩ : Fin 8192)) := by
  unfold iblk
  rw [View.read_apply]
  show V c main_v7 _ = V c main_v7 _
  congr 1
  funext a
  apply Fin.ext
  match a with
  | ⟨0, _⟩ => show win1_3.index t 0 * 1 + 1 * 0 = 0; rw [(index_3 t).1]
  | ⟨1, _⟩ => show win1_3.index t 1 * 1024 + 1 * q.val = 1024 * jb.val + q.val; rw [(index_3 t).2, hjb]; omega

/-- The denominators' block at a point of row block `ib`. -/
theorem iblk_4_apply (c : Dev nD) (t : Fin cfg1.N) (ib : Fin 8) (hib : t.val / 8 = ib.val) (r : Fin 1024) :
    (iblk V c 4 t : Vec F S1024x1 .f32) (ix2 r (0 : Fin 1))
      = V c main_v8_0 (ix2 (⟨1024 * ib.val + r.val, by omega⟩ : Fin 8192) (0 : Fin 1)) := by
  unfold iblk
  rw [View.read_apply]
  show V c main_v8_0 _ = V c main_v8_0 _
  congr 1
  funext a
  apply Fin.ext
  match a with
  | ⟨0, _⟩ => show win1_4.index t 0 * 1024 + 1 * r.val = 1024 * ib.val + r.val; rw [(index_4 t).1, hib]; omega
  | ⟨1, _⟩ => show win1_4.index t 1 * 1 + 1 * 0 = 0; rw [(index_4 t).2]

end Entry

section AtIdeal
variable (V : (c : Dev nD) → (b : Ref sig .tc) → Buf (Elt Ideal) ((c : Thread nD τ).loc b))

/-! ## The row sums -/

/-- Row `i`'s summand at column `j`: where the two labels agree, the logarithm of the ratio of the exponential to
    the exponential plus the row's denominator; elsewhere 0. The specification's, over the arrays at the region's entry. -/
def term (c : Dev nD) (i j : Fin 8192) : EReal :=
  if V c main_v6 (ix2 i (0 : Fin 1)) = V c main_v7 (ix2 (0 : Fin 1) j) then
    Ideal.log (Ideal.div
      (Cert.Spec.ex (fun i k => V c main_v2 (ix2 i k)) (fun j k => V c main_v5 (ix2 j k)) i j)
      (Cert.Spec.ex (fun i k => V c main_v2 (ix2 i k)) (fun j k => V c main_v5 (ix2 j k)) i j + V c main_v8_0 (ix2 i (0 : Fin 1))))
  else 0

/-- The payload at the blocks of a point of row block `ib` and column block `jb`, read at row `r` of the block: the
    accumulator's entry plus entries 1024*jb .. 1024*jb + 1023 of row 1024*ib + r's summands. -/
theorem pay_point (c : Dev nD) (t : Fin cfg1.N) (ib jb : Fin 8) (hib : t.val / 8 = ib.val) (hjb : t.val % 8 = jb.val)
    (acc : Vec Ideal S1024x1 .f32) (r : Fin 1024) :
    k1_pay2 (iblk V c 0 t) (iblk V c 1 t) (iblk V c 2 t) (iblk V c 3 t) (iblk V c 4 t) acc (ix2 r (0 : Fin 1))
      = acc (ix2 r (0 : Fin 1)) + ∑ q : Fin 1024, Cert.LibBlockFold.blk 0 (term V c ⟨1024 * ib.val + r.val, by omega⟩) jb.val q := by
  refine (Pay.k1_pay2_apply _ _ _ _ _ acc r).trans ?_
  congr 1
  refine Finset.sum_congr rfl fun q _ => ?_
  rw [Cert.LibBlockFold.blk_of_lt 0 _ jb.val q (by omega)]
  simp only [iblk_0_apply V c t ib hib, iblk_1_apply V c t jb hjb, iblk_2_apply V c t ib hib, iblk_3_apply V c t jb hjb,
    iblk_4_apply V c t ib hib]
  rfl

/-- THE RUNNING SUM. After point n = 8*ib + jb the accumulator's row `r` is the sum of the first jb + 1 column blocks of
    row 1024*ib + r's summands: by induction on the point (the first point of a row block starts from the zero block). -/
theorem chain_apply (c : Dev nD) : ∀ (n : ℕ) (h : n < cfg1.N) (ib jb : Fin 8), n / 8 = ib.val → n % 8 = jb.val → ∀ r : Fin 1024,
    chain V c n h (ix2 r (0 : Fin 1))
      = Cert.LibBlockFold.accSum 1024 (term V c ⟨1024 * ib.val + r.val, by omega⟩) (jb.val + 1)
  | 0, h, ib, jb, hib, hjb, r => by
    have hj : jb.val = 0 := by omega
    show k1_pay2 (iblk V c 0 ⟨0, h⟩) (iblk V c 1 ⟨0, h⟩) (iblk V c 2 ⟨0, h⟩) (iblk V c 3 ⟨0, h⟩) (iblk V c 4 ⟨0, h⟩) (k1_pay1 (F := Ideal)) (ix2 r (0 : Fin 1)) = _
    rw [pay_point V c ⟨0, h⟩ ib jb hib hjb, Pay.k1_pay1_apply, hj]
    rfl
  | n + 1, h, ib, jb, hib, hjb, r => by
    by_cases h0 : (n + 1) % 8 = 0
    · have hj : jb.val = 0 := by omega
      have e : chain V c (n + 1) h = k1_pay2 (iblk V c 0 ⟨n + 1, h⟩) (iblk V c 1 ⟨n + 1, h⟩) (iblk V c 2 ⟨n + 1, h⟩) (iblk V c 3 ⟨n + 1, h⟩) (iblk V c 4 ⟨n + 1, h⟩) (k1_pay1 (F := Ideal)) := if_pos h0
      rw [e, pay_point V c ⟨n + 1, h⟩ ib jb hib hjb, Pay.k1_pay1_apply, hj]
      rfl
    · have e : chain V c (n + 1) h = k1_pay2 (iblk V c 0 ⟨n + 1, h⟩) (iblk V c 1 ⟨n + 1, h⟩) (iblk V c 2 ⟨n + 1, h⟩) (iblk V c 3 ⟨n + 1, h⟩) (iblk V c 4 ⟨n + 1, h⟩) (chain V c n (Nat.lt_of_succ_lt h)) := if_neg h0
      have hjl : jb.val - 1 < 8 := by omega
      rw [e, pay_point V c ⟨n + 1, h⟩ ib jb hib hjb,
        chain_apply c n (Nat.lt_of_succ_lt h) ib ⟨jb.val - 1, hjl⟩ (by omega) (by show n % 8 = jb.val - 1; omega) r]
      have hj : jb.val - 1 + 1 = jb.val := by omega
      show Cert.LibBlockFold.accSum 1024 _ (jb.val - 1 + 1) + _ = _
      rw [hj]
      rfl

/-! ## The result array -/

/-- The result array in closed form: row `i` at the sum of the row's 8192 summands. -/
def G (c : Dev nD) : Buf (Elt Ideal) ((c : Thread nD τ).loc main_v9) :=
  fun (y : S8192x1.Idx) => ((∑ j : Fin 8192, term V c (y 0) j : EReal))

/-- The one write-back of a row block, after its last point, writes rows 1024*ib .. 1024*ib + 1023 of that. -/
theorem flushed_eq (c : Dev nD) (t : Fin cfg1.N) (hf : (cfg1.win 5).flush t = true) :
    (dat V c).flushed 5 t = ((cfg1.win 5).blk t).view.read (Elt Ideal) (G V c) := by
  have h7 : t.val % 8 = 7 := (flush1_5 t).mp hf
  have hN : t.val < 64 := lt_of_lt_of_eq t.isLt N_1
  have hib : t.val / 8 < 8 := by omega
  show (cfg1.win 5).cut (grid1.coords t) ((dat V c).after 5 t) = _
  rw [after_5, outsAt_out V c t h7]
  funext x
  obtain ⟨r, u, rfl⟩ : ∃ (r : Fin 1024) (u : Fin 1), x = ix2 r u := ⟨x 0, x 1, eq_ix2 x⟩
  obtain rfl : u = 0 := Subsingleton.elim _ _
  rw [View.read_apply]
  show chain V c t.val t.isLt (ix2 r (0 : Fin 1)) = G V c _
  rw [chain_apply V c t.val t.isLt ⟨t.val / 8, hib⟩ ⟨7, by omega⟩ rfl h7 r,
    Cert.LibBlockFold.accSum_eq_sum 1024 _ 8 (by norm_num)]
  unfold G
  refine Finset.sum_congr rfl fun j _ => congrArg (fun i => term V c i j) (Fin.ext ?_)
  show 1024 * (t.val / 8) + r.val = win1_5.index t 0 * 1024 + 1 * r.val
  rw [(index_5 t).1]; omega

/-- So the result array ends holding the closed form: every row lies in the block its row block's last point writes back. -/
theorem final (c : Dev nD) : (dat V c).arrAt 5 cfg1.N = G V c :=
  (dat V c).arrAt_eq_of_cover 5 (G V c) (flushed_eq V c) fun y => by
    have hy0 : (y 0 : Nat) < 8192 := (y 0).isLt
    have hy1 : (y 1 : Nat) < 1 := (y 1).isLt
    have ht : 8 * ((y 0 : Nat) / 1024) + 7 < cfg1.N := by rw [show cfg1.N = 64 from N_1]; omega
    refine ⟨⟨8 * ((y 0 : Nat) / 1024) + 7, ht⟩, (flush1_5 _).mpr (by show (8 * ((y 0 : Nat) / 1024) + 7) % 8 = 7; omega), ?_⟩
    show y ∈ ((View.whole main_v9).slice (win1_5.rect ⟨8 * ((y 0 : Nat) / 1024) + 7, ht⟩)).set
    rw [View.set_slice_whole, Rect.mem_set_unit]
    intro a
    match a with
    | ⟨0, _⟩ =>
      show win1_5.index ⟨8 * ((y 0 : Nat) / 1024) + 7, ht⟩ 0 * 1024 ≤ (y 0 : Nat)
        ∧ (y 0 : Nat) < win1_5.index ⟨8 * ((y 0 : Nat) / 1024) + 7, ht⟩ 0 * 1024 + 1024
      rw [(index_5 ⟨8 * ((y 0 : Nat) / 1024) + 7, ht⟩).1]
      show (8 * ((y 0 : Nat) / 1024) + 7) / 8 * 1024 ≤ (y 0 : Nat) ∧ (y 0 : Nat) < (8 * ((y 0 : Nat) / 1024) + 7) / 8 * 1024 + 1024
      omega
    | ⟨1, _⟩ =>
      show win1_5.index ⟨8 * ((y 0 : Nat) / 1024) + 7, ht⟩ 1 * 1 ≤ (y 1 : Nat)
        ∧ (y 1 : Nat) < win1_5.index ⟨8 * ((y 0 : Nat) / 1024) + 7, ht⟩ 1 * 1 + 1
      rw [(index_5 ⟨8 * ((y 0 : Nat) / 1024) + 7, ht⟩).2]
      omega

/-- THE VALUE of region 1: row `i` of its result array is the specification's log-ratio sum of row `i` over the arrays the
    region finds (anchors, positives, the two label arrays, the first pass's denominators). -/
theorem sms_final (c : Dev nD) (i : Fin 8192) :
    (dat (F := Ideal) V c).arrAt 5 cfg1.N (ix2 i (0 : Fin 1))
      = Cert.Spec.sms2 (fun i k => V c main_v2 (ix2 i k)) (fun j k => V c main_v5 (ix2 j k))
          (fun i => V c main_v6 (ix2 i (0 : Fin 1))) (fun j => V c main_v7 (ix2 (0 : Fin 1) j))
          (fun i => V c main_v8_0 (ix2 i (0 : Fin 1))) i := by
  rw [final V c]
  rfl

end AtIdeal

end Cert.KernelIdeal.R1

end
-- ==== Proof.LibSqueezeColumn.lean ====
/-
  A column read as a vector: an \`[a, 1]\` array cast to \`[a]\` reads, at \`i\`, the column at \`(i, 0)\`. (The row form,
  \`[1, a] → [a]\`, is in the library's layout file; this is its transpose, proved the same way.) General: nothing here
  mentions a program.
-/
import Idealize.ShloMosaic.Lib.Pipeline.Value
import Idealize.ShloMosaic.Lib.ValueIdx

namespace Cert.LibSqueezeColumn

open Idealize.ShloMosaic Idealize.ShloMosaic.ValueIdx

variable {α : Type}

/-- An \`[a, 1]\` array cast to \`[a]\` reads, at \`i\`, the operand at \`(i, 0)\`: the row-major positions agree,
    \`i · 1 + 0 = i\`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibSqueezeColumn
-- ==== Proof.KIHost.lean ====
import proofs.«105148_j76553497084189_1_alg».proof.Proof.Gen.KernelIdeal.Launch
import proofs.«105148_j76553497084189_1_alg».proof.Proof.Spec2
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import proofs.«105148_j76553497084189_1_alg».proof.Proof.LibKeepdims
import proofs.«105148_j76553497084189_1_alg».proof.Proof.LibSqueezeColumn

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx

/-!
What the host operations around the two kernels compute, read off the fold of their results: before the kernels each
feature array divided row by row by its euclidean norm and the labels reshaped to a column and to a row; after them the
sum over the rows of (−1 / count) · (log-ratio sum).
-/

variable (W : Valuation τ sig (Elt Ideal))

/-- A feature array with every row divided by the square root of the sum of its squares, as the host operations spell it. -/
def nrmArr (x : (⟨S8192x128, .f32⟩ : BufTy).Contents (Elt Ideal)) : (⟨S8192x128, .f32⟩ : BufTy).Contents (Elt Ideal) :=
  Host.divf (F := Ideal) x (broadcastInDim S8192x128 ![0, 1] bcast_S8192x1_S8192x128_0_1
    (Host.sqrt (F := Ideal) (broadcastInDim S8192x1 ![0] bcast_S8192_S8192x1_0
      (Host.reduceAdd (F := Ideal) (mulf x x) (constant (F := Ideal) S_ .f32 0x00000000#32) reducesTo_S8192x128_S8192_d1 h_S_))))

/-- The buffers after the four stretches of host operations before the first kernel. -/
abbrev pre : Valuation τ sig (Elt Ideal) :=
  StableHlo.after hostOps0_3 (StableHlo.after hostOps0_2 (StableHlo.after hostOps0_1 (StableHlo.after hostOps0 W)))

theorem pre_v2 : pre W (Proc.devRef .tc main_v2) = nrmArr (W (Proc.devRef .tc main_arg0)) := by
  after_results; rfl
theorem pre_v5 : pre W (Proc.devRef .tc main_v5) = nrmArr (W (Proc.devRef .tc main_arg1)) := by
  after_results; rfl
theorem pre_v6 : pre W (Proc.devRef .tc main_v6)
    = shapeCast S8192x1 (W (Proc.devRef .tc main_arg2) : (⟨S8192, .i32⟩ : BufTy).Contents (Elt Ideal)) shapeCasts_S8192_S8192x1 := by
  after_results; rfl
theorem pre_v7 : pre W (Proc.devRef .tc main_v7)
    = shapeCast S1x8192 (W (Proc.devRef .tc main_arg2) : (⟨S8192, .i32⟩ : BufTy).Contents (Elt Ideal)) shapeCasts_S8192_S1x8192 := by
  after_results; rfl

/-- The host operations after the kernels, as one function of the count vector and the log-ratio-sum vector:
    the sum over the rows of (−1 / count) · sum. -/
def tailK (u v : (⟨S8192, .f32⟩ : BufTy).Contents (Elt Ideal)) : (⟨S_, .f32⟩ : BufTy).Contents (Elt Ideal) :=
  Host.reduceAdd (F := Ideal) (mulf (Host.divf (F := Ideal) (broadcastInDim S8192 ![] bcast_S_S8192 (constant (F := Ideal) S_ .f32 0xBF800000#32)) u) v)
    (constant (F := Ideal) S_ .f32 0x00000000#32) reducesTo_S8192_S_d0 h_S_

theorem tail_eq : StableHlo.after hostOps2 W (Proc.devRef .tc main_v15)
    = tailK (shapeCast S8192 (W (Proc.devRef .tc main_v8_1) : (⟨S8192x1, .f32⟩ : BufTy).Contents (Elt Ideal)) shapeCasts_S8192x1_S8192)
        (shapeCast S8192 (W (Proc.devRef .tc main_v9) : (⟨S8192x1, .f32⟩ : BufTy).Contents (Elt Ideal)) shapeCasts_S8192x1_S8192) := by
  after_results; rfl

/-- The reshaped labels read at an index: the column at row `i` and the row at column `j` are the label `i`, `j`. -/
theorem col_apply (x : (⟨S8192, .i32⟩ : BufTy).Contents (Elt Ideal)) (i : Fin 8192) :
    shapeCast S8192x1 x shapeCasts_S8192_S8192x1 (ix2 i (0 : Fin 1)) = x (ix1 i) :=
  Cert.Keepdims.shapeCast_a_a1_apply x shapeCasts_S8192_S8192x1 i 0
theorem row_apply (x : (⟨S8192, .i32⟩ : BufTy).Contents (Elt Ideal)) (j : Fin 8192) :
    shapeCast S1x8192 x shapeCasts_S8192_S1x8192 (ix2 (0 : Fin 1) j) = x (ix1 j) :=
  shapeCast_a_1a_apply x shapeCasts_S8192_S1x8192 _ j
theorem squeeze_apply (x : (⟨S8192x1, .f32⟩ : BufTy).Contents (Elt Ideal)) (i : Fin 8192) :
    shapeCast S8192 x shapeCasts_S8192x1_S8192 (ix1 i) = x (ix2 i (0 : Fin 1)) :=
  Cert.LibSqueezeColumn.shapeCast_a1_a_apply x shapeCasts_S8192x1_S8192 i

end Cert.KernelIdeal.HostValue

end
-- ==== Proof.RefA.lean ====
import proofs.«105148_j76553497084189_1_alg».proof.Proof.Spec
import proofs.«105148_j76553497084189_1_alg».proof.Proof.Gen.ReferenceIdeal.Read

noncomputable section

open scoped BigOperators

namespace Cert.RefSide

open Idealize.ShloMosaic Idealize.ShloMosaic.ValueIdx Cert.ReferenceIdeal Cert.ReferenceIdeal.Read

/-- The first argument's rows over their euclidean norms. -/
theorem v7_eq (x0 : (⟨S8192x128, .f32⟩ : BufTy).Contents (Elt Ideal)) (i : Fin 8192) (k : Fin 128) :
    val_main_v7 (F := Ideal) x0 (ix2 i k) = Spec.nrmRow (fun i k => x0 (ix2 i k)) i k := by
  rw [val_main_v7_apply, val_main_v6_apply, val_main_v5_apply, val_main_call0_v2_apply,
    val_main_call0_v1_apply, val_main_call0_cst_apply]
  have e : ∀ k' : Fin 128,
      idx_main_call0_v1 (idx_main_call0_v2 (idx_main_v6 (ix2 i k))) k' = ix2 i k' := fun k' =>
    funext fun a => Fin.ext (by match a with | ⟨0, _⟩ => rfl | ⟨1, _⟩ => rfl)
  simp only [e, val_main_call0_v0_apply, Ideal.hostDivf_def, Ideal.hostUnary_sqrt_def, Ideal.mulf_def,
    Ideal.ofBits_def, Ideal.ofBits_zero_f32, zero_add]
  rfl

/-- The second argument's rows over their euclidean norms. -/
theorem v10_eq (x1 : (⟨S8192x128, .f32⟩ : BufTy).Contents (Elt Ideal)) (i : Fin 8192) (k : Fin 128) :
    val_main_v10 (F := Ideal) x1 (ix2 i k) = Spec.nrmRow (fun i k => x1 (ix2 i k)) i k := by
  rw [val_main_v10_apply, val_main_v9_apply, val_main_v8_apply, val_main_call1_v2_apply,
    val_main_call1_v1_apply, val_main_call1_cst_apply]
  have e : ∀ k' : Fin 128,
      idx_main_call1_v1 (idx_main_call1_v2 (idx_main_v9 (ix2 i k))) k' = ix2 i k' := fun k' =>
    funext fun a => Fin.ext (by match a with | ⟨0, _⟩ => rfl | ⟨1, _⟩ => rfl)
  simp only [e, val_main_call1_v0_apply, Ideal.hostDivf_def, Ideal.hostUnary_sqrt_def, Ideal.mulf_def,
    Ideal.ofBits_def, Ideal.ofBits_zero_f32, zero_add]
  rfl

/-- The product of the normalised arrays, the second transposed: the inner products of their rows. -/
theorem v12_eq (x0 x1 : (⟨S8192x128, .f32⟩ : BufTy).Contents (Elt Ideal)) (i j : Fin 8192) :
    val_main_v12 (F := Ideal) x0 x1 (ix2 i j)
      = Spec.sim (Spec.nrmRow fun i k => x0 (ix2 i k)) (Spec.nrmRow fun i k => x1 (ix2 i k)) i j := by
  rw [val_main_v12_apply]
  unfold Spec.sim
  refine Finset.sum_congr rfl fun k _ => ?_
  have el : lidx_main_v12 (ix2 i j) k = ix2 i k :=
    funext fun a => Fin.ext (by match a with | ⟨0, _⟩ => rfl | ⟨1, _⟩ => rfl)
  have er : idx_main_v11 (ridx_main_v12 (ix2 i j) k) = ix2 j k :=
    funext fun a => Fin.ext (by match a with | ⟨0, _⟩ => rfl | ⟨1, _⟩ => rfl)
  rw [val_main_v11_apply, el, er, v7_eq, v10_eq]

/-- The exponential of the inner products over the temperature. -/
theorem v15_eq (x0 x1 : (⟨S8192x128, .f32⟩ : BufTy).Contents (Elt Ideal)) (i j : Fin 8192) :
    val_main_v15 (F := Ideal) x0 x1 (ix2 i j)
      = Spec.ex (Spec.nrmRow fun i k => x0 (ix2 i k)) (Spec.nrmRow fun i k => x1 (ix2 i k)) i j := by
  rw [val_main_v15_apply, val_main_v14_apply, val_main_v13_apply, val_main_cst_apply, v12_eq]
  simp only [Ideal.hostUnary_exp_def, Ideal.hostDivf_def, Ideal.ofBits_def]
  rfl

/-- The label mask: the bit 1 where the two labels are the same word. -/
theorem v4_eq (x2 : (⟨S8192, .i32⟩ : BufTy).Contents (Elt Ideal)) (i j : Fin 8192) :
    val_main_v4 (F := Ideal) x2 (ix2 i j) = if x2 (ix1 i) = x2 (ix1 j) then 1#1 else 0#1 := by
  rw [val_main_v4_apply, val_main_v2_apply, val_main_v0_apply, val_main_v3_apply, val_main_v1_apply]
  have e0 : idx_main_v0 (idx_main_v2 (ix2 i j)) = ix1 i :=
    funext fun a => Fin.ext (by match a with | ⟨0, _⟩ => rfl)
  have e1 : idx_main_v1 (idx_main_v3 (ix2 i j)) = ix1 j :=
    funext fun a => Fin.ext (by match a with | ⟨0, _⟩ => rfl)
  rw [e0, e1]
  unfold IntOp.cmpi
  by_cases h : x2 (ix1 i) = x2 (ix1 j)
  · rw [if_pos h]; simp [h]
  · rw [if_neg h, show (x2 (ix1 i) == x2 (ix1 j)) = false from beq_false_of_ne h]; rfl

end Cert.RefSide

end
-- ==== Proof.LibBitCount.lean ====
/-
  Counting the ones of a mask in 32-bit integers and in the extended reals.

  For a mask m : Fin n → BitVec 1, each bit widened to 32 bits is the word 1 or 0. Their 32-bit sum does not wrap
  while n < 2³², so its value is the number of j with m j = 1; while n < 2³¹ that value is also its signed value,
  so the signed test "sum > 1" says that the mask has more than one 1. The same bits read as real numbers (1 or 0)
  and summed in the extended reals give the same count, so the ordered test "sum > 1" against the f32 word of 1
  gives the same answer bit.
-/
import Mathlib.Data.EReal.Basic
import Mathlib.Algebra.BigOperators.Fin
import Mathlib.Tactic
import Mathlib.Data.BitVec
import Idealize.ShloMosaic.PureOps.Ideal
import Idealize.ShloMosaic.PureOps.Reduce
import Idealize.ShloMosaic.Lib.IdealHost

namespace Cert.LibBitCount

open Idealize.ShloMosaic Finset

variable {n : ℕ}

/-- The number of ones of the mask. -/
def ones (m : Fin n → BitVec 1) : ℕ := (univ.filter fun j => m j = 1#1).card

/-- A mask over n positions has at most n ones. -/
theorem ones_le (m : Fin n → BitVec 1) : ones m ≤ n := by
  unfold ones
  exact (card_le_univ _).trans (by simp)

/-- A bit widened to 32 bits has the unsigned value 1 or 0. -/
theorem toNat_setWidth_bit (b : BitVec 1) : (b.setWidth 32).toNat = if b = 1#1 then 1 else 0 := by
  revert b; decide

/-- A bit widened to 32 bits has the signed value 1 or 0. -/
theorem toInt_setWidth_bit (b : BitVec 1) : (b.setWidth 32).toInt = if b = 1#1 then 1 else 0 := by
  revert b; decide

/-- The 32-bit sum of any family of words has, as unsigned value, the sum of their unsigned values modulo 2³². -/
theorem toNat_fold_addi {ι : Type*} (s : Finset ι) (g : ι → BitVec 32) :
    (s.fold IntOp.addi 0#32 g).toNat = (∑ j ∈ s, (g j).toNat) % 2 ^ 32 := by
  classical
  induction s using Finset.induction_on with
  | empty => simp
  | insert a s ha ih =>
    rw [fold_insert ha, sum_insert ha, IntOp.addi, BitVec.toNat_add, ih, Nat.add_mod_mod]

/-- The unsigned values of the widened bits add up to the number of ones. -/
theorem sum_toNat_bits (m : Fin n → BitVec 1) : ∑ j, ((m j).setWidth 32).toNat = ones m := by
  simp only [toNat_setWidth_bit, ones, sum_boole, Nat.cast_id]

/-- No wrap: the 32-bit sum of the widened bits of a mask over fewer than 2³² positions is the number of ones. -/
theorem toNat_fold_bits (m : Fin n → BitVec 1) (g : Fin n → BitVec 32) (hg : ∀ j, g j = (m j).setWidth 32)
    (hn : n < 2 ^ 32) : (univ.fold IntOp.addi 0#32 g).toNat = ones m := by
  rw [toNat_fold_addi, sum_congr rfl fun j _ => congrArg BitVec.toNat (hg j), sum_toNat_bits]
  exact Nat.mod_eq_of_lt (lt_of_le_of_lt (ones_le m) hn)

/-- Over fewer than 2³¹ positions the signed value of that sum is the number of ones too. -/
theorem toInt_fold_bits (m : Fin n → BitVec 1) (g : Fin n → BitVec 32) (hg : ∀ j, g j = (m j).setWidth 32)
    (hn : n < 2 ^ 31) : (univ.fold IntOp.addi 0#32 g).toInt = (ones m : ℤ) := by
  have h1 := toNat_fold_bits m g hg (by omega)
  have h2 := ones_le m
  rw [BitVec.toInt_eq_toNat_of_lt (by omega), h1]

/-- The signed test "sum of the widened bits > 1" answers whether the mask has more than one 1. -/
theorem cmpi_sgt_fold_bits (m : Fin n → BitVec 1) (g : Fin n → BitVec 32) (hg : ∀ j, g j = (m j).setWidth 32)
    (hn : n < 2 ^ 31) :
    IntOp.cmpi .sgt (univ.fold IntOp.addi 0#32 g) 1#32 = BitVec.ofBool (decide (1 < ones m)) := by
  have h := toInt_fold_bits m g hg hn
  simp only [IntOp.cmpi, BitVec.slt, h]
  congr 1
  simp

/-- The same as an equivalence. -/
theorem cmpi_sgt_fold_bits_eq_one_iff (m : Fin n → BitVec 1) (g : Fin n → BitVec 32)
    (hg : ∀ j, g j = (m j).setWidth 32) (hn : n < 2 ^ 31) :
    IntOp.cmpi .sgt (univ.fold IntOp.addi 0#32 g) 1#32 = 1#1 ↔ 1 < ones m := by
  rw [cmpi_sgt_fold_bits m g hg hn]
  by_cases h : 1 < ones m <;> simp [h]

/-- A finite sum of real numbers, taken in the extended reals, is the real sum. -/
theorem ereal_coe_sum {ι : Type*} (s : Finset ι) (x : ι → ℝ) : ∑ j ∈ s, ((x j : ℝ) : EReal) = ((∑ j ∈ s, x j : ℝ) : EReal) := by
  classical
  induction s using Finset.induction_on with
  | empty => simp
  | insert a s ha ih => rw [sum_insert ha, sum_insert ha, ih, EReal.coe_add]

/-- The widened bits read as real numbers and summed in the extended reals give the number of ones. -/
theorem sum_bits_ereal (m : Fin n → BitVec 1) :
    ∑ j : Fin n, ((((m j).setWidth 32).toInt : ℝ) : EReal) = (((ones m : ℕ) : ℝ) : EReal) := by
  rw [ereal_coe_sum]
  congr 1
  simp only [toInt_setWidth_bit, ones]
  push_cast
  rw [sum_boole]

/-- In the extended reals, "sum of the bits > 1" says that the mask has more than one 1. -/
theorem one_lt_sum_bits_ereal_iff (m : Fin n → BitVec 1) :
    (∑ j : Fin n, ((((m j).setWidth 32).toInt : ℝ) : EReal)) > 1 ↔ 1 < ones m := by
  rw [sum_bits_ereal, gt_iff_lt, show (1 : EReal) = ((1 : ℝ) : EReal) by norm_cast, EReal.coe_lt_coe_iff]
  exact Nat.one_lt_cast

/-- The ordered test "sum of the bits > the f32 word of 1" answers whether the mask has more than one 1. -/
theorem cmp_ogt_sum_bits (m : Fin n → BitVec 1) :
    Ideal.cmp .ogt (∑ j : Fin n, ((((m j).setWidth 32).toInt : ℝ) : EReal)) (Ideal.ofBits .f32 0x3F800000#32)
      = BitVec.ofBool (decide (1 < ones m)) := by
  rw [Ideal.ofBits_one_f32]
  simp only [Ideal.cmp]
  congr 1
  exact decide_eq_decide.2 (one_lt_sum_bits_ereal_iff m)

/-- The two tests agree: the signed 32-bit "count > 1" and the extended-real "count > 1" are the same bit. -/
theorem cmpi_sgt_fold_bits_eq_cmp_ogt (m : Fin n → BitVec 1) (g : Fin n → BitVec 32)
    (hg : ∀ j, g j = (m j).setWidth 32) (hn : n < 2 ^ 31) :
    IntOp.cmpi .sgt (univ.fold IntOp.addi 0#32 g) 1#32
      = Ideal.cmp .ogt (∑ j : Fin n, ((((m j).setWidth 32).toInt : ℝ) : EReal)) (Ideal.ofBits .f32 0x3F800000#32) := by
  rw [cmpi_sgt_fold_bits m g hg hn, cmp_ogt_sum_bits]

/-! ### The same sum written as a left fold over the positions in order, and as a sum in the ring of 32-bit words -/

/-- A left fold of 32-bit additions from z has, as unsigned value, z's plus the sum of the words' unsigned values,
    modulo 2³². -/
theorem toNat_foldl_addi {ι : Type*} (l : List ι) (g : ι → BitVec 32) (z : BitVec 32) :
    (l.foldl (fun r j => IntOp.addi r (g j)) z).toNat = (z.toNat + (l.map fun j => (g j).toNat).sum) % 2 ^ 32 := by
  induction l generalizing z with
  | nil => simpa using (Nat.mod_eq_of_lt z.isLt).symm
  | cons a l ih =>
    rw [List.foldl_cons, ih, IntOp.addi, BitVec.toNat_add, List.map_cons, List.sum_cons, Nat.mod_add_mod, add_assoc]

/-- The left fold over the positions 0, 1, …, n − 1 in order is the fold over the set of all positions. -/
theorem foldl_finRange_addi_eq_fold (g : Fin n → BitVec 32) :
    (List.finRange n).foldl (fun r j => IntOp.addi r (g j)) 0#32 = univ.fold IntOp.addi 0#32 g := by
  apply BitVec.eq_of_toNat_eq
  rw [toNat_foldl_addi, toNat_fold_addi, Fin.sum_univ_def]
  simp

/-- The sum in the ring of 32-bit words is the same fold. -/
theorem sum_eq_fold_addi {ι : Type*} (s : Finset ι) (g : ι → BitVec 32) : ∑ j ∈ s, g j = s.fold IntOp.addi 0#32 g := by
  classical
  induction s using Finset.induction_on with
  | empty => rfl
  | insert a s ha ih => rw [sum_insert ha, fold_insert ha, ih]; rfl

/-! ### The count as a reduction of a mask array along one axis -/

/-- A widened mask array summed along one axis by 32-bit addition from 0 and tested "> 1" (signed) gives, at each
    result index j, the same bit as the extended-real test "> the f32 word of 1" on the sum of the mask's bits along
    that axis over j. The axis is shorter than 2³¹. -/
theorem cmpi_sgt_hostReduce_eq_cmp_ogt {s t u : Shape} {a : Fin s.rank} (mask : s.Idx → BitVec 1)
    (x : s.Idx → BitVec 32) (hx : ∀ i, x i = (mask i).setWidth 32) (init : u.Idx → BitVec 32)
    (h' : s.ReducesTo [a] t) (h : s.Reduces [a] t) (hu : 0 < u.numel)
    (hinit : init (Shape.Idx.first hu) = 0#32) (hn : s.size a < 2 ^ 31) (j : t.Idx) :
    IntOp.cmpi .sgt (Host.reduce IntOp.addi x init h' hu j) 1#32
      = Ideal.cmp .ogt (∑ k : Fin (s.size a), ((((mask (h.lift j k)).setWidth 32).toInt : ℝ) : EReal))
          (Ideal.ofBits .f32 0x3F800000#32) := by
  rw [Host.reduce_eq_fold_single IntOp.addi x init h' h hu j, hinit]
  exact cmpi_sgt_fold_bits_eq_cmp_ogt (fun k => mask (h.lift j k)) _ (fun k => hx _) hn

end Cert.LibBitCount
-- ==== Proof.RefCnt.lean ====
import proofs.«105148_j76553497084189_1_alg».proof.Proof.RefA
import proofs.«105148_j76553497084189_1_alg».proof.Proof.LibBitCount

noncomputable section

open scoped BigOperators

namespace Cert.RefSide

open Idealize.ShloMosaic Idealize.ShloMosaic.ValueIdx Cert.ReferenceIdeal Cert.ReferenceIdeal.Read

/-- A sum of ones over the positions with a property, taken in the extended reals, is their number. -/
theorem sum_ite_one (p : Fin 8192 → Prop) [DecidablePred p] :
    (∑ j : Fin 8192, if p j then (1 : EReal) else 0) = (((Finset.univ.filter p).card : ℝ) : EReal) := by
  have e : ∀ j : Fin 8192, (if p j then (1 : EReal) else 0) = (((if p j then 1 else 0 : ℝ)) : EReal) := fun j => by
    by_cases h : p j
    · rw [if_pos h, if_pos h, EReal.coe_one]
    · rw [if_neg h, if_neg h, EReal.coe_zero]
  rw [Finset.sum_congr rfl fun j _ => e j, LibBitCount.ereal_coe_sum, Finset.sum_boole]

/-- The 32-bit count of the labels equal to row i's, converted to a float: the sum of ones. -/
theorem v29_eq (x2 : (⟨S8192, .i32⟩ : BufTy).Contents (Elt Ideal)) (i : Fin 8192) :
    val_main_v29 (F := Ideal) x2 (ix1 i) = Spec.cnt (fun i => x2 (ix1 i)) i := by
  rw [val_main_v29_apply]
  show (((val_main_v28 (F := Ideal) x2 (ix1 i)).toInt : ℝ) : EReal) = _
  have hR : S8192x8192.Reduces [1] S8192 := by decide
  unfold val_main_v28
  rw [Host.reduce_eq_fold_single IntOp.addi _ _ _ hR _ (ix1 i)]
  have hl : ∀ k : Fin 8192, hR.lift (ix1 i) k = ix2 i k := fun k =>
    funext fun a => Fin.ext (by match a with | ⟨0, _⟩ => rfl | ⟨1, _⟩ => rfl)
  have hc : val_main_c (F := Ideal) (Shape.Idx.first Facts₀.h_S_) = 0#32 := rfl
  rw [hc]
  refine (congrArg (fun z : ℤ => ((z : ℝ) : EReal)) (LibBitCount.toInt_fold_bits (n := 8192)
    (fun k : Fin 8192 => val_main_v4 (F := Ideal) x2 (ix2 i k)) (val_main_v27 (F := Ideal) x2 ∘ hR.lift (ix1 i))
    (fun k => by
      show val_main_v27 (F := Ideal) x2 (hR.lift (ix1 i) k) = _
      rw [hl, val_main_v27_apply]) (by norm_num))).trans ?_
  unfold Spec.cnt LibBitCount.ones
  rw [sum_ite_one]
  show (((_ : ℤ) : ℝ) : EReal) = _
  rw [Int.cast_natCast]
  congr 3
  refine Finset.filter_congr fun k _ => ?_
  show val_main_v4 (F := Ideal) x2 (ix2 i k) = 1#1 ↔ x2 (ix1 i) = x2 (ix1 k)
  rw [v4_eq]
  by_cases h : x2 (ix1 i) = x2 (ix1 k)
  · simp [h]
  · simp [h]

end Cert.RefSide

end
-- ==== Proof.RefSide.lean ====
import proofs.«105148_j76553497084189_1_alg».proof.Proof.RefA
import proofs.«105148_j76553497084189_1_alg».proof.Proof.RefCnt

noncomputable section

open scoped BigOperators

namespace Cert.RefSide

open Idealize.ShloMosaic Idealize.ShloMosaic.ValueIdx Cert.ReferenceIdeal Cert.ReferenceIdeal.Read

/-- A one-bit word converted unsigned to a float is the real number of its value. -/
theorem uitofp_bit (b : BitVec 1) : FloatOps.uitofp (F := Ideal) .f32 b = ((b.toNat : ℝ) : EReal) := rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The row sums of the exponentials over the columns with another label: a product with the negated mask read as
    0 or 1 keeps or drops each term, whatever the term. -/
theorem v19_eq (x0 x1 : (⟨S8192x128, .f32⟩ : BufTy).Contents (Elt Ideal)) (x2 : (⟨S8192, .i32⟩ : BufTy).Contents (Elt Ideal)) (i : Fin 8192) :
    val_main_v19 (F := Ideal) x0 x1 x2 (ix1 i) = Spec.denom (Spec.nrmRow fun i k => x0 (ix2 i k)) (Spec.nrmRow fun i k => x1 (ix2 i k)) (fun i => x2 (ix1 i)) i := by
  rw [val_main_v19_apply, val_main_cst_0_apply, Ideal.ofBits_def, Ideal.ofBits_zero_f32, zero_add]
  unfold Spec.denom
  refine Finset.sum_congr rfl fun j _ => ?_
  have e : idx_main_v19 (ix1 i) j = ix2 i j :=
    funext fun a => Fin.ext (by match a with | ⟨0, _⟩ => rfl | ⟨1, _⟩ => rfl)
  rw [e, val_main_v18_apply, val_main_v17_apply, val_main_v16_apply, v4_eq, v15_eq, Ideal.mulf_def, uitofp_bit]
  by_cases h : x2 (ix1 i) = x2 (ix1 j)
  · rw [if_pos h, if_pos h, show (~~~(1#1 : BitVec 1)).toNat = 0 from by decide, Nat.cast_zero, EReal.coe_zero,
      mul_zero]
  · rw [if_neg h, if_neg h, show (~~~(0#1 : BitVec 1)).toNat = 1 from by decide, Nat.cast_one, EReal.coe_one,
      mul_one]

/-- The row sums of the logarithms of the ratios over the columns with the same label. -/
theorem v26_eq (x0 x1 : (⟨S8192x128, .f32⟩ : BufTy).Contents (Elt Ideal)) (x2 : (⟨S8192, .i32⟩ : BufTy).Contents (Elt Ideal)) (i : Fin 8192) :
    val_main_v26 (F := Ideal) x0 x1 x2 (ix1 i) = Spec.sms (Spec.nrmRow fun i k => x0 (ix2 i k)) (Spec.nrmRow fun i k => x1 (ix2 i k)) (fun i => x2 (ix1 i)) i := by
  rw [val_main_v26_apply, val_main_cst_2_apply, Ideal.ofBits_def, Ideal.ofBits_zero_f32, zero_add]
  unfold Spec.sms
  refine Finset.sum_congr rfl fun j _ => ?_
  have e : idx_main_v26 (ix1 i) j = ix2 i j :=
    funext fun a => Fin.ext (by match a with | ⟨0, _⟩ => rfl | ⟨1, _⟩ => rfl)
  have e2 : idx_main_v20 (idx_main_v21 (ix2 i j)) = ix1 i :=
    funext fun a => Fin.ext (by match a with | ⟨0, _⟩ => rfl)
  rw [e, val_main_v25_apply, val_main_call2_v1_apply, val_main_call2_v0_apply, val_main_cst_1_apply,
    val_main_v24_apply, val_main_v23_apply, val_main_v22_apply, val_main_v21_apply, val_main_v20_apply, e2,
    v19_eq, v15_eq, v4_eq]
  simp only [Ideal.hostUnary_log_def, Ideal.hostDivf_def, Ideal.addf_def, Ideal.ofBits_def, Ideal.ofBits_zero_f32]
  by_cases h : x2 (ix1 i) = x2 (ix1 j)
  · rw [if_pos h, if_pos h, select_one]
  · rw [if_neg h, if_neg h, select_zero]

/-- The reference's result is the loss of the normalised rows and the labels. -/
theorem ref_eq (x0 x1 : (⟨S8192x128, .f32⟩ : BufTy).Contents (Elt Ideal)) (x2 : (⟨S8192, .i32⟩ : BufTy).Contents (Elt Ideal)) :
    val_main_v33 (F := Ideal) x0 x1 x2 = fun _ => Spec.loss (Spec.nrmRow fun i k => x0 (ix2 i k)) (Spec.nrmRow fun i k => x1 (ix2 i k)) (fun i => x2 (ix1 i)) := by
  funext idx
  rw [val_main_v33_apply, val_main_cst_4_apply, Ideal.ofBits_def, Ideal.ofBits_zero_f32, zero_add, sum_idx1]
  unfold Spec.loss
  refine Finset.sum_congr rfl fun i _ => ?_
  rw [val_main_v32_apply, val_main_v31_apply, val_main_v30_apply, val_main_cst_3_apply, v29_eq, v26_eq,
    Ideal.mulf_def, Ideal.hostDivf_def, Ideal.ofBits_def]

/-- The normalised rows of the first argument (the statement of `v7_eq`). -/
theorem ref_nrm (x0 : (⟨S8192x128, .f32⟩ : BufTy).Contents (Elt Ideal)) (i : Fin 8192) (k : Fin 128) :
    val_main_v7 (F := Ideal) x0 (ix2 i k) = Spec.nrmRow (fun i k => x0 (ix2 i k)) i k := v7_eq x0 i k

/-- The normalised rows of the second argument (the statement of `v10_eq`). -/
theorem ref_nrm_pos (x1 : (⟨S8192x128, .f32⟩ : BufTy).Contents (Elt Ideal)) (i : Fin 8192) (k : Fin 128) :
    val_main_v10 (F := Ideal) x1 (ix2 i k) = Spec.nrmRow (fun i k => x1 (ix2 i k)) i k := v10_eq x1 i k

/-- The per-row count (the statement of `v29_eq`). -/
theorem ref_cnt (x2 : (⟨S8192, .i32⟩ : BufTy).Contents (Elt Ideal)) (i : Fin 8192) :
    val_main_v29 (F := Ideal) x2 (ix1 i) = Spec.cnt (fun i => x2 (ix1 i)) i := v29_eq x2 i

/-- The per-row masked sum of logarithms (the statement of `v26_eq`). -/
theorem ref_sms (x0 x1 : (⟨S8192x128, .f32⟩ : BufTy).Contents (Elt Ideal)) (x2 : (⟨S8192, .i32⟩ : BufTy).Contents (Elt Ideal)) (i : Fin 8192) :
    val_main_v26 (F := Ideal) x0 x1 x2 (ix1 i) = Spec.sms (Spec.nrmRow fun i k => x0 (ix2 i k)) (Spec.nrmRow fun i k => x1 (ix2 i k)) (fun i => x2 (ix1 i)) i := v26_eq x0 x1 x2 i

end Cert.RefSide

end
-- ==== Proof.KIBridge.lean ====
import proofs.«105148_j76553497084189_1_alg».proof.Proof.FrameKI.Main
import proofs.«105148_j76553497084189_1_alg».proof.Proof.FrameKI.R0Value
import proofs.«105148_j76553497084189_1_alg».proof.Proof.FrameKI.R1ValueSum
import proofs.«105148_j76553497084189_1_alg».proof.Proof.KIHost
import proofs.«105148_j76553497084189_1_alg».proof.Proof.RefSide

/-!
The idealized kernel program's result is the reference's.

Both programs end with the same host operations — the sum over the rows of (−1 / count) · (log-ratio sum) — applied to a
count vector and a log-ratio-sum vector, so it is enough that those two vectors agree row by row. On the kernel side the
count is the second output of the first tiled pass, the log-ratio sum the output of the second pass, which reads the first
pass's masked sum of exponentials as its per-row denominator; each pass accumulates its row sums over the eight column
blocks, and a sum over 8192 columns taken 1024 at a time is the whole sum. On the reference side the same three row
functions are read off its operations one at a time. Both sides divide the feature rows by their norms with the same host
operations, and the row and column label arrays are the one label vector reshaped.
-/

noncomputable section

namespace Cert.KernelIdeal.Bridge

open Cert.KernelIdeal Cert.KernelIdeal.Gen Cert.KernelIdeal.Run Cert.KernelIdeal.HostValue
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (c : Dev nD)

/-- The three argument arrays on core `c`. -/
abbrev a0 : (⟨S8192x128, .f32⟩ : BufTy).Contents (Elt Ideal) := m ((c : Thread nD τ).loc main_arg0)
abbrev a1 : (⟨S8192x128, .f32⟩ : BufTy).Contents (Elt Ideal) := m ((c : Thread nD τ).loc main_arg1)
abbrev a2 : (⟨S8192, .i32⟩ : BufTy).Contents (Elt Ideal) := m ((c : Thread nD τ).loc main_arg2)

/-! ## What the first kernel is entered with -/

theorem V4_v2 : Run.V4 m c main_v2 = nrmArr (a0 m c) := pre_v2 (W0 m c)
theorem V4_v5 : Run.V4 m c main_v5 = nrmArr (a1 m c) := pre_v5 (W0 m c)
theorem V4_v6 : Run.V4 m c main_v6 = shapeCast S8192x1 (a2 m c) shapeCasts_S8192_S8192x1 := pre_v6 (W0 m c)
theorem V4_v7 : Run.V4 m c main_v7 = shapeCast S1x8192 (a2 m c) shapeCasts_S8192_S1x8192 := pre_v7 (W0 m c)

/-- The normalised anchors at a row and a column, as the specification's row normalisation of the argument. -/
theorem V4_v2_apply (i : Fin 8192) (k : Fin 128) :
    Run.V4 m c main_v2 (ix2 i k) = Cert.Spec.nrmRow (fun i k => a0 m c (ix2 i k)) i k := by
  rw [V4_v2]; exact Cert.RefSide.ref_nrm (a0 m c) i k
theorem V4_v5_apply (i : Fin 8192) (k : Fin 128) :
    Run.V4 m c main_v5 (ix2 i k) = Cert.Spec.nrmRow (fun i k => a1 m c (ix2 i k)) i k := by
  rw [V4_v5]; exact Cert.RefSide.ref_nrm (a1 m c) i k
theorem V4_v6_apply (i : Fin 8192) : Run.V4 m c main_v6 (ix2 i (0 : Fin 1)) = a2 m c (ix1 i) := by
  rw [V4_v6]; exact col_apply (a2 m c) i
theorem V4_v7_apply (j : Fin 8192) : Run.V4 m c main_v7 (ix2 (0 : Fin 1) j) = a2 m c (ix1 j) := by
  rw [V4_v7]; exact row_apply (a2 m c) j

/-! ## What the second kernel is entered with: the first kernel's inputs unchanged, its two outputs -/

theorem V5_in (w : Fin cfg0.W) (hw : (cfg0.win w).isOut = false) :
    W5 m c (Proc.devRef .tc (Pipeline.arrRef spec0 w)) = Run.V4 m c (Pipeline.arrRef spec0 w) :=
  (W5_arr m c w).trans (((R0.dat (Run.V4 m) c).arrAt_in w hw _).trans (R0.A_eq (Run.V4 m) c w))
theorem V5_v2 : Run.V5 m c main_v2 = Run.V4 m c main_v2 := V5_in m c 0 rfl
theorem V5_v5 : Run.V5 m c main_v5 = Run.V4 m c main_v5 := V5_in m c 1 rfl
theorem V5_v6 : Run.V5 m c main_v6 = Run.V4 m c main_v6 := V5_in m c 2 rfl
theorem V5_v7 : Run.V5 m c main_v7 = Run.V4 m c main_v7 := V5_in m c 3 rfl
theorem V5_v8_0 : Run.V5 m c main_v8_0 = (R0.dat (Run.V4 m) c).arrAt 4 cfg0.N := W5_arr m c 4
theorem V5_v8_1 : Run.V5 m c main_v8_1 = (R0.dat (Run.V4 m) c).arrAt 5 cfg0.N := W5_arr m c 5

/-- The label arrays and the normalised features, as the plain functions the specification is stated over. -/
abbrev fA : Fin 8192 → Fin 128 → EReal := Cert.Spec.nrmRow fun i k => a0 m c (ix2 i k)
abbrev fB : Fin 8192 → Fin 128 → EReal := Cert.Spec.nrmRow fun i k => a1 m c (ix2 i k)
abbrev fl : Fin 8192 → BitVec 32 := fun i => a2 m c (ix1 i)

/-- The first pass's masked sum of exponentials, row by row. -/
theorem denom_row (i : Fin 8192) : Run.V5 m c main_v8_0 (ix2 i (0 : Fin 1)) = Cert.Spec.denom2 (fA m c) (fB m c) (fl m c) (fl m c) i := by
  rw [V5_v8_0, R0.denom_final (Run.V4 m) c i]
  show Cert.Spec.denom2 (fun i k => Run.V4 m c main_v2 (ix2 i k)) (fun j k => Run.V4 m c main_v5 (ix2 j k))
    (fun i => Run.V4 m c main_v6 (ix2 i (0 : Fin 1))) (fun j => Run.V4 m c main_v7 (ix2 (0 : Fin 1) j)) i = _
  have h1 : (fun i k => Run.V4 m c main_v2 (ix2 i k)) = fA m c := funext fun i => funext fun k => V4_v2_apply m c i k
  have h2 : (fun j k => Run.V4 m c main_v5 (ix2 j k)) = fB m c := funext fun j => funext fun k => V4_v5_apply m c j k
  have h3 : (fun i => Run.V4 m c main_v6 (ix2 i (0 : Fin 1))) = fl m c := funext fun i => V4_v6_apply m c i
  have h4 : (fun j => Run.V4 m c main_v7 (ix2 (0 : Fin 1) j)) = fl m c := funext fun j => V4_v7_apply m c j
  rw [h1, h2, h3, h4]

/-- The first pass's count, row by row. -/
theorem cnt_row (i : Fin 8192) : Run.V5 m c main_v8_1 (ix2 i (0 : Fin 1)) = Cert.Spec.cnt2 (fl m c) (fl m c) i := by
  rw [V5_v8_1, R0.cnt_final (Run.V4 m) c i]
  show Cert.Spec.cnt2 (fun i => Run.V4 m c main_v6 (ix2 i (0 : Fin 1))) (fun j => Run.V4 m c main_v7 (ix2 (0 : Fin 1) j)) i = _
  have h3 : (fun i => Run.V4 m c main_v6 (ix2 i (0 : Fin 1))) = fl m c := funext fun i => V4_v6_apply m c i
  have h4 : (fun j => Run.V4 m c main_v7 (ix2 (0 : Fin 1) j)) = fl m c := funext fun j => V4_v7_apply m c j
  rw [h3, h4]

/-- The second pass's log-ratio sum, row by row, over the first pass's denominator. -/
theorem sms_row (i : Fin 8192) :
    Run.V6 m c main_v9 (ix2 i (0 : Fin 1)) = Cert.Spec.sms2 (fA m c) (fB m c) (fl m c) (fl m c) (Cert.Spec.denom2 (fA m c) (fB m c) (fl m c) (fl m c)) i := by
  rw [show Run.V6 m c main_v9 = (R1.dat (Run.V5 m) c).arrAt 5 cfg1.N from W6_arr m c 5, R1.sms_final (Run.V5 m) c i]
  show Cert.Spec.sms2 (fun i k => Run.V5 m c main_v2 (ix2 i k)) (fun j k => Run.V5 m c main_v5 (ix2 j k))
    (fun i => Run.V5 m c main_v6 (ix2 i (0 : Fin 1))) (fun j => Run.V5 m c main_v7 (ix2 (0 : Fin 1) j))
    (fun i => Run.V5 m c main_v8_0 (ix2 i (0 : Fin 1))) i = _
  have h1 : (fun i k => Run.V5 m c main_v2 (ix2 i k)) = fA m c :=
    funext fun i => funext fun k => by rw [V5_v2]; exact V4_v2_apply m c i k
  have h2 : (fun j k => Run.V5 m c main_v5 (ix2 j k)) = fB m c :=
    funext fun j => funext fun k => by rw [V5_v5]; exact V4_v5_apply m c j k
  have h3 : (fun i => Run.V5 m c main_v6 (ix2 i (0 : Fin 1))) = fl m c :=
    funext fun i => by rw [V5_v6]; exact V4_v6_apply m c i
  have h4 : (fun j => Run.V5 m c main_v7 (ix2 (0 : Fin 1) j)) = fl m c :=
    funext fun j => by rw [V5_v7]; exact V4_v7_apply m c j
  have h5 : (fun i => Run.V5 m c main_v8_0 (ix2 i (0 : Fin 1))) = Cert.Spec.denom2 (fA m c) (fB m c) (fl m c) (fl m c) :=
    funext fun i => denom_row m c i
  rw [h1, h2, h3, h4, h5]

/-! ## The two vectors the last host operations take, against the reference's -/

theorem cnt_vec : shapeCast S8192 (W6 m c (Proc.devRef .tc main_v8_1) : (⟨S8192x1, .f32⟩ : BufTy).Contents (Elt Ideal)) shapeCasts_S8192x1_S8192
    = Cert.ReferenceIdeal.Read.val_main_v29 (F := Ideal) (a2 m c) := by
  funext idx
  obtain ⟨i, rfl⟩ : ∃ i : Fin 8192, idx = ix1 i := ⟨idx 0, eq_ix1 idx⟩
  rw [squeeze_apply, Cert.RefSide.ref_cnt, Cert.Spec.cnt_eq]
  rw [show W6 m c (Proc.devRef .tc main_v8_1) = Run.V5 m c main_v8_1 from W6_of_ne m c main_v8_1 (by decide)]
  exact cnt_row m c i

theorem sms_vec : shapeCast S8192 (W6 m c (Proc.devRef .tc main_v9) : (⟨S8192x1, .f32⟩ : BufTy).Contents (Elt Ideal)) shapeCasts_S8192x1_S8192
    = Cert.ReferenceIdeal.Read.val_main_v26 (F := Ideal) (a0 m c) (a1 m c) (a2 m c) := by
  funext idx
  obtain ⟨i, rfl⟩ : ∃ i : Fin 8192, idx = ix1 i := ⟨idx 0, eq_ix1 idx⟩
  rw [squeeze_apply, Cert.RefSide.ref_sms, Cert.Spec.sms_eq]
  exact sms_row m c i

/-- The reference's last operations are the kernel program's, applied to its own count and log-ratio-sum vectors. -/
theorem ref_tail (x0 x1 : (⟨S8192x128, .f32⟩ : BufTy).Contents (Elt Ideal)) (x2 : (⟨S8192, .i32⟩ : BufTy).Contents (Elt Ideal)) :
    Cert.ReferenceIdeal.Read.val_main_v33 (F := Ideal) x0 x1 x2
      = tailK (Cert.ReferenceIdeal.Read.val_main_v29 (F := Ideal) x2) (Cert.ReferenceIdeal.Read.val_main_v26 (F := Ideal) x0 x1 x2) := rfl

/-- THE VALUE: the kernel program's result buffer at the end holds the reference's result term of the same arguments. -/
theorem kernel_eq_ref : W7 m c (Proc.devRef .tc main_v15)
    = Cert.ReferenceIdeal.Read.val_main_v33 (F := Ideal) (a0 m c) (a1 m c) (a2 m c) := by
  rw [ref_tail, ← cnt_vec m c, ← sms_vec m c]
  exact tail_eq (W6 m c)

end Cert.KernelIdeal.Bridge

end
-- ==== Proof.lean ====
/-
  The certificate of a contrastive (supervised-contrast) loss computed in two tiled passes against its plain reference.

  With the rows of the two feature arrays divided by their euclidean norms, e(i,j) the exponential of the inner product of
  row i of the first with row j of the second, and two rows "the same" when their labels are equal: the first pass
  computes, for every row i, the sum of e(i,j) over the columns of another label and the number of columns of the same
  label; the second pass the sum over the columns of the same label of log (e / (e + that first sum)); the host then sums
  (−1 / count) · (log-ratio sum) over the rows. Each pass walks an 8 × 8 grid of 1024 × 1024 tiles, accumulating its row sums
  over the eight column blocks in a scratch buffer that is zeroed at the first column block, added to at every block and
  copied to the output at the last.

  The frames (both programs of the kernel run to the end, fault nowhere and leave their arguments unchanged) are proved
  region by region: each pass's body is run once in each of its three control cases (first column block, middle, last),
  the scratch accumulator's contents carried from point to point, and the two passes and the host operations around them are
  composed in program order. Nothing was rewritten by the idealization, so it is preserved trivially. At the ideal values
  the two programs' results agree because they end with the same host operations applied to row vectors that agree row by
  row: sums over 8192 columns taken 1024 at a time are whole sums, the reference's product of e with the converted negated
  mask is the kernel's selection (x · 1 = x and x · 0 = 0 for every extended real), and its integer count of a row's
  matches, converted, is the kernel's sum of ones.
-/
import proofs.«105148_j76553497084189_1_alg».proof.Defs
import proofs.«105148_j76553497084189_1_alg».proof.Proof.Gen.Kernel
import proofs.«105148_j76553497084189_1_alg».proof.Proof.Gen.KernelIdeal
import proofs.«105148_j76553497084189_1_alg».proof.Proof.Gen.ReferenceIdeal
import proofs.«105148_j76553497084189_1_alg».proof.Proof.Gen.ReferenceIdeal.Run
import proofs.«105148_j76553497084189_1_alg».proof.Proof.Gen.ReferenceIdeal.Read
import proofs.«105148_j76553497084189_1_alg».proof.Proof.Gen.Pre_finite_inputs
import proofs.«105148_j76553497084189_1_alg».proof.Proof.FrameK.Main
import proofs.«105148_j76553497084189_1_alg».proof.Proof.FrameKI.Main
import proofs.«105148_j76553497084189_1_alg».proof.Proof.KIBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs run; the kernel program's result buffer ends at the fold of its host operations through the
    two passes' write-backs, which is the reference's result term of the same arguments. -/
theorem algebraic : Cert.algebraic_KernelIdeal_ReferenceIdeal := by
  intro m ρ m' ρ' _ hagree
  refine ⟨fun c => Cert.KernelIdeal.Run.W7 m c (Proc.devRef .tc Cert.KernelIdeal.main_v15), ?_, ?_⟩
  · exact (θ_run Cert.KernelIdeal.defs _ _).mono (fun r h c =>
      ⟨h c _ (Cert.KernelIdeal.Run.mem_uc Cert.KernelIdeal.main_v15 (by decide)),
       (h c _ (Cert.KernelIdeal.Run.mem_uc Cert.KernelIdeal.main_arg0 (by decide))).trans (Cert.KernelIdeal.Run.W7_main_arg0 m c),
       (h c _ (Cert.KernelIdeal.Run.mem_uc Cert.KernelIdeal.main_arg1 (by decide))).trans (Cert.KernelIdeal.Run.W7_main_arg1 m c),
       (h c _ (Cert.KernelIdeal.Run.mem_uc Cert.KernelIdeal.main_arg2 (by decide))).trans (Cert.KernelIdeal.Run.W7_main_arg2 m c)⟩)
      (Cert.KernelIdeal.Run.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, (hagree c).1, (hagree c).2.1, (hagree c).2.2]
    exact (Cert.KernelIdeal.Bridge.kernel_eq_ref m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
